-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x39 : Shape := ⟨2, ![100000, 39]⟩
abbrev S200000x11 : Shape := ⟨2, ![200000, 11]⟩
abbrev S100000x6 : Shape := ⟨2, ![100000, 6]⟩
abbrev S200000x2 : Shape := ⟨2, ![200000, 2]⟩
abbrev S256x39 : Shape := ⟨2, ![256, 39]⟩
abbrev S256x267 : Shape := ⟨2, ![256, 267]⟩
abbrev S_ : Shape := ⟨0, ![]⟩

class Facts : Prop where
  bcast_S_S100000x39 : S_.BroadcastsInDim S100000x39 (![] : Fin 0 → Fin S100000x39.rank)
  reducesTo_S100000x39_S_d0_1 : S100000x39.ReducesTo [0, 1] S_
  h_S_ : 0 < S_.numel
  bcast_S_S200000x11 : S_.BroadcastsInDim S200000x11 (![] : Fin 0 → Fin S200000x11.rank)
  reducesTo_S200000x11_S_d0_1 : S200000x11.ReducesTo [0, 1] S_
  bcast_S_S256x39 : S_.BroadcastsInDim S256x39 (![] : Fin 0 → Fin S256x39.rank)
  reducesTo_S256x39_S_d0_1 : S256x39.ReducesTo [0, 1] S_
  bcast_S_S256x267 : S_.BroadcastsInDim S256x267 (![] : Fin 0 → Fin S256x267.rank)
  reducesTo_S256x267_S_d0_1 : S256x267.ReducesTo [0, 1] S_

variable [Facts]

def fn_part1 {F : FTy → Type} [FloatOps F] (main_v13 : IVec S_ 1) (main_v16 : IVec S256x267 1) : IVec S_ 1 :=
  let main_c_5 : IVec S_ 1 := constantI S_ 1 1#1
  let main_v17 : IVec S_ 1 := (fun x v => Host.reduce IntOp.andi x v reducesTo_S256x267_S_d0_1 h_S_) main_v16 main_c_5
  let main_v18 : IVec S_ 1 := andi main_v13 main_v17
  main_v18

def fn {F : FTy → Type} [FloatOps F] (main_arg0 : FVec F S100000x39 .f32) (main_arg1 : FVec F S200000x11 .f32) (main_arg2 : IVec S100000x6 32) (main_arg3 : IVec S200000x2 32) (main_arg4 : FVec F S256x39 .f32) (main_arg5 : FVec F S256x267 .f32) : IVec S_ 1 :=
  let main_v0 : FVec F S100000x39 .f32 := Host.absf main_arg0
  let main_cst : FVec F S_ .f32 := constant S_ .f32 0x7F800000#32
  let main_v1 : FVec F S100000x39 .f32 := broadcastInDim S100000x39 ![] bcast_S_S100000x39 main_cst
  let main_v2 : IVec S100000x39 1 := cmpf .olt main_v0 main_v1
  let main_c : IVec S_ 1 := constantI S_ 1 1#1
  let main_v3 : IVec S_ 1 := (fun x v => Host.reduce IntOp.andi x v reducesTo_S100000x39_S_d0_1 h_S_) main_v2 main_c
  let main_v4 : FVec F S200000x11 .f32 := Host.absf main_arg1
  let main_cst_0 : FVec F S_ .f32 := constant S_ .f32 0x7F800000#32
  let main_v5 : FVec F S200000x11 .f32 := broadcastInDim S200000x11 ![] bcast_S_S200000x11 main_cst_0
  let main_v6 : IVec S200000x11 1 := cmpf .olt main_v4 main_v5
  let main_c_1 : IVec S_ 1 := constantI S_ 1 1#1
  let main_v7 : IVec S_ 1 := (fun x v => Host.reduce IntOp.andi x v reducesTo_S200000x11_S_d0_1 h_S_) main_v6 main_c_1
  let main_v8 : IVec S_ 1 := andi main_v3 main_v7
  let main_v9 : FVec F S256x39 .f32 := Host.absf main_arg4
  let main_cst_2 : FVec F S_ .f32 := constant S_ .f32 0x7F800000#32
  let main_v10 : FVec F S256x39 .f32 := broadcastInDim S256x39 ![] bcast_S_S256x39 main_cst_2
  let main_v11 : IVec S256x39 1 := cmpf .olt main_v9 main_v10
  let main_c_3 : IVec S_ 1 := constantI S_ 1 1#1
  let main_v12 : IVec S_ 1 := (fun x v => Host.reduce IntOp.andi x v reducesTo_S256x39_S_d0_1 h_S_) main_v11 main_c_3
  let main_v13 : IVec S_ 1 := andi main_v8 main_v12
  let main_v14 : FVec F S256x267 .f32 := Host.absf main_arg5
  let main_cst_4 : FVec F S_ .f32 := constant S_ .f32 0x7F800000#32
  let main_v15 : FVec F S256x267 .f32 := broadcastInDim S256x267 ![] bcast_S_S256x267 main_cst_4
  let main_v16 : IVec S256x267 1 := cmpf .olt main_v14 main_v15
  fn_part1 (F := F) main_v13 main_v16
-- ==== Kernel.lean ====
abbrev S100000x39 : Shape := ⟨2, ![100000, 39]⟩
abbrev S200000x11 : Shape := ⟨2, ![200000, 11]⟩
abbrev S100000x6 : Shape := ⟨2, ![100000, 6]⟩
abbrev S200000x2 : Shape := ⟨2, ![200000, 2]⟩
abbrev S256x39 : Shape := ⟨2, ![256, 39]⟩
abbrev S256x267 : Shape := ⟨2, ![256, 267]⟩
abbrev S39x256 : Shape := ⟨2, ![39, 256]⟩
abbrev S267x256 : Shape := ⟨2, ![267, 256]⟩
abbrev S100000x256 : Shape := ⟨2, ![100000, 256]⟩
abbrev S2000x39 : Shape := ⟨2, ![2000, 39]⟩
abbrev S2000x256 : Shape := ⟨2, ![2000, 256]⟩
abbrev S199999x1 : Shape := ⟨2, ![199999, 1]⟩
abbrev S199999 : Shape := ⟨1, ![199999]⟩
abbrev S_ : Shape := ⟨0, ![]⟩
abbrev S1x256 : Shape := ⟨2, ![1, 256]⟩
abbrev S199999x256 : Shape := ⟨2, ![199999, 256]⟩
abbrev S200000x256 : Shape := ⟨2, ![200000, 256]⟩
abbrev S200000x267 : Shape := ⟨2, ![200000, 267]⟩
abbrev S100000x6x1 : Shape := ⟨3, ![100000, 6, 1]⟩
abbrev S100000x6x267 : Shape := ⟨3, ![100000, 6, 267]⟩
abbrev S800x256 : Shape := ⟨2, ![800, 256]⟩
abbrev S800x6x267 : Shape := ⟨3, ![800, 6, 267]⟩
abbrev S800x267 : Shape := ⟨2, ![800, 267]⟩
abbrev S256x100000 : Shape := ⟨2, ![256, 100000]⟩

abbrev nBuf : Space → Nat
  | .hbm => 140
  | .vmem => 47
  | .smem => 0
  | _ => 0

abbrev hbmTy0_0 (i : Nat) : BufTy := match i % 128 with
  | 0 => ⟨S100000x39, .f32⟩
  | 1 => ⟨S200000x11, .f32⟩
  | 2 => ⟨S100000x6, .i32⟩
  | 3 => ⟨S200000x2, .i32⟩
  | 4 => ⟨S256x39, .f32⟩
  | 5 => ⟨S256x267, .f32⟩
  | 6 => ⟨S39x256, .f32⟩
  | 7 => ⟨S267x256, .f32⟩
  | 8 => ⟨S100000x256, .f32⟩
  | 9 => ⟨S199999x1, .i32⟩
  | 10 => ⟨S199999, .i32⟩
  | 11 => ⟨S_, .f32⟩
  | 12 => ⟨S1x256, .f32⟩
  | 13 => ⟨S_, .i32⟩
  | 14 => ⟨S199999, .i32⟩
  | 15 => ⟨S199999, .i1⟩
  | 16 => ⟨S_, .i32⟩
  | 17 => ⟨S199999, .i32⟩
  | 18 => ⟨S199999, .i32⟩
  | 19 => ⟨S199999, .i32⟩
  | 20 => ⟨S199999x1, .i32⟩
  | 21 => ⟨S199999x256, .f32⟩
  | 22 => ⟨S200000x256, .f32⟩
  | 23 => ⟨S200000x267, .f32⟩
  | 24 => ⟨S_, .i32⟩
  | 25 => ⟨S100000x6, .i32⟩
  | 26 => ⟨S100000x6, .i1⟩
  | 27 => ⟨S_, .i32⟩
  | 28 => ⟨S100000x6, .i32⟩
  | 29 => ⟨S100000x6, .i32⟩
  | 30 => ⟨S100000x6, .i32⟩
  | 31 => ⟨S100000x6x1, .i32⟩
  | 32 => ⟨S100000x6x267, .f32⟩
  | 33 => ⟨S100000x256, .f32⟩
  | 34 => ⟨S_, .i32⟩
  | 35 => ⟨S199999, .i32⟩
  | 36 => ⟨S199999, .i1⟩
  | 37 => ⟨S_, .i32⟩
  | 38 => ⟨S199999, .i32⟩
  | 39 => ⟨S199999, .i32⟩
  | 40 => ⟨S199999, .i32⟩
  | 41 => ⟨S199999x1, .i32⟩
  | 42 => ⟨S199999x256, .f32⟩
  | 43 => ⟨S200000x256, .f32⟩
  | 44 => ⟨S200000x267, .f32⟩
  | 45 => ⟨S_, .i32⟩
  | 46 => ⟨S100000x6, .i32⟩
  | 47 => ⟨S100000x6, .i1⟩
  | 48 => ⟨S_, .i32⟩
  | 49 => ⟨S100000x6, .i32⟩
  | 50 => ⟨S100000x6, .i32⟩
  | 51 => ⟨S100000x6, .i32⟩
  | 52 => ⟨S100000x6x1, .i32⟩
  | 53 => ⟨S100000x6x267, .f32⟩
  | 54 => ⟨S100000x256, .f32⟩
  | 55 => ⟨S_, .i32⟩
  | 56 => ⟨S199999, .i32⟩
  | 57 => ⟨S199999, .i1⟩
  | 58 => ⟨S_, .i32⟩
  | 59 => ⟨S199999, .i32⟩
  | 60 => ⟨S199999, .i32⟩
  | 61 => ⟨S199999, .i32⟩
  | 62 => ⟨S199999x1, .i32⟩
  | 63 => ⟨S199999x256, .f32⟩
  | 64 => ⟨S200000x256, .f32⟩
  | 65 => ⟨S200000x267, .f32⟩
  | 66 => ⟨S_, .i32⟩
  | 67 => ⟨S100000x6, .i32⟩
  | 68 => ⟨S100000x6, .i1⟩
  | 69 => ⟨S_, .i32⟩
  | 70 => ⟨S100000x6, .i32⟩
  | 71 => ⟨S100000x6, .i32⟩
  | 72 => ⟨S100000x6, .i32⟩
  | 73 => ⟨S100000x6x1, .i32⟩
  | 74 => ⟨S100000x6x267, .f32⟩
  | 75 => ⟨S100000x256, .f32⟩
  | 76 => ⟨S_, .i32⟩
  | 77 => ⟨S199999, .i32⟩
  | 78 => ⟨S199999, .i1⟩
  | 79 => ⟨S_, .i32⟩
  | 80 => ⟨S199999, .i32⟩
  | 81 => ⟨S199999, .i32⟩
  | 82 => ⟨S199999, .i32⟩
  | 83 => ⟨S199999x1, .i32⟩
  | 84 => ⟨S199999x256, .f32⟩
  | 85 => ⟨S200000x256, .f32⟩
  | 86 => ⟨S200000x267, .f32⟩
  | 87 => ⟨S_, .i32⟩
  | 88 => ⟨S100000x6, .i32⟩
  | 89 => ⟨S100000x6, .i1⟩
  | 90 => ⟨S_, .i32⟩
  | 91 => ⟨S100000x6, .i32⟩
  | 92 => ⟨S100000x6, .i32⟩
  | 93 => ⟨S100000x6, .i32⟩
  | 94 => ⟨S100000x6x1, .i32⟩
  | 95 => ⟨S100000x6x267, .f32⟩
  | 96 => ⟨S100000x256, .f32⟩
  | 97 => ⟨S_, .i32⟩
  | 98 => ⟨S199999, .i32⟩
  | 99 => ⟨S199999, .i1⟩
  | 100 => ⟨S_, .i32⟩
  | 101 => ⟨S199999, .i32⟩
  | 102 => ⟨S199999, .i32⟩
  | 103 => ⟨S199999, .i32⟩
  | 104 => ⟨S199999x1, .i32⟩
  | 105 => ⟨S199999x256, .f32⟩
  | 106 => ⟨S200000x256, .f32⟩
  | 107 => ⟨S200000x267, .f32⟩
  | 108 => ⟨S_, .i32⟩
  | 109 => ⟨S100000x6, .i32⟩
  | 110 => ⟨S100000x6, .i1⟩
  | 111 => ⟨S_, .i32⟩
  | 112 => ⟨S100000x6, .i32⟩
  | 113 => ⟨S100000x6, .i32⟩
  | 114 => ⟨S100000x6, .i32⟩
  | 115 => ⟨S100000x6x1, .i32⟩
  | 116 => ⟨S100000x6x267, .f32⟩
  | 117 => ⟨S100000x256, .f32⟩
  | 118 => ⟨S_, .i32⟩
  | 119 => ⟨S199999, .i32⟩
  | 120 => ⟨S199999, .i1⟩
  | 121 => ⟨S_, .i32⟩
  | 122 => ⟨S199999, .i32⟩
  | 123 => ⟨S199999, .i32⟩
  | 124 => ⟨S199999, .i32⟩
  | 125 => ⟨S199999x1, .i32⟩
  | 126 => ⟨S199999x256, .f32⟩
  | 127 => ⟨S200000x256, .f32⟩
  | _ => ⟨S100000x39, .f32⟩

abbrev hbmTy0_1 (i : Nat) : BufTy := match i % 128 with
  | 0 => ⟨S200000x267, .f32⟩
  | 1 => ⟨S_, .i32⟩
  | 2 => ⟨S100000x6, .i32⟩
  | 3 => ⟨S100000x6, .i1⟩
  | 4 => ⟨S_, .i32⟩
  | 5 => ⟨S100000x6, .i32⟩
  | 6 => ⟨S100000x6, .i32⟩
  | 7 => ⟨S100000x6, .i32⟩
  | 8 => ⟨S100000x6x1, .i32⟩
  | 9 => ⟨S100000x6x267, .f32⟩
  | 10 => ⟨S100000x256, .f32⟩
  | 11 => ⟨S256x100000, .f32⟩
  | _ => ⟨S100000x39, .f32⟩

abbrev hbmTy (i : Nat) : BufTy := match i / 128 with
  | 0 => hbmTy0_0 i
  | 1 => hbmTy0_1 i
  | _ => ⟨S100000x39, .f32⟩

abbrev bufTy : (tb : Table) → Fin (tcTables nBuf tb) → BufTy
  | .hbm, ⟨i, _⟩ => hbmTy i
  | .local _ .vmem, ⟨0, _⟩ => ⟨S2000x39, .f32⟩
  | .local _ .vmem, ⟨1, _⟩ => ⟨S2000x39, .f32⟩
  | .local _ .vmem, ⟨2, _⟩ => ⟨S39x256, .f32⟩
  | .local _ .vmem, ⟨3, _⟩ => ⟨S2000x256, .f32⟩
  | .local _ .vmem, ⟨4, _⟩ => ⟨S2000x256, .f32⟩
  | .local _ .vmem, ⟨5, _⟩ => ⟨S800x256, .f32⟩
  | .local _ .vmem, ⟨6, _⟩ => ⟨S800x256, .f32⟩
  | .local _ .vmem, ⟨7, _⟩ => ⟨S800x6x267, .f32⟩
  | .local _ .vmem, ⟨8, _⟩ => ⟨S800x6x267, .f32⟩
  | .local _ .vmem, ⟨9, _⟩ => ⟨S267x256, .f32⟩
  | .local _ .vmem, ⟨10, _⟩ => ⟨S800x256, .f32⟩
  | .local _ .vmem, ⟨11, _⟩ => ⟨S800x256, .f32⟩
  | .local _ .vmem, ⟨12, _⟩ => ⟨S800x256, .f32⟩
  | .local _ .vmem, ⟨13, _⟩ => ⟨S800x256, .f32⟩
  | .local _ .vmem, ⟨14, _⟩ => ⟨S800x6x267, .f32⟩
  | .local _ .vmem, ⟨15, _⟩ => ⟨S800x6x267, .f32⟩
  | .local _ .vmem, ⟨16, _⟩ => ⟨S267x256, .f32⟩
  | .local _ .vmem, ⟨17, _⟩ => ⟨S800x256, .f32⟩
  | .local _ .vmem, ⟨18, _⟩ => ⟨S800x256, .f32⟩
  | .local _ .vmem, ⟨19, _⟩ => ⟨S800x256, .f32⟩
  | .local _ .vmem, ⟨20, _⟩ => ⟨S800x256, .f32⟩
  | .local _ .vmem, ⟨21, _⟩ => ⟨S800x6x267, .f32⟩
  | .local _ .vmem, ⟨22, _⟩ => ⟨S800x6x267, .f32⟩
  | .local _ .vmem, ⟨23, _⟩ => ⟨S267x256, .f32⟩
  | .local _ .vmem, ⟨24, _⟩ => ⟨S800x256, .f32⟩
  | .local _ .vmem, ⟨25, _⟩ => ⟨S800x256, .f32⟩
  | .local _ .vmem, ⟨26, _⟩ => ⟨S800x256, .f32⟩
  | .local _ .vmem, ⟨27, _⟩ => ⟨S800x256, .f32⟩
  | .local _ .vmem, ⟨28, _⟩ => ⟨S800x6x267, .f32⟩
  | .local _ .vmem, ⟨29, _⟩ => ⟨S800x6x267, .f32⟩
  | .local _ .vmem, ⟨30, _⟩ => ⟨S267x256, .f32⟩
  | .local _ .vmem, ⟨31, _⟩ => ⟨S800x256, .f32⟩
  | .local _ .vmem, ⟨32, _⟩ => ⟨S800x256, .f32⟩
  | .local _ .vmem, ⟨33, _⟩ => ⟨S800x256, .f32⟩
  | .local _ .vmem, ⟨34, _⟩ => ⟨S800x256, .f32⟩
  | .local _ .vmem, ⟨35, _⟩ => ⟨S800x6x267, .f32⟩
  | .local _ .vmem, ⟨36, _⟩ => ⟨S800x6x267, .f32⟩
  | .local _ .vmem, ⟨37, _⟩ => ⟨S267x256, .f32⟩
  | .local _ .vmem, ⟨38, _⟩ => ⟨S800x256, .f32⟩
  | .local _ .vmem, ⟨39, _⟩ => ⟨S800x256, .f32⟩
  | .local _ .vmem, ⟨40, _⟩ => ⟨S800x256, .f32⟩
  | .local _ .vmem, ⟨41, _⟩ => ⟨S800x256, .f32⟩
  | .local _ .vmem, ⟨42, _⟩ => ⟨S800x6x267, .f32⟩
  | .local _ .vmem, ⟨43, _⟩ => ⟨S800x6x267, .f32⟩
  | .local _ .vmem, ⟨44, _⟩ => ⟨S267x256, .f32⟩
  | .local _ .vmem, ⟨45, _⟩ => ⟨S800x256, .f32⟩
  | .local _ .vmem, ⟨46, _⟩ => ⟨S800x256, .f32⟩
  | _, _ => ⟨S100000x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_c_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_15 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_17 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_19 : Ref sig .tc := ⟨.hbm, 118, rfl⟩
abbrev main_v91 : Ref sig .tc := ⟨.hbm, 119, rfl⟩
abbrev main_v92 : Ref sig .tc := ⟨.hbm, 120, rfl⟩
abbrev main_c_20 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_21 : Ref sig .tc := ⟨.hbm, 129, rfl⟩
abbrev main_v100 : Ref sig .tc := ⟨.hbm, 130, rfl⟩
abbrev main_v101 : Ref sig .tc := ⟨.hbm, 131, rfl⟩
abbrev main_c_22 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem3_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x6x267 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S267x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S800x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x6x267 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S267x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S800x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S800x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S800x6x267 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S267x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S800x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S800x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S800x6x267 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S267x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S800x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S800x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S800x6x267 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S267x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S800x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S800x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S800x6x267 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S267x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S800x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  transposes_S256x39_S39x256_1_0 : S256x39.Transposes [1, 0] S39x256
  transposes_S256x267_S267x256_1_0 : S256x267.Transposes [1, 0] S267x256
  inb_S2000x39_S2000x39_0_0 : ∀ a, (![0, 0] : Fin 2 → Nat) a + S2000x39.size a ≤ S2000x39.size a
  h_S2000x39 : 0 < S2000x39.numel
  bitsLt_bf16_f32 : FTy.bits .bf16 < FTy.bits .f32
  inb_S39x256_S39x256_0_0 : ∀ a, (![0, 0] : Fin 2 → Nat) a + S39x256.size a ≤ S39x256.size a
  h_S39x256 : 0 < S39x256.numel
  shapeCasts_S39x256_S39x256 : S39x256.ShapeCasts S39x256
  inb_S2000x256_S2000x256_0_0 : ∀ a, (![0, 0] : Fin 2 → Nat) a + S2000x256.size a ≤ S2000x256.size a
  h_S2000x256 : 0 < S2000x256.numel
  slices_S200000x2_S199999x1_1_1 : S200000x2.Slices ![1, 1] S199999x1
  shapeCasts_S199999x1_S199999 : S199999x1.ShapeCasts S199999
  bcast_S_S1x256 : S_.BroadcastsInDim S1x256 (![] : Fin 0 → Fin S1x256.rank)
  bcast_S_S199999 : S_.BroadcastsInDim S199999 (![] : Fin 0 → Fin S199999.rank)
  bcast_S199999_S199999x1_0 : S199999.BroadcastsInDim S199999x1 (![0] : Fin 1 → Fin S199999x1.rank)
  concatenates_S1x256_S199999x256_S200000x256_d0 : Shape.Concatenates [S1x256, S199999x256] S200000x256 0
  concatenates_S200000x256_S200000x11_S200000x267_d1 : Shape.Concatenates [S200000x256, S200000x11] S200000x267 1
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  inb_S800x6x267_S800x6x267_0_0_0 : ∀ a, (![0, 0, 0] : Fin 3 → Nat) a + S800x6x267.size a ≤ S800x6x267.size a
  h_S800x6x267 : 0 < S800x6x267.numel
  shapeCasts_S800x6x267_S800x6x267 : S800x6x267.ShapeCasts S800x6x267
  reduces_S800x6x267_S800x267 : S800x6x267.Reduces [1] S800x267
  inb_S267x256_S267x256_0_0 : ∀ a, (![0, 0] : Fin 2 → Nat) a + S267x256.size a ≤ S267x256.size a
  h_S267x256 : 0 < S267x256.numel
  shapeCasts_S267x256_S267x256 : S267x256.ShapeCasts S267x256
  inb_S800x256_S800x256_0_0 : ∀ a, (![0, 0] : Fin 2 → Nat) a + S800x256.size a ≤ S800x256.size a
  h_S800x256 : 0 < S800x256.numel
  shapeCasts_S800x256_S800x256 : S800x256.ShapeCasts S800x256
  transposes_S100000x256_S256x100000_1_0 : S100000x256.Transposes [1, 0] S256x100000
  dot_S2000x39_S39x256_S2000x256_1_0_0_1_n_n_wf : DotDims.WF S2000x39 S39x256 S2000x256 [1] [0] [0] [1] [] []
  gather_S100000x256_S199999x1_S199999x256_1_0_n_n_0_1_1256_wf : GatherDims.WF S100000x256 S199999x1 S199999x256 [1] [0] [] [0] [] 1 ![1, 256]
  gather_S200000x267_S100000x6x1_S100000x6x267_2_0_n_n_0_2_1267_wf : GatherDims.WF S200000x267 S100000x6x1 S100000x6x267 [2] [0] [] [0] [] 2 ![1, 267]
  dot_S800x267_S267x256_S800x256_1_0_0_1_n_n_wf : DotDims.WF S800x267 S267x256 S800x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x39.size a ≤ S100000x39.size a
  hwx0_0 : ∀ i : grid0.Coords, EltTy.bits .f32 = 32 ∨ (Rect.block (s := S100000x39) S2000x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x256.size a ≤ S39x256.size a
  hwx0_1 : ∀ i : grid0.Coords, EltTy.bits .f32 = 32 ∨ (Rect.block (s := S39x256) S39x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x256.size a ≤ S100000x256.size a
  hwx1_0 : ∀ i : grid1.Coords, EltTy.bits .f32 = 32 ∨ (Rect.block (s := S100000x256) S800x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x6x267.size a ≤ S100000x6x267.size a
  hwx1_1 : ∀ i : grid1.Coords, EltTy.bits .f32 = 32 ∨ (Rect.block (s := S100000x6x267) S800x6x267.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S267x256.size a ≤ S267x256.size a
  hwx1_2 : ∀ i : grid1.Coords, EltTy.bits .f32 = 32 ∨ (Rect.block (s := S267x256) S267x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S800x256.size a ≤ S100000x256.size a
  hwx1_3 : ∀ i : grid1.Coords, EltTy.bits .f32 = 32 ∨ (Rect.block (s := S100000x256) S800x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x256.size a ≤ S100000x256.size a
  hwx2_0 : ∀ i : grid2.Coords, EltTy.bits .f32 = 32 ∨ (Rect.block (s := S100000x256) S800x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x6x267.size a ≤ S100000x6x267.size a
  hwx2_1 : ∀ i : grid2.Coords, EltTy.bits .f32 = 32 ∨ (Rect.block (s := S100000x6x267) S800x6x267.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S267x256.size a ≤ S267x256.size a
  hwx2_2 : ∀ i : grid2.Coords, EltTy.bits .f32 = 32 ∨ (Rect.block (s := S267x256) S267x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S800x256.size a ≤ S100000x256.size a
  hwx2_3 : ∀ i : grid2.Coords, EltTy.bits .f32 = 32 ∨ (Rect.block (s := S100000x256) S800x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x256.size a ≤ S100000x256.size a
  hwx3_0 : ∀ i : grid3.Coords, EltTy.bits .f32 = 32 ∨ (Rect.block (s := S100000x256) S800x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x6x267.size a ≤ S100000x6x267.size a
  hwx3_1 : ∀ i : grid3.Coords, EltTy.bits .f32 = 32 ∨ (Rect.block (s := S100000x6x267) S800x6x267.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S267x256.size a ≤ S267x256.size a
  hwx3_2 : ∀ i : grid3.Coords, EltTy.bits .f32 = 32 ∨ (Rect.block (s := S267x256) S267x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S800x256.size a ≤ S100000x256.size a
  hwx3_3 : ∀ i : grid3.Coords, EltTy.bits .f32 = 32 ∨ (Rect.block (s := S100000x256) S800x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S800x256.size a ≤ S100000x256.size a
  hwx4_0 : ∀ i : grid4.Coords, EltTy.bits .f32 = 32 ∨ (Rect.block (s := S100000x256) S800x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S800x6x267.size a ≤ S100000x6x267.size a
  hwx4_1 : ∀ i : grid4.Coords, EltTy.bits .f32 = 32 ∨ (Rect.block (s := S100000x6x267) S800x6x267.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S267x256.size a ≤ S267x256.size a
  hwx4_2 : ∀ i : grid4.Coords, EltTy.bits .f32 = 32 ∨ (Rect.block (s := S267x256) S267x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S800x256.size a ≤ S100000x256.size a
  hwx4_3 : ∀ i : grid4.Coords, EltTy.bits .f32 = 32 ∨ (Rect.block (s := S100000x256) S800x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S800x256.size a ≤ S100000x256.size a
  hwx5_0 : ∀ i : grid5.Coords, EltTy.bits .f32 = 32 ∨ (Rect.block (s := S100000x256) S800x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S800x6x267.size a ≤ S100000x6x267.size a
  hwx5_1 : ∀ i : grid5.Coords, EltTy.bits .f32 = 32 ∨ (Rect.block (s := S100000x6x267) S800x6x267.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S267x256.size a ≤ S267x256.size a
  hwx5_2 : ∀ i : grid5.Coords, EltTy.bits .f32 = 32 ∨ (Rect.block (s := S267x256) S267x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S800x256.size a ≤ S100000x256.size a
  hwx5_3 : ∀ i : grid5.Coords, EltTy.bits .f32 = 32 ∨ (Rect.block (s := S100000x256) S800x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S800x256.size a ≤ S100000x256.size a
  hwx6_0 : ∀ i : grid6.Coords, EltTy.bits .f32 = 32 ∨ (Rect.block (s := S100000x256) S800x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S800x6x267.size a ≤ S100000x6x267.size a
  hwx6_1 : ∀ i : grid6.Coords, EltTy.bits .f32 = 32 ∨ (Rect.block (s := S100000x6x267) S800x6x267.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S267x256.size a ≤ S267x256.size a
  hwx6_2 : ∀ i : grid6.Coords, EltTy.bits .f32 = 32 ∨ (Rect.block (s := S267x256) S267x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S800x256.size a ≤ S100000x256.size a
  hwx6_3 : ∀ i : grid6.Coords, EltTy.bits .f32 = 32 ∨ (Rect.block (s := S100000x256) S800x256.size (cc6_transform_3 i) (hinb6_3 i)).WholeWords (EltTy.packing .f32)

variable [Facts₀]

def dot_S2000x39_S39x256_S2000x256_1_0_0_1_n_n : DotDims S2000x39 S39x256 S2000x256 where
  lhsContracting := [1]
  rhsContracting := [0]
  lhsNonContracting := [0]
  rhsNonContracting := [1]
  lhsBatch := []
  rhsBatch := []
  wf := dot_S2000x39_S39x256_S2000x256_1_0_0_1_n_n_wf
def gather_S100000x256_S199999x1_S199999x256_1_0_n_n_0_1_1256 : GatherDims S100000x256 S199999x1 S199999x256 where
  offsetDims := [1]
  collapsedSliceDims := [0]
  operandBatchingDims := []
  startIndicesBatchingDims := []
  startIndexMap := [0]
  indexVectorDim := 1
  sliceSizes := ![1, 256]
  wf := gather_S100000x256_S199999x1_S199999x256_1_0_n_n_0_1_1256_wf
def gather_S200000x267_S100000x6x1_S100000x6x267_2_0_n_n_0_2_1267 : GatherDims S200000x267 S100000x6x1 S100000x6x267 where
  offsetDims := [2]
  collapsedSliceDims := [0]
  operandBatchingDims := []
  startIndicesBatchingDims := []
  startIndexMap := [0]
  indexVectorDim := 2
  sliceSizes := ![1, 267]
  wf := gather_S200000x267_S100000x6x1_S100000x6x267_2_0_n_n_0_2_1267_wf
def dot_S800x267_S267x256_S800x256_1_0_0_1_n_n : DotDims S800x267 S267x256 S800x256 where
  lhsContracting := [1]
  rhsContracting := [0]
  lhsNonContracting := [0]
  rhsNonContracting := [1]
  lhsBatch := []
  rhsBatch := []
  wf := dot_S800x267_S267x256_S800x256_1_0_0_1_n_n_wf

abbrev win0_0 : Pipeline.Window sig grid0 :=
  Pipeline.Window.ofSpec (Memref.whole main_arg0) S2000x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S39x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S800x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S800x6x267.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S267x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S800x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S800x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S800x6x267.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S267x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S800x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S800x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S800x6x267.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S267x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S800x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v2) S800x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S800x6x267.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S267x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S800x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v2) S800x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S800x6x267.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1) S267x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S800x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v2) S800x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S800x6x267.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v1) S267x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S800x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x39 : Shape := ⟨2, ![100000, 39]⟩
abbrev S200000x11 : Shape := ⟨2, ![200000, 11]⟩
abbrev S100000x6 : Shape := ⟨2, ![100000, 6]⟩
abbrev S200000x2 : Shape := ⟨2, ![200000, 2]⟩
abbrev S256x39 : Shape := ⟨2, ![256, 39]⟩
abbrev S256x267 : Shape := ⟨2, ![256, 267]⟩
abbrev S39x256 : Shape := ⟨2, ![39, 256]⟩
abbrev S100000x256 : Shape := ⟨2, ![100000, 256]⟩
abbrev S_ : Shape := ⟨0, ![]⟩
abbrev S199999x1 : Shape := ⟨2, ![199999, 1]⟩
abbrev S199999 : Shape := ⟨1, ![199999]⟩
abbrev S1x256 : Shape := ⟨2, ![1, 256]⟩
abbrev S199999x256 : Shape := ⟨2, ![199999, 256]⟩
abbrev S200000x256 : Shape := ⟨2, ![200000, 256]⟩
abbrev S200000x267 : Shape := ⟨2, ![200000, 267]⟩
abbrev S100000x6x1 : Shape := ⟨3, ![100000, 6, 1]⟩
abbrev S100000x6x267 : Shape := ⟨3, ![100000, 6, 267]⟩
abbrev S100000x267 : Shape := ⟨2, ![100000, 267]⟩
abbrev S267x256 : Shape := ⟨2, ![267, 256]⟩
abbrev S256x100000 : Shape := ⟨2, ![256, 100000]⟩

abbrev nBuf : Space → Nat
  | .hbm => 184
  | .vmem => 0
  | .smem => 0
  | _ => 0

abbrev hbmTy0_0 (i : Nat) : BufTy := match i % 128 with
  | 0 => ⟨S100000x39, .f32⟩
  | 1 => ⟨S200000x11, .f32⟩
  | 2 => ⟨S100000x6, .i32⟩
  | 3 => ⟨S200000x2, .i32⟩
  | 4 => ⟨S256x39, .f32⟩
  | 5 => ⟨S256x267, .f32⟩
  | 6 => ⟨S39x256, .f32⟩
  | 7 => ⟨S100000x256, .f32⟩
  | 8 => ⟨S_, .f32⟩
  | 9 => ⟨S100000x256, .f32⟩
  | 10 => ⟨S100000x256, .f32⟩
  | 11 => ⟨S199999x1, .i32⟩
  | 12 => ⟨S199999, .i32⟩
  | 13 => ⟨S_, .f32⟩
  | 14 => ⟨S1x256, .f32⟩
  | 15 => ⟨S_, .i32⟩
  | 16 => ⟨S199999, .i32⟩
  | 17 => ⟨S199999, .i1⟩
  | 18 => ⟨S_, .i32⟩
  | 19 => ⟨S199999, .i32⟩
  | 20 => ⟨S199999, .i32⟩
  | 21 => ⟨S199999, .i32⟩
  | 22 => ⟨S199999x1, .i32⟩
  | 23 => ⟨S199999x256, .f32⟩
  | 24 => ⟨S200000x256, .f32⟩
  | 25 => ⟨S200000x267, .f32⟩
  | 26 => ⟨S_, .i32⟩
  | 27 => ⟨S100000x6, .i32⟩
  | 28 => ⟨S100000x6, .i1⟩
  | 29 => ⟨S_, .i32⟩
  | 30 => ⟨S100000x6, .i32⟩
  | 31 => ⟨S100000x6, .i32⟩
  | 32 => ⟨S100000x6, .i32⟩
  | 33 => ⟨S100000x6x1, .i32⟩
  | 34 => ⟨S100000x6x267, .f32⟩
  | 35 => ⟨S_, .f32⟩
  | 36 => ⟨S100000x267, .f32⟩
  | 37 => ⟨S267x256, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S_, .i32⟩
  | 44 => ⟨S199999, .i32⟩
  | 45 => ⟨S199999, .i1⟩
  | 46 => ⟨S_, .i32⟩
  | 47 => ⟨S199999, .i32⟩
  | 48 => ⟨S199999, .i32⟩
  | 49 => ⟨S199999, .i32⟩
  | 50 => ⟨S199999x1, .i32⟩
  | 51 => ⟨S199999x256, .f32⟩
  | 52 => ⟨S200000x256, .f32⟩
  | 53 => ⟨S200000x267, .f32⟩
  | 54 => ⟨S_, .i32⟩
  | 55 => ⟨S100000x6, .i32⟩
  | 56 => ⟨S100000x6, .i1⟩
  | 57 => ⟨S_, .i32⟩
  | 58 => ⟨S100000x6, .i32⟩
  | 59 => ⟨S100000x6, .i32⟩
  | 60 => ⟨S100000x6, .i32⟩
  | 61 => ⟨S100000x6x1, .i32⟩
  | 62 => ⟨S100000x6x267, .f32⟩
  | 63 => ⟨S_, .f32⟩
  | 64 => ⟨S100000x267, .f32⟩
  | 65 => ⟨S267x256, .f32⟩
  | 66 => ⟨S100000x256, .f32⟩
  | 67 => ⟨S100000x256, .f32⟩
  | 68 => ⟨S_, .f32⟩
  | 69 => ⟨S100000x256, .f32⟩
  | 70 => ⟨S100000x256, .f32⟩
  | 71 => ⟨S_, .i32⟩
  | 72 => ⟨S199999, .i32⟩
  | 73 => ⟨S199999, .i1⟩
  | 74 => ⟨S_, .i32⟩
  | 75 => ⟨S199999, .i32⟩
  | 76 => ⟨S199999, .i32⟩
  | 77 => ⟨S199999, .i32⟩
  | 78 => ⟨S199999x1, .i32⟩
  | 79 => ⟨S199999x256, .f32⟩
  | 80 => ⟨S200000x256, .f32⟩
  | 81 => ⟨S200000x267, .f32⟩
  | 82 => ⟨S_, .i32⟩
  | 83 => ⟨S100000x6, .i32⟩
  | 84 => ⟨S100000x6, .i1⟩
  | 85 => ⟨S_, .i32⟩
  | 86 => ⟨S100000x6, .i32⟩
  | 87 => ⟨S100000x6, .i32⟩
  | 88 => ⟨S100000x6, .i32⟩
  | 89 => ⟨S100000x6x1, .i32⟩
  | 90 => ⟨S100000x6x267, .f32⟩
  | 91 => ⟨S_, .f32⟩
  | 92 => ⟨S100000x267, .f32⟩
  | 93 => ⟨S267x256, .f32⟩
  | 94 => ⟨S100000x256, .f32⟩
  | 95 => ⟨S100000x256, .f32⟩
  | 96 => ⟨S_, .f32⟩
  | 97 => ⟨S100000x256, .f32⟩
  | 98 => ⟨S100000x256, .f32⟩
  | 99 => ⟨S_, .i32⟩
  | 100 => ⟨S199999, .i32⟩
  | 101 => ⟨S199999, .i1⟩
  | 102 => ⟨S_, .i32⟩
  | 103 => ⟨S199999, .i32⟩
  | 104 => ⟨S199999, .i32⟩
  | 105 => ⟨S199999, .i32⟩
  | 106 => ⟨S199999x1, .i32⟩
  | 107 => ⟨S199999x256, .f32⟩
  | 108 => ⟨S200000x256, .f32⟩
  | 109 => ⟨S200000x267, .f32⟩
  | 110 => ⟨S_, .i32⟩
  | 111 => ⟨S100000x6, .i32⟩
  | 112 => ⟨S100000x6, .i1⟩
  | 113 => ⟨S_, .i32⟩
  | 114 => ⟨S100000x6, .i32⟩
  | 115 => ⟨S100000x6, .i32⟩
  | 116 => ⟨S100000x6, .i32⟩
  | 117 => ⟨S100000x6x1, .i32⟩
  | 118 => ⟨S100000x6x267, .f32⟩
  | 119 => ⟨S_, .f32⟩
  | 120 => ⟨S100000x267, .f32⟩
  | 121 => ⟨S267x256, .f32⟩
  | 122 => ⟨S100000x256, .f32⟩
  | 123 => ⟨S100000x256, .f32⟩
  | 124 => ⟨S_, .f32⟩
  | 125 => ⟨S100000x256, .f32⟩
  | 126 => ⟨S100000x256, .f32⟩
  | 127 => ⟨S_, .i32⟩
  | _ => ⟨S100000x39, .f32⟩

abbrev hbmTy0_1 (i : Nat) : BufTy := match i % 128 with
  | 0 => ⟨S199999, .i32⟩
  | 1 => ⟨S199999, .i1⟩
  | 2 => ⟨S_, .i32⟩
  | 3 => ⟨S199999, .i32⟩
  | 4 => ⟨S199999, .i32⟩
  | 5 => ⟨S199999, .i32⟩
  | 6 => ⟨S199999x1, .i32⟩
  | 7 => ⟨S199999x256, .f32⟩
  | 8 => ⟨S200000x256, .f32⟩
  | 9 => ⟨S200000x267, .f32⟩
  | 10 => ⟨S_, .i32⟩
  | 11 => ⟨S100000x6, .i32⟩
  | 12 => ⟨S100000x6, .i1⟩
  | 13 => ⟨S_, .i32⟩
  | 14 => ⟨S100000x6, .i32⟩
  | 15 => ⟨S100000x6, .i32⟩
  | 16 => ⟨S100000x6, .i32⟩
  | 17 => ⟨S100000x6x1, .i32⟩
  | 18 => ⟨S100000x6x267, .f32⟩
  | 19 => ⟨S_, .f32⟩
  | 20 => ⟨S100000x267, .f32⟩
  | 21 => ⟨S267x256, .f32⟩
  | 22 => ⟨S100000x256, .f32⟩
  | 23 => ⟨S100000x256, .f32⟩
  | 24 => ⟨S_, .f32⟩
  | 25 => ⟨S100000x256, .f32⟩
  | 26 => ⟨S100000x256, .f32⟩
  | 27 => ⟨S_, .i32⟩
  | 28 => ⟨S199999, .i32⟩
  | 29 => ⟨S199999, .i1⟩
  | 30 => ⟨S_, .i32⟩
  | 31 => ⟨S199999, .i32⟩
  | 32 => ⟨S199999, .i32⟩
  | 33 => ⟨S199999, .i32⟩
  | 34 => ⟨S199999x1, .i32⟩
  | 35 => ⟨S199999x256, .f32⟩
  | 36 => ⟨S200000x256, .f32⟩
  | 37 => ⟨S200000x267, .f32⟩
  | 38 => ⟨S_, .i32⟩
  | 39 => ⟨S100000x6, .i32⟩
  | 40 => ⟨S100000x6, .i1⟩
  | 41 => ⟨S_, .i32⟩
  | 42 => ⟨S100000x6, .i32⟩
  | 43 => ⟨S100000x6, .i32⟩
  | 44 => ⟨S100000x6, .i32⟩
  | 45 => ⟨S100000x6x1, .i32⟩
  | 46 => ⟨S100000x6x267, .f32⟩
  | 47 => ⟨S_, .f32⟩
  | 48 => ⟨S100000x267, .f32⟩
  | 49 => ⟨S267x256, .f32⟩
  | 50 => ⟨S100000x256, .f32⟩
  | 51 => ⟨S100000x256, .f32⟩
  | 52 => ⟨S_, .f32⟩
  | 53 => ⟨S100000x256, .f32⟩
  | 54 => ⟨S100000x256, .f32⟩
  | 55 => ⟨S256x100000, .f32⟩
  | _ => ⟨S100000x39, .f32⟩

abbrev hbmTy (i : Nat) : BufTy := match i / 128 with
  | 0 => hbmTy0_0 i
  | 1 => hbmTy0_1 i
  | _ => ⟨S100000x39, .f32⟩

abbrev bufTy : (tb : Table) → Fin (tcTables nBuf tb) → BufTy
  | .hbm, ⟨i, _⟩ => hbmTy i
  | _, _ => ⟨S100000x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call3_cst : Ref sig .tc := ⟨.hbm, 96, rfl⟩
abbrev main_call3_v0 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call4_cst : Ref sig .tc := ⟨.hbm, 124, rfl⟩
abbrev main_call4_v0 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_21 : Ref sig .tc := ⟨.hbm, 138, rfl⟩
abbrev main_v99 : Ref sig .tc := ⟨.hbm, 139, rfl⟩
abbrev main_v100 : Ref sig .tc := ⟨.hbm, 140, rfl⟩
abbrev main_c_22 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_23 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_call5_cst : Ref sig .tc := ⟨.hbm, 152, rfl⟩
abbrev main_call5_v0 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_26 : Ref sig .tc := ⟨.hbm, 166, rfl⟩
abbrev main_v120 : Ref sig .tc := ⟨.hbm, 167, rfl⟩
abbrev main_v121 : Ref sig .tc := ⟨.hbm, 168, rfl⟩
abbrev main_c_27 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_28 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_call6_cst : Ref sig .tc := ⟨.hbm, 180, rfl⟩
abbrev main_call6_v0 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  transposes_S256x39_S39x256_1_0 : S256x39.Transposes [1, 0] S39x256
  bcast_S_S100000x256 : S_.BroadcastsInDim S100000x256 (![] : Fin 0 → Fin S100000x256.rank)
  slices_S200000x2_S199999x1_1_1 : S200000x2.Slices ![1, 1] S199999x1
  shapeCasts_S199999x1_S199999 : S199999x1.ShapeCasts S199999
  bcast_S_S1x256 : S_.BroadcastsInDim S1x256 (![] : Fin 0 → Fin S1x256.rank)
  bcast_S_S199999 : S_.BroadcastsInDim S199999 (![] : Fin 0 → Fin S199999.rank)
  bcast_S199999_S199999x1_0 : S199999.BroadcastsInDim S199999x1 (![0] : Fin 1 → Fin S199999x1.rank)
  concatenates_S1x256_S199999x256_S200000x256_d0 : Shape.Concatenates [S1x256, S199999x256] S200000x256 0
  concatenates_S200000x256_S200000x11_S200000x267_d1 : Shape.Concatenates [S200000x256, S200000x11] S200000x267 1
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x267_S100000x267_d1 : S100000x6x267.ReducesTo [1] S100000x267
  h_S_ : 0 < S_.numel
  transposes_S256x267_S267x256_1_0 : S256x267.Transposes [1, 0] S267x256
  transposes_S100000x256_S256x100000_1_0 : S100000x256.Transposes [1, 0] S256x100000
  dot_S100000x39_S39x256_S100000x256_1_0_0_1_n_n_wf : DotDims.WF S100000x39 S39x256 S100000x256 [1] [0] [0] [1] [] []
  gather_S100000x256_S199999x1_S199999x256_1_0_n_n_0_1_1256_wf : GatherDims.WF S100000x256 S199999x1 S199999x256 [1] [0] [] [0] [] 1 ![1, 256]
  gather_S200000x267_S100000x6x1_S100000x6x267_2_0_n_n_0_2_1267_wf : GatherDims.WF S200000x267 S100000x6x1 S100000x6x267 [2] [0] [] [0] [] 2 ![1, 267]
  dot_S100000x267_S267x256_S100000x256_1_0_0_1_n_n_wf : DotDims.WF S100000x267 S267x256 S100000x256 [1] [0] [0] [1] [] []

variable [Facts₀]

def dot_S100000x39_S39x256_S100000x256_1_0_0_1_n_n : DotDims S100000x39 S39x256 S100000x256 where
  lhsContracting := [1]
  rhsContracting := [0]
  lhsNonContracting := [0]
  rhsNonContracting := [1]
  lhsBatch := []
  rhsBatch := []
  wf := dot_S100000x39_S39x256_S100000x256_1_0_0_1_n_n_wf
def gather_S100000x256_S199999x1_S199999x256_1_0_n_n_0_1_1256 : GatherDims S100000x256 S199999x1 S199999x256 where
  offsetDims := [1]
  collapsedSliceDims := [0]
  operandBatchingDims := []
  startIndicesBatchingDims := []
  startIndexMap := [0]
  indexVectorDim := 1
  sliceSizes := ![1, 256]
  wf := gather_S100000x256_S199999x1_S199999x256_1_0_n_n_0_1_1256_wf
def gather_S200000x267_S100000x6x1_S100000x6x267_2_0_n_n_0_2_1267 : GatherDims S200000x267 S100000x6x1 S100000x6x267 where
  offsetDims := [2]
  collapsedSliceDims := [0]
  operandBatchingDims := []
  startIndicesBatchingDims := []
  startIndexMap := [0]
  indexVectorDim := 2
  sliceSizes := ![1, 267]
  wf := gather_S200000x267_S100000x6x1_S100000x6x267_2_0_n_n_0_2_1267_wf
def dot_S100000x267_S267x256_S100000x256_1_0_0_1_n_n : DotDims S100000x267 S267x256 S100000x256 where
  lhsContracting := [1]
  rhsContracting := [0]
  lhsNonContracting := [0]
  rhsNonContracting := [1]
  lhsBatch := []
  rhsBatch := []
  wf := dot_S100000x267_S267x256_S100000x256_1_0_0_1_n_n_wf

class Facts : Prop extends Facts₀ where

variable [Facts]
-- ==== Proof.KernelRun.lean ====
/-
  The idealized kernel's run with its result kept.

  The program is fifteen segments: stretches of host operations and the seven pipelined kernels between them. Every
  weakly fair execution terminates without a fault, and at the end every buffer the program does not scope holds
  what the fold of the segments over the launch memory gives it (`W15`): in particular the result buffer, and the
  six argument arrays, which no segment writes. This is the launch theorem for a program of several regions applied
  to the segments, reading the result buffer off the final state as well as the arguments.
-/
import proofs.«105317_j8340826489581_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    contents and the argument arrays as launched. -/
theorem run : θ_run defs (onTc (τ := τ) (main (F := F))) ⟨m, fun _ => 0, ρ⟩ (fun r => ∀ c : Dev nD,
      r.2.mem ((c.tc : Thread nD τ).loc main_v108) = W15 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v108 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩)

end Cert.KernelIdeal.Whole

end
-- ==== Proof.Layers.lean ====
/-
  The two dense layers of the message-passing network, entry by entry, on the extended reals.

  The embedding layer sends a row `a` of atom features and a column `w` of weights to the positive part of their
  inner product, `max (∑ₖ aₖ·wₖ) 0`. A message-passing layer sends the embedded entry `h`, the six gathered
  neighbour messages `g n` of the atom and a column `w` of weights to `max (h + ∑ₖ (∑ₙ g n k)·wₖ) 0`: the messages
  are summed over the six neighbours first, and the sum is multiplied into the weights.

  Both kernels' bodies compute these entries on a block of rows: the narrowing of the operands to a shorter
  float format is the identity on the extended reals, the matrix product into a zero accumulator is the plain
  sum over the contracted axis, and the sum over the neighbour axis is the plain sum over its six coordinates.
-/
import proofs.«105317_j8340826489581_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Layers

open Idealize.ShloMosaic Idealize.ShloMosaic.ValueIdx Cert.KernelIdeal Cert.KernelIdeal.Gen

/-- The zero both programs clamp at, as the word they spell it with. -/
abbrev zeroWord : EReal := Ideal.ofBits .f32 0x00000000#32

/-- One entry of the embedding layer. -/
def embEntry (a w : Fin 39 → EReal) : EReal := max (∑ k : Fin 39, a k * w k) zeroWord

/-- One entry of a message-passing layer. -/
def updEntry (h : EReal) (g : Fin 6 → Fin 267 → EReal) (w : Fin 267 → EReal) : EReal :=
  max (h + ∑ k : Fin 267, (∑ n : Fin 6, g n k) * w k) zeroWord

/-! ## The contracted axis of the two matrix products -/

theorem emb_lhs0 (i : S2000x256.Idx) (q : dot_S2000x39_S39x256_S2000x256_1_0_0_1_n_n.contr.Idx) : (dot_S2000x39_S39x256_S2000x256_1_0_0_1_n_n.lhsIdx i q 0).val = (i 0).val := by
  unfold DotDims.lhsIdx
  rw [dif_neg (show ¬(0 : Fin S2000x39.rank) ∈ dot_S2000x39_S39x256_S2000x256_1_0_0_1_n_n.lhsBatch by decide),
    dif_pos (show (0 : Fin S2000x39.rank) ∈ dot_S2000x39_S39x256_S2000x256_1_0_0_1_n_n.lhsNonContracting by decide)]
  rfl
theorem emb_rhs1 (i : S2000x256.Idx) (q : dot_S2000x39_S39x256_S2000x256_1_0_0_1_n_n.contr.Idx) : (dot_S2000x39_S39x256_S2000x256_1_0_0_1_n_n.rhsIdx i q 1).val = (i 1).val := by
  unfold DotDims.rhsIdx
  rw [dif_neg (show ¬(1 : Fin S39x256.rank) ∈ dot_S2000x39_S39x256_S2000x256_1_0_0_1_n_n.rhsBatch by decide),
    dif_pos (show (1 : Fin S39x256.rank) ∈ dot_S2000x39_S39x256_S2000x256_1_0_0_1_n_n.rhsNonContracting by decide)]
  rfl

/-- The left operand's entry that the product's entry `(r, j)` meets at the contracted coordinate `k`. -/
theorem emb_lhs (r : Fin 2000) (j : Fin 256) (k : Fin 39) :
    dot_S2000x39_S39x256_S2000x256_1_0_0_1_n_n.lhsIdx (ix2 r j) ((contrEquiv1 dot_S2000x39_S39x256_S2000x256_1_0_0_1_n_n 39 rfl rfl).symm k) = ix2 r k := by
  have hk := contrEquiv1_symm_val dot_S2000x39_S39x256_S2000x256_1_0_0_1_n_n 39 rfl rfl k
  exact funext fun a => Fin.ext (by
    match a with
    | ⟨0, _⟩ => exact emb_lhs0 _ _
    | ⟨1, _⟩ => exact (dot_S2000x39_S39x256_S2000x256_1_0_0_1_n_n.lhsIdx_val_of_single rfl _ _).trans hk)

/-- The right operand's entry met there. -/
theorem emb_rhs (r : Fin 2000) (j : Fin 256) (k : Fin 39) :
    dot_S2000x39_S39x256_S2000x256_1_0_0_1_n_n.rhsIdx (ix2 r j) ((contrEquiv1 dot_S2000x39_S39x256_S2000x256_1_0_0_1_n_n 39 rfl rfl).symm k) = ix2 k j := by
  have hk := contrEquiv1_symm_val dot_S2000x39_S39x256_S2000x256_1_0_0_1_n_n 39 rfl rfl k
  exact funext fun a => Fin.ext (by
    match a with
    | ⟨0, _⟩ => exact (dot_S2000x39_S39x256_S2000x256_1_0_0_1_n_n.rhsIdx_val_of_single rfl _ _).trans hk
    | ⟨1, _⟩ => exact emb_rhs1 _ _)

theorem upd_lhs0 (i : S800x256.Idx) (q : dot_S800x267_S267x256_S800x256_1_0_0_1_n_n.contr.Idx) : (dot_S800x267_S267x256_S800x256_1_0_0_1_n_n.lhsIdx i q 0).val = (i 0).val := by
  unfold DotDims.lhsIdx
  rw [dif_neg (show ¬(0 : Fin S800x267.rank) ∈ dot_S800x267_S267x256_S800x256_1_0_0_1_n_n.lhsBatch by decide),
    dif_pos (show (0 : Fin S800x267.rank) ∈ dot_S800x267_S267x256_S800x256_1_0_0_1_n_n.lhsNonContracting by decide)]
  rfl
theorem upd_rhs1 (i : S800x256.Idx) (q : dot_S800x267_S267x256_S800x256_1_0_0_1_n_n.contr.Idx) : (dot_S800x267_S267x256_S800x256_1_0_0_1_n_n.rhsIdx i q 1).val = (i 1).val := by
  unfold DotDims.rhsIdx
  rw [dif_neg (show ¬(1 : Fin S267x256.rank) ∈ dot_S800x267_S267x256_S800x256_1_0_0_1_n_n.rhsBatch by decide),
    dif_pos (show (1 : Fin S267x256.rank) ∈ dot_S800x267_S267x256_S800x256_1_0_0_1_n_n.rhsNonContracting by decide)]
  rfl

/-- The left operand's entry that the product's entry `(r, j)` meets at the contracted coordinate `k`. -/
theorem upd_lhs (r : Fin 800) (j : Fin 256) (k : Fin 267) :
    dot_S800x267_S267x256_S800x256_1_0_0_1_n_n.lhsIdx (ix2 r j) ((contrEquiv1 dot_S800x267_S267x256_S800x256_1_0_0_1_n_n 267 rfl rfl).symm k) = ix2 r k := by
  have hk := contrEquiv1_symm_val dot_S800x267_S267x256_S800x256_1_0_0_1_n_n 267 rfl rfl k
  exact funext fun a => Fin.ext (by
    match a with
    | ⟨0, _⟩ => exact upd_lhs0 _ _
    | ⟨1, _⟩ => exact (dot_S800x267_S267x256_S800x256_1_0_0_1_n_n.lhsIdx_val_of_single rfl _ _).trans hk)

/-- The right operand's entry met there. -/
theorem upd_rhs (r : Fin 800) (j : Fin 256) (k : Fin 267) :
    dot_S800x267_S267x256_S800x256_1_0_0_1_n_n.rhsIdx (ix2 r j) ((contrEquiv1 dot_S800x267_S267x256_S800x256_1_0_0_1_n_n 267 rfl rfl).symm k) = ix2 k j := by
  have hk := contrEquiv1_symm_val dot_S800x267_S267x256_S800x256_1_0_0_1_n_n 267 rfl rfl k
  exact funext fun a => Fin.ext (by
    match a with
    | ⟨0, _⟩ => exact (dot_S800x267_S267x256_S800x256_1_0_0_1_n_n.rhsIdx_val_of_single rfl _ _).trans hk
    | ⟨1, _⟩ => exact upd_rhs1 _ _)

/-! ## The bodies' stored values, entry by entry -/

/-- The embedding kernel stores, at row `r` and column `j` of its block, the embedding entry of row `r` of the
    feature block and column `j` of the transposed weights. -/
theorem emb_payload (a : Vec Ideal S2000x39 .f32) (w : Vec Ideal S39x256 .f32) (r : Fin 2000) (j : Fin 256) :
    k0_pay1 (F := Ideal) a w (ix2 r j) = embEntry (fun k => a (ix2 r k)) (fun k => w (ix2 k j)) := by
  unfold k0_pay1 embEntry
  refine congrArg₂ max ?_ rfl
  refine (Ideal.matmul_constant_zero_apply dot_S2000x39_S39x256_S2000x256_1_0_0_1_n_n none _ _ (ix2 r j)).trans ?_
  rw [← Equiv.sum_comp (contrEquiv1 dot_S2000x39_S39x256_S2000x256_1_0_0_1_n_n 39 rfl rfl).symm]
  refine Finset.sum_congr rfl fun k _ => ?_
  rw [emb_lhs, emb_rhs, shapeCast_self]
  rfl

/-- A message-passing kernel stores, at row `r` and column `j` of its block, the layer's entry of the embedded
    entry there, the six gathered messages of row `r` and column `j` of the transposed weights. -/
theorem upd_payload (g : Vec Ideal S800x6x267 .f32) (w : Vec Ideal S267x256 .f32) (h : Vec Ideal S800x256 .f32)
    (r : Fin 800) (j : Fin 256) :
    k1_pay1 (F := Ideal) g w h (ix2 r j)
      = updEntry (h (ix2 r j)) (fun n k => g (ix3 r n k)) (fun k => w (ix2 k j)) := by
  unfold k1_pay1 updEntry
  refine congrArg₂ max (congrArg₂ (· + ·) ?_ ?_) rfl
  · rw [shapeCast_self]
  · refine (Ideal.matmul_constant_zero_apply dot_S800x267_S267x256_S800x256_1_0_0_1_n_n none _ _ (ix2 r j)).trans ?_
    rw [← Equiv.sum_comp (contrEquiv1 dot_S800x267_S267x256_S800x256_1_0_0_1_n_n 267 rfl rfl).symm]
    refine Finset.sum_congr rfl fun k _ => ?_
    rw [upd_lhs, upd_rhs, shapeCast_self, shapeCast_self]
    refine congrArg₂ (· * ·) ?_ rfl
    refine (Ideal.multiReduction_add_single g 0x00000000#32 reduces_S800x6x267_S800x267 (.inl rfl) rfl (ix2 r k)).trans ?_
    refine Finset.sum_congr rfl fun n _ => congrArg g (funext fun b => Fin.ext (by
      match b with
      | ⟨0, _⟩ => rfl
      | ⟨1, _⟩ => rfl
      | ⟨2, _⟩ => rfl))

/-- The six message-passing kernels are one body. -/
theorem k2_eq : @k2_pay1 = @k1_pay1 := rfl
theorem k3_eq : @k3_pay1 = @k1_pay1 := rfl
theorem k4_eq : @k4_pay1 = @k1_pay1 := rfl
theorem k5_eq : @k5_pay1 = @k1_pay1 := rfl
theorem k6_eq : @k6_pay1 = @k1_pay1 := rfl

/-! ## The layers on whole arrays -/

/-- The embedding layer on the whole feature array and the transposed embedding weights: entry `(i, j)` from row `i`
    of the features and column `j` of the weights. -/
def embArr (a : S100000x39.Idx → EReal) (w : S39x256.Idx → EReal) : S100000x256.Idx → EReal :=
  fun i => embEntry (fun k => a (ix2 (i 0) k)) (fun k => w (ix2 k (i 1)))

/-- A message-passing layer on whole arrays: entry `(i, j)` from the embedded entry there, the six gathered
    messages of atom `i` and column `j` of the transposed update weights. -/
def updArr (h : S100000x256.Idx → EReal) (g : S100000x6x267.Idx → EReal) (w : S267x256.Idx → EReal) :
    S100000x256.Idx → EReal :=
  fun i => updEntry (h i) (fun n k => g (ix3 (i 0) n k)) (fun k => w (ix2 k (i 1)))

end Cert.Layers

end
-- ==== Proof.Layer0.lean ====
/-
  The embedding layer as the pipelined kernel leaves it in its output array.

  The kernel walks the atoms in 50 blocks of 2000 rows. At block `t` it reads rows `2000·t … 2000·t + 1999` of the
  atom features and all of the transposed embedding weights, and writes the same rows of its output. Entry `(r, q)` of
  the written block is the embedding entry of row `2000·t + r` and column `q`: every written block is the restriction
  of ONE function of the whole arrays (`embArr`), and the 50 blocks cover the output array.
-/
import proofs.«105317_j8340826489581_1_alg».proof.Proof.Gen.KernelIdeal.Frame
import proofs.«105317_j8340826489581_1_alg».proof.Proof.Layers

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Where each window's block sits at grid point `t`: the features and the output at block row `t`, the weights
    and the column axis at block 0. Decided over the 50 points. -/
theorem block_positions : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Every block row of the output is some point's. -/
theorem block_rows_onto : ∀ q0 : Fin 50, ∃ t : Fin cfg0.N, win0_2.index t = ![q0.val, 0] :=
  (by decide +kernel : ∀ q0 : Fin 50, ∃ t : Fin grid0.N, win0_2.index t = ![q0.val, 0])

set_option maxHeartbeats 4000000 in
/-- What point `t` writes back is block `t` of the embedding of the arrays the region finds. -/
theorem flushed_eq (c : Dev nD) (t : Fin cfg0.N) :
    (dat0 V c).flushed 2 t = ((cfg0.win 2).blk t).view.read (Elt Ideal)
      (embArr (V c main_arg0) (V c main_v0)) := by
  show (cfg0.win 2).cut (grid0.coords t) ((dat0 V c).after 2 t) = _
  rw [after0_2]
  unfold out0_2
  rw [View.canon_unit_zero origin2]
  simp only [View.ld_unit_zero (S := S2000x39) origin2, View.ld_unit_zero (S := S39x256) origin2]
  obtain ⟨e20, e21, e00, e01, e10, e11⟩ := block_positions t
  refine funext fun (j : S2000x256.Idx) => ?_
  obtain ⟨r, q, rfl⟩ : ∃ (r : Fin 2000) (q : Fin 256), j = ix2 r q := ⟨j 0, j 1, eq_ix2 j⟩
  show k0_pay1 (F := Ideal) (iblk0 V c 0 t) (iblk0 V c 1 t) (ix2 r q)
      = embArr (V c main_arg0) (V c main_v0) (((cfg0.win 2).blk t).view.emb (ix2 r q))
  refine (emb_payload _ _ r q).trans ?_
  have h0 : ∀ k : Fin 39, ((cfg0.win 0).blk t).view.emb (ix2 r k)
      = ix2 ((((cfg0.win 2).blk t).view.emb (ix2 r q)) 0) k := by
    intro k; funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 39 + 1 * k.val = k.val; omega
  have h1 : ∀ k : Fin 39, ((cfg0.win 1).blk t).view.emb (ix2 k q)
      = ix2 k ((((cfg0.win 2).blk t).view.emb (ix2 r q)) 1) := by
    intro k; funext a; apply Fin.ext
    match a with
    | ⟨0, _⟩ => show win0_1.index t (0 : Fin 2) * 39 + 1 * k.val = k.val; omega
    | ⟨1, _⟩ => show win0_1.index t (1 : Fin 2) * 256 + 1 * q.val = win0_2.index t (1 : Fin 2) * 256 + 1 * q.val; omega
  show embEntry (fun k => V c main_arg0 (((cfg0.win 0).blk t).view.emb (ix2 r k)))
        (fun k => V c main_v0 (((cfg0.win 1).blk t).view.emb (ix2 k q)))
      = embEntry (fun k => V c main_arg0 (ix2 ((((cfg0.win 2).blk t).view.emb (ix2 r q)) 0) k))
        (fun k => V c main_v0 (ix2 k ((((cfg0.win 2).blk t).view.emb (ix2 r q)) 1)))
  simp only [h0, h1]
  rfl

set_option maxHeartbeats 4000000 in
/-- An index of the output array is in point `t`'s block iff each coordinate is in the block's range on its axis. -/
theorem mem_blk (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v2).slice (win0_2.rect t)).set ↔ _
  rw [View.set_slice_whole, Rect.mem_set_unit]
  exact Iff.rfl

set_option maxHeartbeats 4000000 in
/-- Row `i` of the output lies in the block of point `i / 2000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := block_rows_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

set_option maxHeartbeats 4000000 in
/-- The output array after the region: the embedding of the arrays the region finds. -/
theorem arr (c : Dev nD) :
    (dat0 V c).arrAt 2 cfg0.N = embArr (V c main_arg0) (V c main_v0) :=
  (dat0 V c).arrAt_eq_of_cover 2 _ (fun t _ => flushed_eq V c t) cover

end Cert.KernelIdeal.Layer0

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.Depth0.lean ====
/-
  The start of the whole run: the two weight arrays transposed on the host, then the embedding kernel.

  The host stretch writes the transposed weights and nothing else; the kernel writes the embedded atoms — the
  embedding layer's function of the atom features and the transposed embedding weights — and nothing else. The other
  arguments are carried along unchanged.
-/
import proofs.«105317_j8340826489581_1_alg».proof.Proof.Gen.KernelIdeal.Frame
import proofs.«105317_j8340826489581_1_alg».proof.Proof.Layers
import proofs.«105317_j8340826489581_1_alg».proof.Proof.Layer0
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

theorem host0_embWeights (W : Valuation τ sig (Elt F)) :
    after (hostOps0 (F := F)) W (Proc.devRef .tc main_v0) = transpose S39x256 [1, 0] (W (Proc.devRef .tc main_arg4)) transposes_S256x39_S39x256_1_0 := by
  simp only [hostOps0]
  after_results_simp
theorem host0_updWeights (W : Valuation τ sig (Elt F)) :
    after (hostOps0 (F := F)) W (Proc.devRef .tc main_v1) = transpose S267x256 [1, 0] (W (Proc.devRef .tc main_arg5)) transposes_S256x267_S267x256_1_0 := by
  simp only [hostOps0]
  after_results_simp
/-- The buffers the stretch leaves alone. -/
theorem host0_keeps (W : Valuation τ sig (Elt F)) :
    after (hostOps0 (F := F)) W (Proc.devRef .tc main_arg0) = W (Proc.devRef .tc main_arg0)
    ∧ after (hostOps0 (F := F)) W (Proc.devRef .tc main_arg1) = W (Proc.devRef .tc main_arg1)
    ∧ after (hostOps0 (F := F)) W (Proc.devRef .tc main_arg2) = W (Proc.devRef .tc main_arg2)
    ∧ after (hostOps0 (F := F)) W (Proc.devRef .tc main_arg3) = W (Proc.devRef .tc main_arg3) := by
  refine ⟨?_, ?_, ?_, ?_⟩ <;> keeps_stretch [hostOps0]

end AnyValuation

variable (m : (ℓ : Loc nD τ sig) → Buf (Elt Ideal) ℓ) (ρ : Dev nD → PrngReg)

set_option maxHeartbeats 4000000 in
/-- After the embedding kernel: the arguments as launched, the update weights transposed, the atoms embedded. -/
theorem depth0 (c : Dev nD) :
    W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_v1) = transpose S267x256 [1, 0] (m ((c : Thread nD τ).loc main_arg5)) transposes_S256x267_S267x256_1_0
    ∧ W2 m ρ c (Proc.devRef .tc main_v2) = embArr (m ((c : Thread nD τ).loc main_arg0))
        (transpose S39x256 [1, 0] (m ((c : Thread nD τ).loc main_arg4)) transposes_S256x39_S39x256_1_0) := by
  obtain ⟨k0, k1, k2, k3⟩ := host0_keeps (F := Ideal) (W0 m ρ c)
  have he := host0_embWeights (F := Ideal) (W0 m ρ c)
  have hu := host0_updWeights (F := Ideal) (W0 m ρ c)
  refine ⟨?_, ?_, ?_, ?_, ?_⟩
  · exact (W2_of_ne m ρ c main_arg1 (by decide)).trans k1
  · exact (W2_of_ne m ρ c main_arg2 (by decide)).trans k2
  · exact (W2_of_ne m ρ c main_arg3 (by decide)).trans k3
  · exact (W2_of_ne m ρ c main_v1 (by decide)).trans hu
  · refine (W2_arr m ρ c 2).trans ((Layer0.arr (V1 m ρ) c).trans ?_)
    show embArr (W1 m ρ c (Proc.devRef .tc main_arg0)) (W1 m ρ c (Proc.devRef .tc main_v0)) = _
    rw [show W1 m ρ c (Proc.devRef .tc main_arg0) = _ from k0, show W1 m ρ c (Proc.devRef .tc main_v0) = _ from he]

end Cert.KernelIdeal.Whole

end
-- ==== Proof.Layer1.lean ====
/-
  Message-passing layer 1 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-- Every block row of the output is some point's. -/
theorem block_rows_onto : ∀ q0 : Fin 125, ∃ t : Fin cfg1.N, win1_3.index t = ![q0.val, 0] :=
  (by decide +kernel : ∀ q0 : Fin 125, ∃ t : Fin grid1.N, win1_3.index t = ![q0.val, 0])

set_option maxHeartbeats 4000000 in
/-- What point `t` writes back is block `t` of the layer's function of the arrays the region finds. -/
theorem flushed_eq (c : Dev nD) (t : Fin cfg1.N) :
    (dat1 V c).flushed 3 t = ((cfg1.win 3).blk t).view.read (Elt Ideal)
      (updArr (V c main_v2) (V c main_v21) (V c main_v1)) := by
  show (cfg1.win 3).cut (grid1.coords t) ((dat1 V c).after 3 t) = _
  rw [after1_3]
  unfold out1_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk1 V c 1 t) (iblk1 V c 2 t) (iblk1 V c 0 t) (ix2 r q)
      = updArr (V c main_v2) (V c main_v21) (V c main_v1) (((cfg1.win 3).blk t).view.emb (ix2 r q))
  refine (upd_payload _ _ _ r q).trans ?_
  have h0 : ((cfg1.win 0).blk t).view.emb (ix2 r q) = ((cfg1.win 3).blk t).view.emb (ix2 r q) := by
    funext a; apply Fin.ext
    match a with
    | ⟨0, _⟩ => show win1_0.index t (0 : Fin 2) * 800 + 1 * r.val = win1_3.index t (0 : Fin 2) * 800 + 1 * r.val; omega
    | ⟨1, _⟩ => show win1_0.index t (1 : Fin 2) * 256 + 1 * q.val = win1_3.index t (1 : Fin 2) * 256 + 1 * q.val; omega
  have h1 : ∀ (n : Fin 6) (k : Fin 267), ((cfg1.win 1).blk t).view.emb (ix3 r n k)
      = ix3 ((((cfg1.win 3).blk t).view.emb (ix2 r q)) 0) n k := by
    intro n k; funext a; apply Fin.ext
    match a with
    | ⟨0, _⟩ => show win1_1.index t (0 : Fin 3) * 800 + 1 * r.val = win1_3.index t (0 : Fin 2) * 800 + 1 * r.val; omega
    | ⟨1, _⟩ => show win1_1.index t (1 : Fin 3) * 6 + 1 * n.val = n.val; omega
    | ⟨2, _⟩ => show win1_1.index t (2 : Fin 3) * 267 + 1 * k.val = k.val; omega
  have h2 : ∀ k : Fin 267, ((cfg1.win 2).blk t).view.emb (ix2 k q)
      = ix2 k ((((cfg1.win 3).blk t).view.emb (ix2 r q)) 1) := by
    intro k; funext a; apply Fin.ext
    match a with
    | ⟨0, _⟩ => show win1_2.index t (0 : Fin 2) * 267 + 1 * k.val = k.val; omega
    | ⟨1, _⟩ => show win1_2.index t (1 : Fin 2) * 256 + 1 * q.val = win1_3.index t (1 : Fin 2) * 256 + 1 * q.val; omega
  show updEntry (V c main_v2 (((cfg1.win 0).blk t).view.emb (ix2 r q)))
        (fun n k => V c main_v21 (((cfg1.win 1).blk t).view.emb (ix3 r n k)))
        (fun k => V c main_v1 (((cfg1.win 2).blk t).view.emb (ix2 k q)))
      = updEntry (V c main_v2 (((cfg1.win 3).blk t).view.emb (ix2 r q)))
        (fun n k => V c main_v21 (ix3 ((((cfg1.win 3).blk t).view.emb (ix2 r q)) 0) n k))
        (fun k => V c main_v1 (ix2 k ((((cfg1.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg1.N) (i : S100000x256.Idx) :
    i ∈ ((cfg1.win 3).blk t).view.set ↔ ∀ a : Fin 2, win1_3.index t a * S800x256.size a ≤ (i a).val
      ∧ (i a).val < win1_3.index t a * S800x256.size a + S800x256.size a := by
  show i ∈ ((View.whole main_v22).slice (win1_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, ht⟩ := block_rows_onto ⟨(i 0).val / 800, by omega⟩
  have q0 : win1_3.index t (0 : Fin 2) = (i 0).val / 800 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 800 ≤ (i 0).val ∧ (i 0).val < win1_3.index t (0 : Fin 2) * 800 + 800; omega
  | ⟨1, _⟩ => show win1_3.index t (1 : Fin 2) * 256 ≤ (i 1).val ∧ (i 1).val < win1_3.index t (1 : Fin 2) * 256 + 256; omega

set_option maxHeartbeats 4000000 in
/-- The output array after the region: the layer's function of the arrays the region finds. -/
theorem arr (c : Dev nD) :
    (dat1 V c).arrAt 3 cfg1.N = updArr (V c main_v2) (V c main_v21) (V c main_v1) :=
  (dat1 V c).arrAt_eq_of_cover 3 _ (fun t _ => flushed_eq V c t) cover

end Cert.KernelIdeal.Layer1

end
-- ==== Proof.Stages.lean ====
/-
  The host computation between two layers, as functions of the arrays it reads.

  `bondTargets`: the target atom of every bond but the first, read off the bond array (column 1, rows 1 onwards).
  `zeroRow`: the one row of zeros that stands for "no bond".
  `messages`: for every atom, its six neighbour messages. A bond's message is the previous layer's row of the bond's
  target atom (a negative index counted from the end), the zero row for bond 0, with the bond's own features
  appended; an atom's messages are the rows of that table its six outgoing-bond indices name (again a negative
  index counted from the end). The gathers are the host's own and are never opened.
-/
import proofs.«105317_j8340826489581_1_alg».proof.Proof.Gen.KernelIdeal.Launch

noncomputable section

namespace Cert.KernelIdeal.Whole

open Idealize.ShloMosaic Cert.KernelIdeal Cert.KernelIdeal.Gen

variable {F : FTy → Type} [FloatOps F]

/-- The target atom of bonds 1, 2, …: column 1 of the bond array from row 1 on. -/
def bondTargets (ab : (⟨S200000x2, .i32⟩ : BufTy).Contents (Elt F)) : (⟨S199999, .i32⟩ : BufTy).Contents (Elt F) :=
  shapeCast S199999 (extractStridedSlice S199999x1 ![1, 1] ab slices_S200000x2_S199999x1_1_1) shapeCasts_S199999x1_S199999

/-- A row of zeros: the message of the padding bond. -/
def zeroRow : (⟨S1x256, .f32⟩ : BufTy).Contents (Elt F) :=
  broadcastInDim S1x256 ![] bcast_S_S1x256 (constant (F := F) S_ .f32 0x00000000#32)

/-- The six neighbour messages of every atom, from the previous layer `H`, the bonds' target atoms, the zero row,
    the bond features and the atoms' outgoing-bond indices. -/
def messages (H : (⟨S100000x256, .f32⟩ : BufTy).Contents (Elt F)) (bt : (⟨S199999, .i32⟩ : BufTy).Contents (Elt F))
    (z : (⟨S1x256, .f32⟩ : BufTy).Contents (Elt F)) (fb : (⟨S200000x11, .f32⟩ : BufTy).Contents (Elt F))
    (ag : (⟨S100000x6, .i32⟩ : BufTy).Contents (Elt F)) : (⟨S100000x6x267, .f32⟩ : BufTy).Contents (Elt F) :=
  Host.gather gather_S200000x267_S100000x6x1_S100000x6x267_2_0_n_n_0_2_1267
    (concatenate S200000x267 1
      [⟨S200000x256, concatenate S200000x256 0
          [⟨S1x256, z⟩,
           ⟨S199999x256, Host.gather gather_S100000x256_S199999x1_S199999x256_1_0_n_n_0_1_1256 H
              (broadcastInDim S199999x1 ![0] bcast_S199999_S199999x1_0
                (select (cmpi .slt bt (broadcastInDim S199999 ![] bcast_S_S199999 (constantI S_ 32 0#32)))
                  (addi bt (broadcastInDim S199999 ![] bcast_S_S199999 (constantI S_ 32 100000#32))) bt))⟩]
          concatenates_S1x256_S199999x256_S200000x256_d0⟩,
       ⟨S200000x11, fb⟩]
      concatenates_S200000x256_S200000x11_S200000x267_d1)
    (broadcastInDim S100000x6x1 ![0, 1] bcast_S100000x6_S100000x6x1_0_1
      (select (cmpi .slt ag (broadcastInDim S100000x6 ![] bcast_S_S100000x6 (constantI S_ 32 0#32)))
        (addi ag (broadcastInDim S100000x6 ![] bcast_S_S100000x6 (constantI S_ 32 200000#32))) ag))

end Cert.KernelIdeal.Whole

end
-- ==== Proof.Depth1.lean ====
/-
  Message-passing layer 1 inside the whole run: from the buffers as the layer's host stretch finds them to the
  buffers as its kernel leaves them.

  The host stretch gathers the neighbour messages from the previous layer's output (and, once, reads the bonds' target atoms off the bond array and writes the zero row) and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer1
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host1_messages (W : Valuation τ sig (Elt F)) :
    after (hostOps1 (F := F)) W (Proc.devRef .tc main_v21)
      = messages (W (Proc.devRef .tc main_v2)) (bondTargets (W (Proc.devRef .tc main_arg3))) zeroRow (W (Proc.devRef .tc main_arg1)) (W (Proc.devRef .tc main_arg2)) := by
  reads_stretch [hostOps1]

set_option maxHeartbeats 4000000 in
/-- The bonds' target atoms and the zero row, which this stretch writes once for all layers. -/
theorem host1_bondTargets (W : Valuation τ sig (Elt F)) :
    after (hostOps1 (F := F)) W (Proc.devRef .tc main_v4) = bondTargets (W (Proc.devRef .tc main_arg3)) := by
  reads_stretch [hostOps1]
set_option maxHeartbeats 4000000 in
theorem host1_zeroRow (W : Valuation τ sig (Elt F)) :
    after (hostOps1 (F := F)) W (Proc.devRef .tc main_v5) = zeroRow := by
  reads_stretch [hostOps1]

set_option maxHeartbeats 4000000 in
/-- The buffers the stretch leaves alone. -/
theorem host1_keeps (W : Valuation τ sig (Elt F)) :
    after (hostOps1 (F := F)) W (Proc.devRef .tc main_arg1) = W (Proc.devRef .tc main_arg1)
    ∧ after (hostOps1 (F := F)) W (Proc.devRef .tc main_arg2) = W (Proc.devRef .tc main_arg2)
    ∧ after (hostOps1 (F := F)) W (Proc.devRef .tc main_v1) = W (Proc.devRef .tc main_v1)
    ∧ after (hostOps1 (F := F)) W (Proc.devRef .tc main_v2) = W (Proc.devRef .tc main_v2) := by
  refine ⟨?_, ?_, ?_, ?_⟩ <;> keeps_stretch [hostOps1]

end AnyValuation

variable (m : (ℓ : Loc nD τ sig) → Buf (Elt Ideal) ℓ) (ρ : Dev nD → PrngReg)

set_option maxHeartbeats 4000000 in
/-- Layer 1: what is carried along, and the layer's output. -/
theorem depth1 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (a3 : (⟨S200000x2, .i32⟩ : BufTy).Contents (Elt Ideal))

    (h1 : W2 m ρ c (Proc.devRef .tc main_arg1) = a1) (h2 : W2 m ρ c (Proc.devRef .tc main_arg2) = a2)
    (hw : W2 m ρ c (Proc.devRef .tc main_v1) = wT) (h0 : W2 m ρ c (Proc.devRef .tc main_v2) = L0)
    (h3 : W2 m ρ c (Proc.devRef .tc main_arg3) = a3) :
    W4 m ρ c (Proc.devRef .tc main_arg1) = a1 ∧ W4 m ρ c (Proc.devRef .tc main_arg2) = a2
    ∧ W4 m ρ c (Proc.devRef .tc main_v1) = wT ∧ W4 m ρ c (Proc.devRef .tc main_v2) = L0
    ∧ W4 m ρ c (Proc.devRef .tc main_v4) = bondTargets a3 ∧ W4 m ρ c (Proc.devRef .tc main_v5) = zeroRow
    ∧ W4 m ρ c (Proc.devRef .tc main_v22) = updArr L0 (messages L0 (bondTargets a3) zeroRow a1 a2) wT := by
  obtain ⟨k1, k2, kw, k0⟩ := host1_keeps (F := Ideal) (W2 m ρ c)
  have hg := host1_messages (F := Ideal) (W2 m ρ c)
  have kb := host1_bondTargets (F := Ideal) (W2 m ρ c)
  have kz := host1_zeroRow (F := Ideal) (W2 m ρ c)
  subst h1 h2 hw h0 h3
  refine ⟨?_, ?_, ?_, ?_, ?_, ?_, ?_⟩
  · exact (W4_of_ne m ρ c main_arg1 (by decide)).trans k1
  · exact (W4_of_ne m ρ c main_arg2 (by decide)).trans k2
  · exact ((W4_arr m ρ c 2).trans (((dat1 (V3 m ρ) c).arrAt_in 2 rfl _).trans (A_eq1 (V3 m ρ) c 2))).trans kw
  · exact ((W4_arr m ρ c 0).trans (((dat1 (V3 m ρ) c).arrAt_in 0 rfl _).trans (A_eq1 (V3 m ρ) c 0))).trans k0
  · exact (W4_of_ne m ρ c main_v4 (by decide)).trans kb
  · exact (W4_of_ne m ρ c main_v5 (by decide)).trans kz
  · refine (W4_arr m ρ c 3).trans ((Layer1.arr (V3 m ρ) c).trans ?_)
    show updArr (W3 m ρ c (Proc.devRef .tc main_v2)) (W3 m ρ c (Proc.devRef .tc main_v21)) (W3 m ρ c (Proc.devRef .tc main_v1)) = _
    rw [show W3 m ρ c (Proc.devRef .tc main_v2) = _ from k0, show W3 m ρ c (Proc.devRef .tc main_v1) = _ from kw,
      show W3 m ρ c (Proc.devRef .tc main_v21) = _ from hg]

end Cert.KernelIdeal.Whole

end
-- ==== Proof.Layer2.lean ====
/-
  Message-passing layer 2 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0 :=
  (by decide +kernel : ∀ t : Fin grid2.N, _)

/-- Every block row of the output is some point's. -/
theorem block_rows_onto : ∀ q0 : Fin 125, ∃ t : Fin cfg2.N, win2_3.index t = ![q0.val, 0] :=
  (by decide +kernel : ∀ q0 : Fin 125, ∃ t : Fin grid2.N, win2_3.index t = ![q0.val, 0])

set_option maxHeartbeats 4000000 in
/-- What point `t` writes back is block `t` of the layer's function of the arrays the region finds. -/
theorem flushed_eq (c : Dev nD) (t : Fin cfg2.N) :
    (dat2 V c).flushed 3 t = ((cfg2.win 3).blk t).view.read (Elt Ideal)
      (updArr (V c main_v2) (V c main_v38) (V c main_v1)) := by
  show (cfg2.win 3).cut (grid2.coords t) ((dat2 V c).after 3 t) = _
  rw [after2_3]
  unfold out2_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk2 V c 1 t) (iblk2 V c 2 t) (iblk2 V c 0 t) (ix2 r q)
      = updArr (V c main_v2) (V c main_v38) (V c main_v1) (((cfg2.win 3).blk t).view.emb (ix2 r q))
  refine (upd_payload _ _ _ r q).trans ?_
  have h0 : ((cfg2.win 0).blk t).view.emb (ix2 r q) = ((cfg2.win 3).blk t).view.emb (ix2 r q) := by
    funext a; apply Fin.ext
    match a with
    | ⟨0, _⟩ => show win2_0.index t (0 : Fin 2) * 800 + 1 * r.val = win2_3.index t (0 : Fin 2) * 800 + 1 * r.val; omega
    | ⟨1, _⟩ => show win2_0.index t (1 : Fin 2) * 256 + 1 * q.val = win2_3.index t (1 : Fin 2) * 256 + 1 * q.val; omega
  have h1 : ∀ (n : Fin 6) (k : Fin 267), ((cfg2.win 1).blk t).view.emb (ix3 r n k)
      = ix3 ((((cfg2.win 3).blk t).view.emb (ix2 r q)) 0) n k := by
    intro n k; funext a; apply Fin.ext
    match a with
    | ⟨0, _⟩ => show win2_1.index t (0 : Fin 3) * 800 + 1 * r.val = win2_3.index t (0 : Fin 2) * 800 + 1 * r.val; omega
    | ⟨1, _⟩ => show win2_1.index t (1 : Fin 3) * 6 + 1 * n.val = n.val; omega
    | ⟨2, _⟩ => show win2_1.index t (2 : Fin 3) * 267 + 1 * k.val = k.val; omega
  have h2 : ∀ k : Fin 267, ((cfg2.win 2).blk t).view.emb (ix2 k q)
      = ix2 k ((((cfg2.win 3).blk t).view.emb (ix2 r q)) 1) := by
    intro k; funext a; apply Fin.ext
    match a with
    | ⟨0, _⟩ => show win2_2.index t (0 : Fin 2) * 267 + 1 * k.val = k.val; omega
    | ⟨1, _⟩ => show win2_2.index t (1 : Fin 2) * 256 + 1 * q.val = win2_3.index t (1 : Fin 2) * 256 + 1 * q.val; omega
  show updEntry (V c main_v2 (((cfg2.win 0).blk t).view.emb (ix2 r q)))
        (fun n k => V c main_v38 (((cfg2.win 1).blk t).view.emb (ix3 r n k)))
        (fun k => V c main_v1 (((cfg2.win 2).blk t).view.emb (ix2 k q)))
      = updEntry (V c main_v2 (((cfg2.win 3).blk t).view.emb (ix2 r q)))
        (fun n k => V c main_v38 (ix3 ((((cfg2.win 3).blk t).view.emb (ix2 r q)) 0) n k))
        (fun k => V c main_v1 (ix2 k ((((cfg2.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg2.N) (i : S100000x256.Idx) :
    i ∈ ((cfg2.win 3).blk t).view.set ↔ ∀ a : Fin 2, win2_3.index t a * S800x256.size a ≤ (i a).val
      ∧ (i a).val < win2_3.index t a * S800x256.size a + S800x256.size a := by
  show i ∈ ((View.whole main_v39).slice (win2_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg2.N, (cfg2.win 3).flush t = true ∧ i ∈ ((cfg2.win 3).blk t).view.set := by
  have hi0 : (i 0).val < 100000 := (i 0).isLt
  have hi1 : (i 1).val < 256 := (i 1).isLt
  obtain ⟨t, ht⟩ := block_rows_onto ⟨(i 0).val / 800, by omega⟩
  have q0 : win2_3.index t (0 : Fin 2) = (i 0).val / 800 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 800 ≤ (i 0).val ∧ (i 0).val < win2_3.index t (0 : Fin 2) * 800 + 800; omega
  | ⟨1, _⟩ => show win2_3.index t (1 : Fin 2) * 256 ≤ (i 1).val ∧ (i 1).val < win2_3.index t (1 : Fin 2) * 256 + 256; omega

set_option maxHeartbeats 4000000 in
/-- The output array after the region: the layer's function of the arrays the region finds. -/
theorem arr (c : Dev nD) :
    (dat2 V c).arrAt 3 cfg2.N = updArr (V c main_v2) (V c main_v38) (V c main_v1) :=
  (dat2 V c).arrAt_eq_of_cover 3 _ (fun t _ => flushed_eq V c t) cover

end Cert.KernelIdeal.Layer2

end
-- ==== Proof.Depth2.lean ====
/-
  Message-passing layer 2 inside the whole run: from the buffers as the layer's host stretch finds them to the
  buffers as its kernel leaves them.

  The host stretch gathers the neighbour messages from the previous layer's output and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer2
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host2_messages (W : Valuation τ sig (Elt F)) :
    after (hostOps2 (F := F)) W (Proc.devRef .tc main_v38)
      = messages (W (Proc.devRef .tc main_v22)) (W (Proc.devRef .tc main_v4)) (W (Proc.devRef .tc main_v5)) (W (Proc.devRef .tc main_arg1)) (W (Proc.devRef .tc main_arg2)) := by
  reads_stretch [hostOps2]

set_option maxHeartbeats 4000000 in
/-- The buffers the stretch leaves alone. -/
theorem host2_keeps (W : Valuation τ sig (Elt F)) :
    after (hostOps2 (F := F)) W (Proc.devRef .tc main_arg1) = W (Proc.devRef .tc main_arg1)
    ∧ after (hostOps2 (F := F)) W (Proc.devRef .tc main_arg2) = W (Proc.devRef .tc main_arg2)
    ∧ after (hostOps2 (F := F)) W (Proc.devRef .tc main_v1) = W (Proc.devRef .tc main_v1)
    ∧ after (hostOps2 (F := F)) W (Proc.devRef .tc main_v2) = W (Proc.devRef .tc main_v2)
    ∧ after (hostOps2 (F := F)) W (Proc.devRef .tc main_v4) = W (Proc.devRef .tc main_v4)
    ∧ after (hostOps2 (F := F)) W (Proc.devRef .tc main_v5) = W (Proc.devRef .tc main_v5) := by
  refine ⟨?_, ?_, ?_, ?_, ?_, ?_⟩ <;> keeps_stretch [hostOps2]

end AnyValuation

variable (m : (ℓ : Loc nD τ sig) → Buf (Elt Ideal) ℓ) (ρ : Dev nD → PrngReg)

set_option maxHeartbeats 4000000 in
/-- Layer 2: what is carried along, and the layer's output. -/
theorem depth2 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (bt : (⟨S199999, .i32⟩ : BufTy).Contents (Elt Ideal)) (z : (⟨S1x256, .f32⟩ : BufTy).Contents (Elt Ideal))
    (Lp : (⟨S100000x256, .f32⟩ : BufTy).Contents (Elt Ideal))
    (h1 : W4 m ρ c (Proc.devRef .tc main_arg1) = a1) (h2 : W4 m ρ c (Proc.devRef .tc main_arg2) = a2)
    (hw : W4 m ρ c (Proc.devRef .tc main_v1) = wT) (h0 : W4 m ρ c (Proc.devRef .tc main_v2) = L0)
    (hb : W4 m ρ c (Proc.devRef .tc main_v4) = bt) (hz : W4 m ρ c (Proc.devRef .tc main_v5) = z)
    (hp : W4 m ρ c (Proc.devRef .tc main_v22) = Lp) :
    W6 m ρ c (Proc.devRef .tc main_arg1) = a1 ∧ W6 m ρ c (Proc.devRef .tc main_arg2) = a2
    ∧ W6 m ρ c (Proc.devRef .tc main_v1) = wT ∧ W6 m ρ c (Proc.devRef .tc main_v2) = L0
    ∧ W6 m ρ c (Proc.devRef .tc main_v4) = bt ∧ W6 m ρ c (Proc.devRef .tc main_v5) = z
    ∧ W6 m ρ c (Proc.devRef .tc main_v39) = updArr L0 (messages Lp bt z a1 a2) wT := by
  obtain ⟨k1, k2, kw, k0, kb, kz⟩ := host2_keeps (F := Ideal) (W4 m ρ c)
  have hg := host2_messages (F := Ideal) (W4 m ρ c)
  subst h1 h2 hw h0 hb hz hp
  refine ⟨?_, ?_, ?_, ?_, ?_, ?_, ?_⟩
  · exact (W6_of_ne m ρ c main_arg1 (by decide)).trans k1
  · exact (W6_of_ne m ρ c main_arg2 (by decide)).trans k2
  · exact ((W6_arr m ρ c 2).trans (((dat2 (V5 m ρ) c).arrAt_in 2 rfl _).trans (A_eq2 (V5 m ρ) c 2))).trans kw
  · exact ((W6_arr m ρ c 0).trans (((dat2 (V5 m ρ) c).arrAt_in 0 rfl _).trans (A_eq2 (V5 m ρ) c 0))).trans k0
  · exact (W6_of_ne m ρ c main_v4 (by decide)).trans kb
  · exact (W6_of_ne m ρ c main_v5 (by decide)).trans kz
  · refine (W6_arr m ρ c 3).trans ((Layer2.arr (V5 m ρ) c).trans ?_)
    show updArr (W5 m ρ c (Proc.devRef .tc main_v2)) (W5 m ρ c (Proc.devRef .tc main_v38)) (W5 m ρ c (Proc.devRef .tc main_v1)) = _
    rw [show W5 m ρ c (Proc.devRef .tc main_v2) = _ from k0, show W5 m ρ c (Proc.devRef .tc main_v1) = _ from kw,
      show W5 m ρ c (Proc.devRef .tc main_v38) = _ from hg]

end Cert.KernelIdeal.Whole

end
-- ==== Proof.Layer3.lean ====
/-
  Message-passing layer 3 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg3.N,
    win3_3.index t (0 : Fin 2) = t.val ∧ win3_3.index t (1 : Fin 2) = 0
    ∧ win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 2) = 0 ∧ win3_2.index t (1 : Fin 2) = 0 :=
  (by decide +kernel : ∀ t : Fin grid3.N, _)

/-- Every block row of the output is some point's. -/
theorem block_rows_onto : ∀ q0 : Fin 125, ∃ t : Fin cfg3.N, win3_3.index t = ![q0.val, 0] :=
  (by decide +kernel : ∀ q0 : Fin 125, ∃ t : Fin grid3.N, win3_3.index t = ![q0.val, 0])

set_option maxHeartbeats 4000000 in
/-- What point `t` writes back is block `t` of the layer's function of the arrays the region finds. -/
theorem flushed_eq (c : Dev nD) (t : Fin cfg3.N) :
    (dat3 V c).flushed 3 t = ((cfg3.win 3).blk t).view.read (Elt Ideal)
      (updArr (V c main_v2) (V c main_v55) (V c main_v1)) := by
  show (cfg3.win 3).cut (grid3.coords t) ((dat3 V c).after 3 t) = _
  rw [after3_3]
  unfold out3_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk3 V c 1 t) (iblk3 V c 2 t) (iblk3 V c 0 t) (ix2 r q)
      = updArr (V c main_v2) (V c main_v55) (V c main_v1) (((cfg3.win 3).blk t).view.emb (ix2 r q))
  refine (upd_payload _ _ _ r q).trans ?_
  have h0 : ((cfg3.win 0).blk t).view.emb (ix2 r q) = ((cfg3.win 3).blk t).view.emb (ix2 r q) := by
    funext a; apply Fin.ext
    match a with
    | ⟨0, _⟩ => show win3_0.index t (0 : Fin 2) * 800 + 1 * r.val = win3_3.index t (0 : Fin 2) * 800 + 1 * r.val; omega
    | ⟨1, _⟩ => show win3_0.index t (1 : Fin 2) * 256 + 1 * q.val = win3_3.index t (1 : Fin 2) * 256 + 1 * q.val; omega
  have h1 : ∀ (n : Fin 6) (k : Fin 267), ((cfg3.win 1).blk t).view.emb (ix3 r n k)
      = ix3 ((((cfg3.win 3).blk t).view.emb (ix2 r q)) 0) n k := by
    intro n k; funext a; apply Fin.ext
    match a with
    | ⟨0, _⟩ => show win3_1.index t (0 : Fin 3) * 800 + 1 * r.val = win3_3.index t (0 : Fin 2) * 800 + 1 * r.val; omega
    | ⟨1, _⟩ => show win3_1.index t (1 : Fin 3) * 6 + 1 * n.val = n.val; omega
    | ⟨2, _⟩ => show win3_1.index t (2 : Fin 3) * 267 + 1 * k.val = k.val; omega
  have h2 : ∀ k : Fin 267, ((cfg3.win 2).blk t).view.emb (ix2 k q)
      = ix2 k ((((cfg3.win 3).blk t).view.emb (ix2 r q)) 1) := by
    intro k; funext a; apply Fin.ext
    match a with
    | ⟨0, _⟩ => show win3_2.index t (0 : Fin 2) * 267 + 1 * k.val = k.val; omega
    | ⟨1, _⟩ => show win3_2.index t (1 : Fin 2) * 256 + 1 * q.val = win3_3.index t (1 : Fin 2) * 256 + 1 * q.val; omega
  show updEntry (V c main_v2 (((cfg3.win 0).blk t).view.emb (ix2 r q)))
        (fun n k => V c main_v55 (((cfg3.win 1).blk t).view.emb (ix3 r n k)))
        (fun k => V c main_v1 (((cfg3.win 2).blk t).view.emb (ix2 k q)))
      = updEntry (V c main_v2 (((cfg3.win 3).blk t).view.emb (ix2 r q)))
        (fun n k => V c main_v55 (ix3 ((((cfg3.win 3).blk t).view.emb (ix2 r q)) 0) n k))
        (fun k => V c main_v1 (ix2 k ((((cfg3.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg3.N) (i : S100000x256.Idx) :
    i ∈ ((cfg3.win 3).blk t).view.set ↔ ∀ a : Fin 2, win3_3.index t a * S800x256.size a ≤ (i a).val
      ∧ (i a).val < win3_3.index t a * S800x256.size a + S800x256.size a := by
  show i ∈ ((View.whole main_v56).slice (win3_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  obtain ⟨t, ht⟩ := block_rows_onto ⟨(i 0).val / 800, by omega⟩
  have q0 : win3_3.index t (0 : Fin 2) = (i 0).val / 800 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 800 ≤ (i 0).val ∧ (i 0).val < win3_3.index t (0 : Fin 2) * 800 + 800; omega
  | ⟨1, _⟩ => show win3_3.index t (1 : Fin 2) * 256 ≤ (i 1).val ∧ (i 1).val < win3_3.index t (1 : Fin 2) * 256 + 256; omega

set_option maxHeartbeats 4000000 in
/-- The output array after the region: the layer's function of the arrays the region finds. -/
theorem arr (c : Dev nD) :
    (dat3 V c).arrAt 3 cfg3.N = updArr (V c main_v2) (V c main_v55) (V c main_v1) :=
  (dat3 V c).arrAt_eq_of_cover 3 _ (fun t _ => flushed_eq V c t) cover

end Cert.KernelIdeal.Layer3

end
-- ==== Proof.Depth3.lean ====
/-
  Message-passing layer 3 inside the whole run: from the buffers as the layer's host stretch finds them to the
  buffers as its kernel leaves them.

  The host stretch gathers the neighbour messages from the previous layer's output and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer3
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host3_messages (W : Valuation τ sig (Elt F)) :
    after (hostOps3 (F := F)) W (Proc.devRef .tc main_v55)
      = messages (W (Proc.devRef .tc main_v39)) (W (Proc.devRef .tc main_v4)) (W (Proc.devRef .tc main_v5)) (W (Proc.devRef .tc main_arg1)) (W (Proc.devRef .tc main_arg2)) := by
  reads_stretch [hostOps3]

set_option maxHeartbeats 4000000 in
/-- The buffers the stretch leaves alone. -/
theorem host3_keeps (W : Valuation τ sig (Elt F)) :
    after (hostOps3 (F := F)) W (Proc.devRef .tc main_arg1) = W (Proc.devRef .tc main_arg1)
    ∧ after (hostOps3 (F := F)) W (Proc.devRef .tc main_arg2) = W (Proc.devRef .tc main_arg2)
    ∧ after (hostOps3 (F := F)) W (Proc.devRef .tc main_v1) = W (Proc.devRef .tc main_v1)
    ∧ after (hostOps3 (F := F)) W (Proc.devRef .tc main_v2) = W (Proc.devRef .tc main_v2)
    ∧ after (hostOps3 (F := F)) W (Proc.devRef .tc main_v4) = W (Proc.devRef .tc main_v4)
    ∧ after (hostOps3 (F := F)) W (Proc.devRef .tc main_v5) = W (Proc.devRef .tc main_v5) := by
  refine ⟨?_, ?_, ?_, ?_, ?_, ?_⟩ <;> keeps_stretch [hostOps3]

end AnyValuation

variable (m : (ℓ : Loc nD τ sig) → Buf (Elt Ideal) ℓ) (ρ : Dev nD → PrngReg)

set_option maxHeartbeats 4000000 in
/-- Layer 3: what is carried along, and the layer's output. -/
theorem depth3 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (bt : (⟨S199999, .i32⟩ : BufTy).Contents (Elt Ideal)) (z : (⟨S1x256, .f32⟩ : BufTy).Contents (Elt Ideal))
    (Lp : (⟨S100000x256, .f32⟩ : BufTy).Contents (Elt Ideal))
    (h1 : W6 m ρ c (Proc.devRef .tc main_arg1) = a1) (h2 : W6 m ρ c (Proc.devRef .tc main_arg2) = a2)
    (hw : W6 m ρ c (Proc.devRef .tc main_v1) = wT) (h0 : W6 m ρ c (Proc.devRef .tc main_v2) = L0)
    (hb : W6 m ρ c (Proc.devRef .tc main_v4) = bt) (hz : W6 m ρ c (Proc.devRef .tc main_v5) = z)
    (hp : W6 m ρ c (Proc.devRef .tc main_v39) = Lp) :
    W8 m ρ c (Proc.devRef .tc main_arg1) = a1 ∧ W8 m ρ c (Proc.devRef .tc main_arg2) = a2
    ∧ W8 m ρ c (Proc.devRef .tc main_v1) = wT ∧ W8 m ρ c (Proc.devRef .tc main_v2) = L0
    ∧ W8 m ρ c (Proc.devRef .tc main_v4) = bt ∧ W8 m ρ c (Proc.devRef .tc main_v5) = z
    ∧ W8 m ρ c (Proc.devRef .tc main_v56) = updArr L0 (messages Lp bt z a1 a2) wT := by
  obtain ⟨k1, k2, kw, k0, kb, kz⟩ := host3_keeps (F := Ideal) (W6 m ρ c)
  have hg := host3_messages (F := Ideal) (W6 m ρ c)
  subst h1 h2 hw h0 hb hz hp
  refine ⟨?_, ?_, ?_, ?_, ?_, ?_, ?_⟩
  · exact (W8_of_ne m ρ c main_arg1 (by decide)).trans k1
  · exact (W8_of_ne m ρ c main_arg2 (by decide)).trans k2
  · exact ((W8_arr m ρ c 2).trans (((dat3 (V7 m ρ) c).arrAt_in 2 rfl _).trans (A_eq3 (V7 m ρ) c 2))).trans kw
  · exact ((W8_arr m ρ c 0).trans (((dat3 (V7 m ρ) c).arrAt_in 0 rfl _).trans (A_eq3 (V7 m ρ) c 0))).trans k0
  · exact (W8_of_ne m ρ c main_v4 (by decide)).trans kb
  · exact (W8_of_ne m ρ c main_v5 (by decide)).trans kz
  · refine (W8_arr m ρ c 3).trans ((Layer3.arr (V7 m ρ) c).trans ?_)
    show updArr (W7 m ρ c (Proc.devRef .tc main_v2)) (W7 m ρ c (Proc.devRef .tc main_v55)) (W7 m ρ c (Proc.devRef .tc main_v1)) = _
    rw [show W7 m ρ c (Proc.devRef .tc main_v2) = _ from k0, show W7 m ρ c (Proc.devRef .tc main_v1) = _ from kw,
      show W7 m ρ c (Proc.devRef .tc main_v55) = _ from hg]

end Cert.KernelIdeal.Whole

end
-- ==== Proof.Layer4.lean ====
/-
  Message-passing layer 4 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer4

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg4.N,
    win4_3.index t (0 : Fin 2) = t.val ∧ win4_3.index t (1 : Fin 2) = 0
    ∧ win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0 :=
  (by decide +kernel : ∀ t : Fin grid4.N, _)

/-- Every block row of the output is some point's. -/
theorem block_rows_onto : ∀ q0 : Fin 125, ∃ t : Fin cfg4.N, win4_3.index t = ![q0.val, 0] :=
  (by decide +kernel : ∀ q0 : Fin 125, ∃ t : Fin grid4.N, win4_3.index t = ![q0.val, 0])

set_option maxHeartbeats 4000000 in
/-- What point `t` writes back is block `t` of the layer's function of the arrays the region finds. -/
theorem flushed_eq (c : Dev nD) (t : Fin cfg4.N) :
    (dat4 V c).flushed 3 t = ((cfg4.win 3).blk t).view.read (Elt Ideal)
      (updArr (V c main_v2) (V c main_v72) (V c main_v1)) := by
  show (cfg4.win 3).cut (grid4.coords t) ((dat4 V c).after 3 t) = _
  rw [after4_3]
  unfold out4_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk4 V c 1 t) (iblk4 V c 2 t) (iblk4 V c 0 t) (ix2 r q)
      = updArr (V c main_v2) (V c main_v72) (V c main_v1) (((cfg4.win 3).blk t).view.emb (ix2 r q))
  refine (upd_payload _ _ _ r q).trans ?_
  have h0 : ((cfg4.win 0).blk t).view.emb (ix2 r q) = ((cfg4.win 3).blk t).view.emb (ix2 r q) := by
    funext a; apply Fin.ext
    match a with
    | ⟨0, _⟩ => show win4_0.index t (0 : Fin 2) * 800 + 1 * r.val = win4_3.index t (0 : Fin 2) * 800 + 1 * r.val; omega
    | ⟨1, _⟩ => show win4_0.index t (1 : Fin 2) * 256 + 1 * q.val = win4_3.index t (1 : Fin 2) * 256 + 1 * q.val; omega
  have h1 : ∀ (n : Fin 6) (k : Fin 267), ((cfg4.win 1).blk t).view.emb (ix3 r n k)
      = ix3 ((((cfg4.win 3).blk t).view.emb (ix2 r q)) 0) n k := by
    intro n k; funext a; apply Fin.ext
    match a with
    | ⟨0, _⟩ => show win4_1.index t (0 : Fin 3) * 800 + 1 * r.val = win4_3.index t (0 : Fin 2) * 800 + 1 * r.val; omega
    | ⟨1, _⟩ => show win4_1.index t (1 : Fin 3) * 6 + 1 * n.val = n.val; omega
    | ⟨2, _⟩ => show win4_1.index t (2 : Fin 3) * 267 + 1 * k.val = k.val; omega
  have h2 : ∀ k : Fin 267, ((cfg4.win 2).blk t).view.emb (ix2 k q)
      = ix2 k ((((cfg4.win 3).blk t).view.emb (ix2 r q)) 1) := by
    intro k; funext a; apply Fin.ext
    match a with
    | ⟨0, _⟩ => show win4_2.index t (0 : Fin 2) * 267 + 1 * k.val = k.val; omega
    | ⟨1, _⟩ => show win4_2.index t (1 : Fin 2) * 256 + 1 * q.val = win4_3.index t (1 : Fin 2) * 256 + 1 * q.val; omega
  show updEntry (V c main_v2 (((cfg4.win 0).blk t).view.emb (ix2 r q)))
        (fun n k => V c main_v72 (((cfg4.win 1).blk t).view.emb (ix3 r n k)))
        (fun k => V c main_v1 (((cfg4.win 2).blk t).view.emb (ix2 k q)))
      = updEntry (V c main_v2 (((cfg4.win 3).blk t).view.emb (ix2 r q)))
        (fun n k => V c main_v72 (ix3 ((((cfg4.win 3).blk t).view.emb (ix2 r q)) 0) n k))
        (fun k => V c main_v1 (ix2 k ((((cfg4.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg4.N) (i : S100000x256.Idx) :
    i ∈ ((cfg4.win 3).blk t).view.set ↔ ∀ a : Fin 2, win4_3.index t a * S800x256.size a ≤ (i a).val
      ∧ (i a).val < win4_3.index t a * S800x256.size a + S800x256.size a := by
  show i ∈ ((View.whole main_v73).slice (win4_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg4.N, (cfg4.win 3).flush t = true ∧ i ∈ ((cfg4.win 3).blk t).view.set := by
  have hi0 : (i 0).val < 100000 := (i 0).isLt
  have hi1 : (i 1).val < 256 := (i 1).isLt
  obtain ⟨t, ht⟩ := block_rows_onto ⟨(i 0).val / 800, by omega⟩
  have q0 : win4_3.index t (0 : Fin 2) = (i 0).val / 800 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 800 ≤ (i 0).val ∧ (i 0).val < win4_3.index t (0 : Fin 2) * 800 + 800; omega
  | ⟨1, _⟩ => show win4_3.index t (1 : Fin 2) * 256 ≤ (i 1).val ∧ (i 1).val < win4_3.index t (1 : Fin 2) * 256 + 256; omega

set_option maxHeartbeats 4000000 in
/-- The output array after the region: the layer's function of the arrays the region finds. -/
theorem arr (c : Dev nD) :
    (dat4 V c).arrAt 3 cfg4.N = updArr (V c main_v2) (V c main_v72) (V c main_v1) :=
  (dat4 V c).arrAt_eq_of_cover 3 _ (fun t _ => flushed_eq V c t) cover

end Cert.KernelIdeal.Layer4

end
-- ==== Proof.Depth4.lean ====
/-
  Message-passing layer 4 inside the whole run: from the buffers as the layer's host stretch finds them to the
  buffers as its kernel leaves them.

  The host stretch gathers the neighbour messages from the previous layer's output and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer4
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host4_messages (W : Valuation τ sig (Elt F)) :
    after (hostOps4 (F := F)) W (Proc.devRef .tc main_v72)
      = messages (W (Proc.devRef .tc main_v56)) (W (Proc.devRef .tc main_v4)) (W (Proc.devRef .tc main_v5)) (W (Proc.devRef .tc main_arg1)) (W (Proc.devRef .tc main_arg2)) := by
  reads_stretch [hostOps4]

set_option maxHeartbeats 4000000 in
/-- The buffers the stretch leaves alone. -/
theorem host4_keeps (W : Valuation τ sig (Elt F)) :
    after (hostOps4 (F := F)) W (Proc.devRef .tc main_arg1) = W (Proc.devRef .tc main_arg1)
    ∧ after (hostOps4 (F := F)) W (Proc.devRef .tc main_arg2) = W (Proc.devRef .tc main_arg2)
    ∧ after (hostOps4 (F := F)) W (Proc.devRef .tc main_v1) = W (Proc.devRef .tc main_v1)
    ∧ after (hostOps4 (F := F)) W (Proc.devRef .tc main_v2) = W (Proc.devRef .tc main_v2)
    ∧ after (hostOps4 (F := F)) W (Proc.devRef .tc main_v4) = W (Proc.devRef .tc main_v4)
    ∧ after (hostOps4 (F := F)) W (Proc.devRef .tc main_v5) = W (Proc.devRef .tc main_v5) := by
  refine ⟨?_, ?_, ?_, ?_, ?_, ?_⟩ <;> keeps_stretch [hostOps4]

end AnyValuation

variable (m : (ℓ : Loc nD τ sig) → Buf (Elt Ideal) ℓ) (ρ : Dev nD → PrngReg)

set_option maxHeartbeats 4000000 in
/-- Layer 4: what is carried along, and the layer's output. -/
theorem depth4 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (bt : (⟨S199999, .i32⟩ : BufTy).Contents (Elt Ideal)) (z : (⟨S1x256, .f32⟩ : BufTy).Contents (Elt Ideal))
    (Lp : (⟨S100000x256, .f32⟩ : BufTy).Contents (Elt Ideal))
    (h1 : W8 m ρ c (Proc.devRef .tc main_arg1) = a1) (h2 : W8 m ρ c (Proc.devRef .tc main_arg2) = a2)
    (hw : W8 m ρ c (Proc.devRef .tc main_v1) = wT) (h0 : W8 m ρ c (Proc.devRef .tc main_v2) = L0)
    (hb : W8 m ρ c (Proc.devRef .tc main_v4) = bt) (hz : W8 m ρ c (Proc.devRef .tc main_v5) = z)
    (hp : W8 m ρ c (Proc.devRef .tc main_v56) = Lp) :
    W10 m ρ c (Proc.devRef .tc main_arg1) = a1 ∧ W10 m ρ c (Proc.devRef .tc main_arg2) = a2
    ∧ W10 m ρ c (Proc.devRef .tc main_v1) = wT ∧ W10 m ρ c (Proc.devRef .tc main_v2) = L0
    ∧ W10 m ρ c (Proc.devRef .tc main_v4) = bt ∧ W10 m ρ c (Proc.devRef .tc main_v5) = z
    ∧ W10 m ρ c (Proc.devRef .tc main_v73) = updArr L0 (messages Lp bt z a1 a2) wT := by
  obtain ⟨k1, k2, kw, k0, kb, kz⟩ := host4_keeps (F := Ideal) (W8 m ρ c)
  have hg := host4_messages (F := Ideal) (W8 m ρ c)
  subst h1 h2 hw h0 hb hz hp
  refine ⟨?_, ?_, ?_, ?_, ?_, ?_, ?_⟩
  · exact (W10_of_ne m ρ c main_arg1 (by decide)).trans k1
  · exact (W10_of_ne m ρ c main_arg2 (by decide)).trans k2
  · exact ((W10_arr m ρ c 2).trans (((dat4 (V9 m ρ) c).arrAt_in 2 rfl _).trans (A_eq4 (V9 m ρ) c 2))).trans kw
  · exact ((W10_arr m ρ c 0).trans (((dat4 (V9 m ρ) c).arrAt_in 0 rfl _).trans (A_eq4 (V9 m ρ) c 0))).trans k0
  · exact (W10_of_ne m ρ c main_v4 (by decide)).trans kb
  · exact (W10_of_ne m ρ c main_v5 (by decide)).trans kz
  · refine (W10_arr m ρ c 3).trans ((Layer4.arr (V9 m ρ) c).trans ?_)
    show updArr (W9 m ρ c (Proc.devRef .tc main_v2)) (W9 m ρ c (Proc.devRef .tc main_v72)) (W9 m ρ c (Proc.devRef .tc main_v1)) = _
    rw [show W9 m ρ c (Proc.devRef .tc main_v2) = _ from k0, show W9 m ρ c (Proc.devRef .tc main_v1) = _ from kw,
      show W9 m ρ c (Proc.devRef .tc main_v72) = _ from hg]

end Cert.KernelIdeal.Whole

end
-- ==== Proof.Layer5.lean ====
/-
  Message-passing layer 5 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer5

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg5.N,
    win5_3.index t (0 : Fin 2) = t.val ∧ win5_3.index t (1 : Fin 2) = 0
    ∧ win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 2) = 0 ∧ win5_2.index t (1 : Fin 2) = 0 :=
  (by decide +kernel : ∀ t : Fin grid5.N, _)

/-- Every block row of the output is some point's. -/
theorem block_rows_onto : ∀ q0 : Fin 125, ∃ t : Fin cfg5.N, win5_3.index t = ![q0.val, 0] :=
  (by decide +kernel : ∀ q0 : Fin 125, ∃ t : Fin grid5.N, win5_3.index t = ![q0.val, 0])

set_option maxHeartbeats 4000000 in
/-- What point `t` writes back is block `t` of the layer's function of the arrays the region finds. -/
theorem flushed_eq (c : Dev nD) (t : Fin cfg5.N) :
    (dat5 V c).flushed 3 t = ((cfg5.win 3).blk t).view.read (Elt Ideal)
      (updArr (V c main_v2) (V c main_v89) (V c main_v1)) := by
  show (cfg5.win 3).cut (grid5.coords t) ((dat5 V c).after 3 t) = _
  rw [after5_3]
  unfold out5_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk5 V c 1 t) (iblk5 V c 2 t) (iblk5 V c 0 t) (ix2 r q)
      = updArr (V c main_v2) (V c main_v89) (V c main_v1) (((cfg5.win 3).blk t).view.emb (ix2 r q))
  refine (upd_payload _ _ _ r q).trans ?_
  have h0 : ((cfg5.win 0).blk t).view.emb (ix2 r q) = ((cfg5.win 3).blk t).view.emb (ix2 r q) := by
    funext a; apply Fin.ext
    match a with
    | ⟨0, _⟩ => show win5_0.index t (0 : Fin 2) * 800 + 1 * r.val = win5_3.index t (0 : Fin 2) * 800 + 1 * r.val; omega
    | ⟨1, _⟩ => show win5_0.index t (1 : Fin 2) * 256 + 1 * q.val = win5_3.index t (1 : Fin 2) * 256 + 1 * q.val; omega
  have h1 : ∀ (n : Fin 6) (k : Fin 267), ((cfg5.win 1).blk t).view.emb (ix3 r n k)
      = ix3 ((((cfg5.win 3).blk t).view.emb (ix2 r q)) 0) n k := by
    intro n k; funext a; apply Fin.ext
    match a with
    | ⟨0, _⟩ => show win5_1.index t (0 : Fin 3) * 800 + 1 * r.val = win5_3.index t (0 : Fin 2) * 800 + 1 * r.val; omega
    | ⟨1, _⟩ => show win5_1.index t (1 : Fin 3) * 6 + 1 * n.val = n.val; omega
    | ⟨2, _⟩ => show win5_1.index t (2 : Fin 3) * 267 + 1 * k.val = k.val; omega
  have h2 : ∀ k : Fin 267, ((cfg5.win 2).blk t).view.emb (ix2 k q)
      = ix2 k ((((cfg5.win 3).blk t).view.emb (ix2 r q)) 1) := by
    intro k; funext a; apply Fin.ext
    match a with
    | ⟨0, _⟩ => show win5_2.index t (0 : Fin 2) * 267 + 1 * k.val = k.val; omega
    | ⟨1, _⟩ => show win5_2.index t (1 : Fin 2) * 256 + 1 * q.val = win5_3.index t (1 : Fin 2) * 256 + 1 * q.val; omega
  show updEntry (V c main_v2 (((cfg5.win 0).blk t).view.emb (ix2 r q)))
        (fun n k => V c main_v89 (((cfg5.win 1).blk t).view.emb (ix3 r n k)))
        (fun k => V c main_v1 (((cfg5.win 2).blk t).view.emb (ix2 k q)))
      = updEntry (V c main_v2 (((cfg5.win 3).blk t).view.emb (ix2 r q)))
        (fun n k => V c main_v89 (ix3 ((((cfg5.win 3).blk t).view.emb (ix2 r q)) 0) n k))
        (fun k => V c main_v1 (ix2 k ((((cfg5.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg5.N) (i : S100000x256.Idx) :
    i ∈ ((cfg5.win 3).blk t).view.set ↔ ∀ a : Fin 2, win5_3.index t a * S800x256.size a ≤ (i a).val
      ∧ (i a).val < win5_3.index t a * S800x256.size a + S800x256.size a := by
  show i ∈ ((View.whole main_v90).slice (win5_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg5.N, (cfg5.win 3).flush t = true ∧ i ∈ ((cfg5.win 3).blk t).view.set := by
  have hi0 : (i 0).val < 100000 := (i 0).isLt
  have hi1 : (i 1).val < 256 := (i 1).isLt
  obtain ⟨t, ht⟩ := block_rows_onto ⟨(i 0).val / 800, by omega⟩
  have q0 : win5_3.index t (0 : Fin 2) = (i 0).val / 800 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 800 ≤ (i 0).val ∧ (i 0).val < win5_3.index t (0 : Fin 2) * 800 + 800; omega
  | ⟨1, _⟩ => show win5_3.index t (1 : Fin 2) * 256 ≤ (i 1).val ∧ (i 1).val < win5_3.index t (1 : Fin 2) * 256 + 256; omega

set_option maxHeartbeats 4000000 in
/-- The output array after the region: the layer's function of the arrays the region finds. -/
theorem arr (c : Dev nD) :
    (dat5 V c).arrAt 3 cfg5.N = updArr (V c main_v2) (V c main_v89) (V c main_v1) :=
  (dat5 V c).arrAt_eq_of_cover 3 _ (fun t _ => flushed_eq V c t) cover

end Cert.KernelIdeal.Layer5

end
-- ==== Proof.Depth5.lean ====
/-
  Message-passing layer 5 inside the whole run: from the buffers as the layer's host stretch finds them to the
  buffers as its kernel leaves them.

  The host stretch gathers the neighbour messages from the previous layer's output and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer5
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host5_messages (W : Valuation τ sig (Elt F)) :
    after (hostOps5 (F := F)) W (Proc.devRef .tc main_v89)
      = messages (W (Proc.devRef .tc main_v73)) (W (Proc.devRef .tc main_v4)) (W (Proc.devRef .tc main_v5)) (W (Proc.devRef .tc main_arg1)) (W (Proc.devRef .tc main_arg2)) := by
  reads_stretch [hostOps5]

set_option maxHeartbeats 4000000 in
/-- The buffers the stretch leaves alone. -/
theorem host5_keeps (W : Valuation τ sig (Elt F)) :
    after (hostOps5 (F := F)) W (Proc.devRef .tc main_arg1) = W (Proc.devRef .tc main_arg1)
    ∧ after (hostOps5 (F := F)) W (Proc.devRef .tc main_arg2) = W (Proc.devRef .tc main_arg2)
    ∧ after (hostOps5 (F := F)) W (Proc.devRef .tc main_v1) = W (Proc.devRef .tc main_v1)
    ∧ after (hostOps5 (F := F)) W (Proc.devRef .tc main_v2) = W (Proc.devRef .tc main_v2)
    ∧ after (hostOps5 (F := F)) W (Proc.devRef .tc main_v4) = W (Proc.devRef .tc main_v4)
    ∧ after (hostOps5 (F := F)) W (Proc.devRef .tc main_v5) = W (Proc.devRef .tc main_v5) := by
  refine ⟨?_, ?_, ?_, ?_, ?_, ?_⟩ <;> keeps_stretch [hostOps5]

end AnyValuation

variable (m : (ℓ : Loc nD τ sig) → Buf (Elt Ideal) ℓ) (ρ : Dev nD → PrngReg)

set_option maxHeartbeats 4000000 in
/-- Layer 5: what is carried along, and the layer's output. -/
theorem depth5 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (bt : (⟨S199999, .i32⟩ : BufTy).Contents (Elt Ideal)) (z : (⟨S1x256, .f32⟩ : BufTy).Contents (Elt Ideal))
    (Lp : (⟨S100000x256, .f32⟩ : BufTy).Contents (Elt Ideal))
    (h1 : W10 m ρ c (Proc.devRef .tc main_arg1) = a1) (h2 : W10 m ρ c (Proc.devRef .tc main_arg2) = a2)
    (hw : W10 m ρ c (Proc.devRef .tc main_v1) = wT) (h0 : W10 m ρ c (Proc.devRef .tc main_v2) = L0)
    (hb : W10 m ρ c (Proc.devRef .tc main_v4) = bt) (hz : W10 m ρ c (Proc.devRef .tc main_v5) = z)
    (hp : W10 m ρ c (Proc.devRef .tc main_v73) = Lp) :
    W12 m ρ c (Proc.devRef .tc main_arg1) = a1 ∧ W12 m ρ c (Proc.devRef .tc main_arg2) = a2
    ∧ W12 m ρ c (Proc.devRef .tc main_v1) = wT ∧ W12 m ρ c (Proc.devRef .tc main_v2) = L0
    ∧ W12 m ρ c (Proc.devRef .tc main_v4) = bt ∧ W12 m ρ c (Proc.devRef .tc main_v5) = z
    ∧ W12 m ρ c (Proc.devRef .tc main_v90) = updArr L0 (messages Lp bt z a1 a2) wT := by
  obtain ⟨k1, k2, kw, k0, kb, kz⟩ := host5_keeps (F := Ideal) (W10 m ρ c)
  have hg := host5_messages (F := Ideal) (W10 m ρ c)
  subst h1 h2 hw h0 hb hz hp
  refine ⟨?_, ?_, ?_, ?_, ?_, ?_, ?_⟩
  · exact (W12_of_ne m ρ c main_arg1 (by decide)).trans k1
  · exact (W12_of_ne m ρ c main_arg2 (by decide)).trans k2
  · exact ((W12_arr m ρ c 2).trans (((dat5 (V11 m ρ) c).arrAt_in 2 rfl _).trans (A_eq5 (V11 m ρ) c 2))).trans kw
  · exact ((W12_arr m ρ c 0).trans (((dat5 (V11 m ρ) c).arrAt_in 0 rfl _).trans (A_eq5 (V11 m ρ) c 0))).trans k0
  · exact (W12_of_ne m ρ c main_v4 (by decide)).trans kb
  · exact (W12_of_ne m ρ c main_v5 (by decide)).trans kz
  · refine (W12_arr m ρ c 3).trans ((Layer5.arr (V11 m ρ) c).trans ?_)
    show updArr (W11 m ρ c (Proc.devRef .tc main_v2)) (W11 m ρ c (Proc.devRef .tc main_v89)) (W11 m ρ c (Proc.devRef .tc main_v1)) = _
    rw [show W11 m ρ c (Proc.devRef .tc main_v2) = _ from k0, show W11 m ρ c (Proc.devRef .tc main_v1) = _ from kw,
      show W11 m ρ c (Proc.devRef .tc main_v89) = _ from hg]

end Cert.KernelIdeal.Whole

end
-- ==== Proof.Layer6.lean ====
/-
  Message-passing layer 6 as the pipelined kernel leaves it in its output array.

  The kernel walks the atoms in 125 blocks of 800 rows. At block `t` it reads rows `800·t … 800·t + 799` of the
  embedded atoms and of the gathered neighbour messages, all of the transposed update weights, and writes the same
  rows of its output. Entry `(r, q)` of the written block is the layer's entry of row `800·t + r` and column `q`,
  so every written block is the restriction of ONE function of the whole arrays (`updArr`), and the 125 blocks
  cover the output array: after the last block the array is that function.
-/
import proofs.«105317_j8340826489581_1_alg».proof.Proof.Gen.KernelIdeal.Frame
import proofs.«105317_j8340826489581_1_alg».proof.Proof.Layers

set_option maxRecDepth 16384

noncomputable section

namespace Cert.KernelIdeal.Layer6

open Idealize.ShloMosaic Idealize.ShloMosaic.TcCoe Idealize.ShloMosaic.ValueIdx Idealize.SL.Sem
open Cert.KernelIdeal Cert.KernelIdeal.Gen Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Where each window's block sits at grid point `t`: the three row-blocked windows at block row `t`, the weights
    and every other axis at block 0. Decided over the 125 points. -/
theorem block_positions : ∀ t : Fin cfg6.N,
    win6_3.index t (0 : Fin 2) = t.val ∧ win6_3.index t (1 : Fin 2) = 0
    ∧ win6_0.index t (0 : Fin 2) = t.val ∧ win6_0.index t (1 : Fin 2) = 0
    ∧ win6_1.index t (0 : Fin 3) = t.val ∧ win6_1.index t (1 : Fin 3) = 0 ∧ win6_1.index t (2 : Fin 3) = 0
    ∧ win6_2.index t (0 : Fin 2) = 0 ∧ win6_2.index t (1 : Fin 2) = 0 :=
  (by decide +kernel : ∀ t : Fin grid6.N, _)

/-- Every block row of the output is some point's. -/
theorem block_rows_onto : ∀ q0 : Fin 125, ∃ t : Fin cfg6.N, win6_3.index t = ![q0.val, 0] :=
  (by decide +kernel : ∀ q0 : Fin 125, ∃ t : Fin grid6.N, win6_3.index t = ![q0.val, 0])

set_option maxHeartbeats 4000000 in
/-- What point `t` writes back is block `t` of the layer's function of the arrays the region finds. -/
theorem flushed_eq (c : Dev nD) (t : Fin cfg6.N) :
    (dat6 V c).flushed 3 t = ((cfg6.win 3).blk t).view.read (Elt Ideal)
      (updArr (V c main_v2) (V c main_v106) (V c main_v1)) := by
  show (cfg6.win 3).cut (grid6.coords t) ((dat6 V c).after 3 t) = _
  rw [after6_3]
  unfold out6_3
  rw [View.canon_unit_zero origin2]
  simp only [View.ld_unit_zero (S := S800x6x267) origin3, View.ld_unit_zero (S := S267x256) origin2,
    View.ld_unit_zero (S := S800x256) origin2]
  obtain ⟨e30, e31, e00, e01, e10, e11, e12, e20, e21⟩ := block_positions t
  refine funext fun (j : S800x256.Idx) => ?_
  obtain ⟨r, q, rfl⟩ : ∃ (r : Fin 800) (q : Fin 256), j = ix2 r q := ⟨j 0, j 1, eq_ix2 j⟩
  show k1_pay1 (F := Ideal) (iblk6 V c 1 t) (iblk6 V c 2 t) (iblk6 V c 0 t) (ix2 r q)
      = updArr (V c main_v2) (V c main_v106) (V c main_v1) (((cfg6.win 3).blk t).view.emb (ix2 r q))
  refine (upd_payload _ _ _ r q).trans ?_
  have h0 : ((cfg6.win 0).blk t).view.emb (ix2 r q) = ((cfg6.win 3).blk t).view.emb (ix2 r q) := by
    funext a; apply Fin.ext
    match a with
    | ⟨0, _⟩ => show win6_0.index t (0 : Fin 2) * 800 + 1 * r.val = win6_3.index t (0 : Fin 2) * 800 + 1 * r.val; omega
    | ⟨1, _⟩ => show win6_0.index t (1 : Fin 2) * 256 + 1 * q.val = win6_3.index t (1 : Fin 2) * 256 + 1 * q.val; omega
  have h1 : ∀ (n : Fin 6) (k : Fin 267), ((cfg6.win 1).blk t).view.emb (ix3 r n k)
      = ix3 ((((cfg6.win 3).blk t).view.emb (ix2 r q)) 0) n k := by
    intro n k; funext a; apply Fin.ext
    match a with
    | ⟨0, _⟩ => show win6_1.index t (0 : Fin 3) * 800 + 1 * r.val = win6_3.index t (0 : Fin 2) * 800 + 1 * r.val; omega
    | ⟨1, _⟩ => show win6_1.index t (1 : Fin 3) * 6 + 1 * n.val = n.val; omega
    | ⟨2, _⟩ => show win6_1.index t (2 : Fin 3) * 267 + 1 * k.val = k.val; omega
  have h2 : ∀ k : Fin 267, ((cfg6.win 2).blk t).view.emb (ix2 k q)
      = ix2 k ((((cfg6.win 3).blk t).view.emb (ix2 r q)) 1) := by
    intro k; funext a; apply Fin.ext
    match a with
    | ⟨0, _⟩ => show win6_2.index t (0 : Fin 2) * 267 + 1 * k.val = k.val; omega
    | ⟨1, _⟩ => show win6_2.index t (1 : Fin 2) * 256 + 1 * q.val = win6_3.index t (1 : Fin 2) * 256 + 1 * q.val; omega
  show updEntry (V c main_v2 (((cfg6.win 0).blk t).view.emb (ix2 r q)))
        (fun n k => V c main_v106 (((cfg6.win 1).blk t).view.emb (ix3 r n k)))
        (fun k => V c main_v1 (((cfg6.win 2).blk t).view.emb (ix2 k q)))
      = updEntry (V c main_v2 (((cfg6.win 3).blk t).view.emb (ix2 r q)))
        (fun n k => V c main_v106 (ix3 ((((cfg6.win 3).blk t).view.emb (ix2 r q)) 0) n k))
        (fun k => V c main_v1 (ix2 k ((((cfg6.win 3).blk t).view.emb (ix2 r q)) 1)))
  rw [h0]
  simp only [h1, h2]
  rfl

set_option maxHeartbeats 4000000 in
/-- An index of the output array is in point `t`'s block iff each coordinate is in the block's range on its axis. -/
theorem mem_blk (t : Fin cfg6.N) (i : S100000x256.Idx) :
    i ∈ ((cfg6.win 3).blk t).view.set ↔ ∀ a : Fin 2, win6_3.index t a * S800x256.size a ≤ (i a).val
      ∧ (i a).val < win6_3.index t a * S800x256.size a + S800x256.size a := by
  show i ∈ ((View.whole main_v107).slice (win6_3.rect t)).set ↔ _
  rw [View.set_slice_whole, Rect.mem_set_unit]
  exact Iff.rfl

set_option maxHeartbeats 4000000 in
/-- Row `i` of the output lies in the block of point `i / 800`. -/
theorem cover (i : S100000x256.Idx) :
    ∃ t : Fin cfg6.N, (cfg6.win 3).flush t = true ∧ i ∈ ((cfg6.win 3).blk t).view.set := by
  have hi0 : (i 0).val < 100000 := (i 0).isLt
  have hi1 : (i 1).val < 256 := (i 1).isLt
  obtain ⟨t, ht⟩ := block_rows_onto ⟨(i 0).val / 800, by omega⟩
  have q0 : win6_3.index t (0 : Fin 2) = (i 0).val / 800 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 800 ≤ (i 0).val ∧ (i 0).val < win6_3.index t (0 : Fin 2) * 800 + 800; omega
  | ⟨1, _⟩ => show win6_3.index t (1 : Fin 2) * 256 ≤ (i 1).val ∧ (i 1).val < win6_3.index t (1 : Fin 2) * 256 + 256; omega

set_option maxHeartbeats 4000000 in
/-- The output array after the region: the layer's function of the arrays the region finds. -/
theorem arr (c : Dev nD) :
    (dat6 V c).arrAt 3 cfg6.N = updArr (V c main_v2) (V c main_v106) (V c main_v1) :=
  (dat6 V c).arrAt_eq_of_cover 3 _ (fun t _ => flushed_eq V c t) cover

end Cert.KernelIdeal.Layer6

end
-- ==== Proof.Depth6.lean ====
/-
  Message-passing layer 6 inside the whole run: from the buffers as the layer's host stretch finds them to the
  buffers as its kernel leaves them.

  The host stretch gathers the neighbour messages from the previous layer's output and writes none of the buffers the later layers read;
  the kernel writes its output array — the layer's function of the embedded atoms, the gathered messages and the
  transposed weights — and nothing else. So the embedded atoms, the transposed weights, the bond targets, the zero row,
  the bond features and the outgoing-bond indices are carried along unchanged, and the output is the layer applied to
  the previous output.
-/
import proofs.«105317_j8340826489581_1_alg».proof.Proof.Gen.KernelIdeal.Frame
import proofs.«105317_j8340826489581_1_alg».proof.Proof.Layers
import proofs.«105317_j8340826489581_1_alg».proof.Proof.Layer6
import proofs.«105317_j8340826489581_1_alg».proof.Proof.Stages
import proofs.«105317_j8340826489581_1_alg».proof.Proof.LibStages

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages
open Idealize.ShloMosaic.Pipeline (Dat)

section AnyValuation
variable {F : FTy → Type} [FloatOps F]

set_option maxHeartbeats 4000000 in
/-- The stretch's gathered messages, from what any valuation holds in the buffers the stretch reads. -/
theorem host6_messages (W : Valuation τ sig (Elt F)) :
    after (hostOps6 (F := F)) W (Proc.devRef .tc main_v106)
      = messages (W (Proc.devRef .tc main_v90)) (W (Proc.devRef .tc main_v4)) (W (Proc.devRef .tc main_v5)) (W (Proc.devRef .tc main_arg1)) (W (Proc.devRef .tc main_arg2)) := by
  reads_stretch [hostOps6]

set_option maxHeartbeats 4000000 in
/-- The buffers the stretch leaves alone. -/
theorem host6_keeps (W : Valuation τ sig (Elt F)) :
    after (hostOps6 (F := F)) W (Proc.devRef .tc main_arg1) = W (Proc.devRef .tc main_arg1)
    ∧ after (hostOps6 (F := F)) W (Proc.devRef .tc main_arg2) = W (Proc.devRef .tc main_arg2)
    ∧ after (hostOps6 (F := F)) W (Proc.devRef .tc main_v1) = W (Proc.devRef .tc main_v1)
    ∧ after (hostOps6 (F := F)) W (Proc.devRef .tc main_v2) = W (Proc.devRef .tc main_v2)
    ∧ after (hostOps6 (F := F)) W (Proc.devRef .tc main_v4) = W (Proc.devRef .tc main_v4)
    ∧ after (hostOps6 (F := F)) W (Proc.devRef .tc main_v5) = W (Proc.devRef .tc main_v5) := by
  refine ⟨?_, ?_, ?_, ?_, ?_, ?_⟩ <;> keeps_stretch [hostOps6]

end AnyValuation

variable (m : (ℓ : Loc nD τ sig) → Buf (Elt Ideal) ℓ) (ρ : Dev nD → PrngReg)

set_option maxHeartbeats 4000000 in
/-- Layer 6: what is carried along, and the layer's output. -/
theorem depth6 (c : Dev nD)
    (a1 : (⟨S200000x11, .f32⟩ : BufTy).Contents (Elt Ideal)) (a2 : (⟨S100000x6, .i32⟩ : BufTy).Contents (Elt Ideal))
    (wT : (⟨S267x256, .f32⟩ : BufTy).Contents (Elt Ideal)) (L0 : (⟨S100000x256, .f32⟩ : BufTy).Contents (Elt Ideal))
    (bt : (⟨S199999, .i32⟩ : BufTy).Contents (Elt Ideal)) (z : (⟨S1x256, .f32⟩ : BufTy).Contents (Elt Ideal))
    (Lp : (⟨S100000x256, .f32⟩ : BufTy).Contents (Elt Ideal))
    (h1 : W12 m ρ c (Proc.devRef .tc main_arg1) = a1) (h2 : W12 m ρ c (Proc.devRef .tc main_arg2) = a2)
    (hw : W12 m ρ c (Proc.devRef .tc main_v1) = wT) (h0 : W12 m ρ c (Proc.devRef .tc main_v2) = L0)
    (hb : W12 m ρ c (Proc.devRef .tc main_v4) = bt) (hz : W12 m ρ c (Proc.devRef .tc main_v5) = z)
    (hp : W12 m ρ c (Proc.devRef .tc main_v90) = Lp) :
    W14 m ρ c (Proc.devRef .tc main_arg1) = a1 ∧ W14 m ρ c (Proc.devRef .tc main_arg2) = a2
    ∧ W14 m ρ c (Proc.devRef .tc main_v1) = wT ∧ W14 m ρ c (Proc.devRef .tc main_v2) = L0
    ∧ W14 m ρ c (Proc.devRef .tc main_v4) = bt ∧ W14 m ρ c (Proc.devRef .tc main_v5) = z
    ∧ W14 m ρ c (Proc.devRef .tc main_v107) = updArr L0 (messages Lp bt z a1 a2) wT := by
  obtain ⟨k1, k2, kw, k0, kb, kz⟩ := host6_keeps (F := Ideal) (W12 m ρ c)
  have hg := host6_messages (F := Ideal) (W12 m ρ c)
  subst h1 h2 hw h0 hb hz hp
  refine ⟨?_, ?_, ?_, ?_, ?_, ?_, ?_⟩
  · exact (W14_of_ne m ρ c main_arg1 (by decide)).trans k1
  · exact (W14_of_ne m ρ c main_arg2 (by decide)).trans k2
  · exact ((W14_arr m ρ c 2).trans (((dat6 (V13 m ρ) c).arrAt_in 2 rfl _).trans (A_eq6 (V13 m ρ) c 2))).trans kw
  · exact ((W14_arr m ρ c 0).trans (((dat6 (V13 m ρ) c).arrAt_in 0 rfl _).trans (A_eq6 (V13 m ρ) c 0))).trans k0
  · exact (W14_of_ne m ρ c main_v4 (by decide)).trans kb
  · exact (W14_of_ne m ρ c main_v5 (by decide)).trans kz
  · refine (W14_arr m ρ c 3).trans ((Layer6.arr (V13 m ρ) c).trans ?_)
    show updArr (W13 m ρ c (Proc.devRef .tc main_v2)) (W13 m ρ c (Proc.devRef .tc main_v106)) (W13 m ρ c (Proc.devRef .tc main_v1)) = _
    rw [show W13 m ρ c (Proc.devRef .tc main_v2) = _ from k0, show W13 m ρ c (Proc.devRef .tc main_v1) = _ from kw,
      show W13 m ρ c (Proc.devRef .tc main_v106) = _ from hg]

end Cert.KernelIdeal.Whole

end
-- ==== Proof.KernelValue.lean ====
/-
  The idealized kernel's result as one function of its six argument arrays.

  The run is the embedding followed by six message-passing layers, each fed the messages gathered from the previous
  layer's output, and the last output transposed. Segment by segment the buffers the layers read are carried along
  unchanged, so the result buffer ends at the six layers iterated from the embedded atoms, transposed: `kernelVal` of
  the launch memory's arguments.
-/
import proofs.«105317_j8340826489581_1_alg».proof.Proof.KernelRun
import proofs.«105317_j8340826489581_1_alg».proof.Proof.Depth0
import proofs.«105317_j8340826489581_1_alg».proof.Proof.Depth1
import proofs.«105317_j8340826489581_1_alg».proof.Proof.Depth2
import proofs.«105317_j8340826489581_1_alg».proof.Proof.Depth3
import proofs.«105317_j8340826489581_1_alg».proof.Proof.Depth4
import proofs.«105317_j8340826489581_1_alg».proof.Proof.Depth5
import proofs.«105317_j8340826489581_1_alg».proof.Proof.Depth6

set_option maxRecDepth 16384

noncomputable section

namespace Cert.KernelIdeal.Whole

open Idealize.ShloMosaic Idealize.ShloMosaic.TcCoe Idealize.ShloMosaic.StableHlo Idealize.SL.Sem
open Cert.KernelIdeal Cert.KernelIdeal.Gen Cert.Layers Cert.LibStages

/-- The result as a function of the arguments: atom features, bond features, outgoing-bond indices, bond array,
    embedding weights, update weights. -/
def kernelVal (a0 : (⟨S100000x39, .f32⟩ : BufTy).Contents (Elt Ideal)) (a1 : (⟨S200000x11, .f32⟩ : BufTy).Contents (Elt Ideal)) (a2 : (⟨S100000x6, .i32⟩ : BufTy).Contents (Elt Ideal))
    (a3 : (⟨S200000x2, .i32⟩ : BufTy).Contents (Elt Ideal)) (a4 : (⟨S256x39, .f32⟩ : BufTy).Contents (Elt Ideal)) (a5 : (⟨S256x267, .f32⟩ : BufTy).Contents (Elt Ideal)) : (⟨S256x100000, .f32⟩ : BufTy).Contents (Elt Ideal) :=
  let wT := transpose S267x256 [1, 0] a5 transposes_S256x267_S267x256_1_0
  let L0 := embArr a0 (transpose S39x256 [1, 0] a4 transposes_S256x39_S39x256_1_0)
  let step := fun H => updArr L0 (messages H (bondTargets a3) zeroRow a1 a2) wT
  transpose S256x100000 [1, 0] (step (step (step (step (step (step L0)))))) transposes_S100000x256_S256x100000_1_0

/-- The last stretch transposes the last layer's output into the result buffer. -/
theorem host7_result {F : FTy → Type} [FloatOps F] (W : Valuation τ sig (Elt F)) :
    after (hostOps7 (F := F)) W (Proc.devRef .tc main_v108)
      = transpose S256x100000 [1, 0] (W (Proc.devRef .tc main_v107)) transposes_S100000x256_S256x100000_1_0 := by
  simp only [hostOps7]
  after_results_simp

variable (m : (ℓ : Loc nD τ sig) → Buf (Elt Ideal) ℓ) (ρ : Dev nD → PrngReg)

set_option maxHeartbeats 4000000 in
/-- The result buffer at the end of the fold. -/
theorem result_eq (c : Dev nD) :
    W15 m ρ c (Proc.devRef .tc main_v108) = kernelVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  obtain ⟨h1, h2, h3, hw, h0⟩ := depth0 m ρ c
  obtain ⟨h1, h2, hw, h0, hb, hz, hp⟩ := depth1 m ρ c _ _ _ _ _ h1 h2 hw h0 h3
  obtain ⟨h1, h2, hw, h0, hb, hz, hp⟩ := depth2 m ρ c _ _ _ _ _ _ _ h1 h2 hw h0 hb hz hp
  obtain ⟨h1, h2, hw, h0, hb, hz, hp⟩ := depth3 m ρ c _ _ _ _ _ _ _ h1 h2 hw h0 hb hz hp
  obtain ⟨h1, h2, hw, h0, hb, hz, hp⟩ := depth4 m ρ c _ _ _ _ _ _ _ h1 h2 hw h0 hb hz hp
  obtain ⟨h1, h2, hw, h0, hb, hz, hp⟩ := depth5 m ρ c _ _ _ _ _ _ _ h1 h2 hw h0 hb hz hp
  obtain ⟨-, -, -, -, -, -, hp⟩ := depth6 m ρ c _ _ _ _ _ _ _ h1 h2 hw h0 hb hz hp
  refine (host7_result (F := Ideal) (W14 m ρ c)).trans ?_
  rw [hp]
  rfl

/-- Every weakly fair execution terminates, nothing faulting, with the result at `kernelVal` of the arguments and the
    arguments as launched. -/
theorem value_run : θ_run defs (onTc (τ := τ) (main (F := Ideal))) ⟨m, fun _ => 0, ρ⟩ (fun r => ∀ c : Dev nD,
      r.2.mem ((c.tc : Thread nD τ).loc main_v108) = kernelVal (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run (F := Ideal) m ρ)

end Cert.KernelIdeal.Whole

end
-- ==== Proof.RefProgram.lean ====
/-
  The reference program as a line of host operations, and its run.

  The reference is straight-line: 178 host operations, each writing one buffer from buffers written before it.
  Every weakly fair execution terminates without a fault, and every buffer ends at the fold of the operations'
  results over the launch memory. The fold is read stretch by stretch in the modules that follow.
-/
import proofs.«105317_j8340826489581_1_alg».proof.Proof.Gen.ReferenceIdeal
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- @main's 178 operations, in order (a called function's operations stand in its call's place, spelt `TRef.…`). -/
abbrev ops : List (HloOp τ sig (Elt F)) :=
  [ unary main_arg4 main_v0 ((transpose S39x256 [1, 0] · transposes_S256x39_S39x256_1_0) : (⟨S256x39, .f32⟩ : BufTy).Contents (Elt F) → (⟨S39x256, .f32⟩ : BufTy).Contents (Elt F)),
    binary main_arg0 main_v0 main_v1 ((fun l r => Host.dotGeneral dot_S100000x39_S39x256_S100000x256_1_0_0_1_n_n none l r) : (⟨S100000x39, .f32⟩ : BufTy).Contents (Elt F) → (⟨S39x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v1) (TRef.of (T := ⟨S100000x256, .f32⟩) main_call0_v0) (TRef.of (T := ⟨S100000x256, .f32⟩) main_v2) maximumf,
    unary main_arg3 main_v3 ((extractStridedSlice S199999x1 ![1, 1] · slices_S200000x2_S199999x1_1_1) : (⟨S200000x2, .i32⟩ : BufTy).Contents (Elt F) → (⟨S199999x1, .i32⟩ : BufTy).Contents (Elt F)),
    reshape main_v3 main_v4 rfl shapeCasts_S199999x1_S199999,
    nullary main_cst (constant S_ .f32 0x00000000#32),
    unary main_cst main_v5 (broadcastInDim S1x256 ![] bcast_S_S1x256 : (⟨S_, .f32⟩ : BufTy).Contents (Elt F) → (⟨S1x256, .f32⟩ : BufTy).Contents (Elt F)),
    nullary main_c (constantI S_ 32 0#32),
    unary main_c main_v6 (broadcastInDim S199999 ![] bcast_S_S199999 : (⟨S_, .i32⟩ : BufTy).Contents (Elt F) → (⟨S199999, .i32⟩ : BufTy).Contents (Elt F)),
    binary main_v4 main_v6 main_v7 (cmpi .slt : (⟨S199999, .i32⟩ : BufTy).Contents (Elt F) → (⟨S199999, .i32⟩ : BufTy).Contents (Elt F) → (⟨S199999, .i1⟩ : BufTy).Contents (Elt F)),
    nullary main_c_0 (constantI S_ 32 100000#32),
    unary main_c_0 main_v8 (broadcastInDim S199999 ![] bcast_S_S199999 : (⟨S_, .i32⟩ : BufTy).Contents (Elt F) → (⟨S199999, .i32⟩ : BufTy).Contents (Elt F)),
    binary main_v4 main_v8 main_v9 (addi : (⟨S199999, .i32⟩ : BufTy).Contents (Elt F) → (⟨S199999, .i32⟩ : BufTy).Contents (Elt F) → (⟨S199999, .i32⟩ : BufTy).Contents (Elt F)),
    ternary main_v7 main_v9 main_v4 main_v10 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v10 main_v11 (broadcastInDim S199999x1 ![0] bcast_S199999_S199999x1_0 : (⟨S199999, .i32⟩ : BufTy).Contents (Elt F) → (⟨S199999x1, .i32⟩ : BufTy).Contents (Elt F)),
    binary main_v2 main_v11 main_v12 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v12 main_v13 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v13 main_arg1 main_v14 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_1 (constantI S_ 32 0#32),
    unary main_c_1 main_v15 (broadcastInDim S100000x6 ![] bcast_S_S100000x6 : (⟨S_, .i32⟩ : BufTy).Contents (Elt F) → (⟨S100000x6, .i32⟩ : BufTy).Contents (Elt F)),
    binary main_arg2 main_v15 main_v16 (cmpi .slt : (⟨S100000x6, .i32⟩ : BufTy).Contents (Elt F) → (⟨S100000x6, .i32⟩ : BufTy).Contents (Elt F) → (⟨S100000x6, .i1⟩ : BufTy).Contents (Elt F)),
    nullary main_c_2 (constantI S_ 32 200000#32),
    unary main_c_2 main_v17 (broadcastInDim S100000x6 ![] bcast_S_S100000x6 : (⟨S_, .i32⟩ : BufTy).Contents (Elt F) → (⟨S100000x6, .i32⟩ : BufTy).Contents (Elt F)),
    binary main_arg2 main_v17 main_v18 (addi : (⟨S100000x6, .i32⟩ : BufTy).Contents (Elt F) → (⟨S100000x6, .i32⟩ : BufTy).Contents (Elt F) → (⟨S100000x6, .i32⟩ : BufTy).Contents (Elt F)),
    ternary main_v16 main_v18 main_arg2 main_v19 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v19 main_v20 (broadcastInDim S100000x6x1 ![0, 1] bcast_S100000x6_S100000x6x1_0_1 : (⟨S100000x6, .i32⟩ : BufTy).Contents (Elt F) → (⟨S100000x6x1, .i32⟩ : BufTy).Contents (Elt F)),
    binary main_v14 main_v20 main_v21 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_3 (constant S_ .f32 0x00000000#32),
    binary main_v21 main_cst_3 main_v22 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v23 ((transpose S267x256 [1, 0] · transposes_S256x267_S267x256_1_0) : (⟨S256x267, .f32⟩ : BufTy).Contents (Elt F) → (⟨S267x256, .f32⟩ : BufTy).Contents (Elt F)),
    binary main_v22 main_v23 main_v24 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v24 main_v25 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v25) (TRef.of (T := ⟨S100000x256, .f32⟩) main_call1_v0) (TRef.of (T := ⟨S100000x256, .f32⟩) main_v26) maximumf,
    nullary main_c_4 (constantI S_ 32 0#32),
    unary main_c_4 main_v27 (broadcastInDim S199999 ![] bcast_S_S199999 : (⟨S_, .i32⟩ : BufTy).Contents (Elt F) → (⟨S199999, .i32⟩ : BufTy).Contents (Elt F)),
    binary main_v4 main_v27 main_v28 (cmpi .slt : (⟨S199999, .i32⟩ : BufTy).Contents (Elt F) → (⟨S199999, .i32⟩ : BufTy).Contents (Elt F) → (⟨S199999, .i1⟩ : BufTy).Contents (Elt F)),
    nullary main_c_5 (constantI S_ 32 100000#32),
    unary main_c_5 main_v29 (broadcastInDim S199999 ![] bcast_S_S199999 : (⟨S_, .i32⟩ : BufTy).Contents (Elt F) → (⟨S199999, .i32⟩ : BufTy).Contents (Elt F)),
    binary main_v4 main_v29 main_v30 (addi : (⟨S199999, .i32⟩ : BufTy).Contents (Elt F) → (⟨S199999, .i32⟩ : BufTy).Contents (Elt F) → (⟨S199999, .i32⟩ : BufTy).Contents (Elt F)),
    ternary main_v28 main_v30 main_v4 main_v31 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v31 main_v32 (broadcastInDim S199999x1 ![0] bcast_S199999_S199999x1_0 : (⟨S199999, .i32⟩ : BufTy).Contents (Elt F) → (⟨S199999x1, .i32⟩ : BufTy).Contents (Elt F)),
    binary main_v26 main_v32 main_v33 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v33 main_v34 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v34 main_arg1 main_v35 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_6 (constantI S_ 32 0#32),
    unary main_c_6 main_v36 (broadcastInDim S100000x6 ![] bcast_S_S100000x6 : (⟨S_, .i32⟩ : BufTy).Contents (Elt F) → (⟨S100000x6, .i32⟩ : BufTy).Contents (Elt F)),
    binary main_arg2 main_v36 main_v37 (cmpi .slt : (⟨S100000x6, .i32⟩ : BufTy).Contents (Elt F) → (⟨S100000x6, .i32⟩ : BufTy).Contents (Elt F) → (⟨S100000x6, .i1⟩ : BufTy).Contents (Elt F)),
    nullary main_c_7 (constantI S_ 32 200000#32),
    unary main_c_7 main_v38 (broadcastInDim S100000x6 ![] bcast_S_S100000x6 : (⟨S_, .i32⟩ : BufTy).Contents (Elt F) → (⟨S100000x6, .i32⟩ : BufTy).Contents (Elt F)),
    binary main_arg2 main_v38 main_v39 (addi : (⟨S100000x6, .i32⟩ : BufTy).Contents (Elt F) → (⟨S100000x6, .i32⟩ : BufTy).Contents (Elt F) → (⟨S100000x6, .i32⟩ : BufTy).Contents (Elt F)),
    ternary main_v37 main_v39 main_arg2 main_v40 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v40 main_v41 (broadcastInDim S100000x6x1 ![0, 1] bcast_S100000x6_S100000x6x1_0_1 : (⟨S100000x6, .i32⟩ : BufTy).Contents (Elt F) → (⟨S100000x6x1, .i32⟩ : BufTy).Contents (Elt F)),
    binary main_v35 main_v41 main_v42 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_8 (constant S_ .f32 0x00000000#32),
    binary main_v42 main_cst_8 main_v43 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v44 ((transpose S267x256 [1, 0] · transposes_S256x267_S267x256_1_0) : (⟨S256x267, .f32⟩ : BufTy).Contents (Elt F) → (⟨S267x256, .f32⟩ : BufTy).Contents (Elt F)),
    binary main_v43 main_v44 main_v45 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v45 main_v46 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v46) (TRef.of (T := ⟨S100000x256, .f32⟩) main_call2_v0) (TRef.of (T := ⟨S100000x256, .f32⟩) main_v47) maximumf,
    nullary main_c_9 (constantI S_ 32 0#32),
    unary main_c_9 main_v48 (broadcastInDim S199999 ![] bcast_S_S199999 : (⟨S_, .i32⟩ : BufTy).Contents (Elt F) → (⟨S199999, .i32⟩ : BufTy).Contents (Elt F)),
    binary main_v4 main_v48 main_v49 (cmpi .slt : (⟨S199999, .i32⟩ : BufTy).Contents (Elt F) → (⟨S199999, .i32⟩ : BufTy).Contents (Elt F) → (⟨S199999, .i1⟩ : BufTy).Contents (Elt F)),
    nullary main_c_10 (constantI S_ 32 100000#32),
    unary main_c_10 main_v50 (broadcastInDim S199999 ![] bcast_S_S199999 : (⟨S_, .i32⟩ : BufTy).Contents (Elt F) → (⟨S199999, .i32⟩ : BufTy).Contents (Elt F)),
    binary main_v4 main_v50 main_v51 (addi : (⟨S199999, .i32⟩ : BufTy).Contents (Elt F) → (⟨S199999, .i32⟩ : BufTy).Contents (Elt F) → (⟨S199999, .i32⟩ : BufTy).Contents (Elt F)),
    ternary main_v49 main_v51 main_v4 main_v52 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v52 main_v53 (broadcastInDim S199999x1 ![0] bcast_S199999_S199999x1_0 : (⟨S199999, .i32⟩ : BufTy).Contents (Elt F) → (⟨S199999x1, .i32⟩ : BufTy).Contents (Elt F)),
    binary main_v47 main_v53 main_v54 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v54 main_v55 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v55 main_arg1 main_v56 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_11 (constantI S_ 32 0#32),
    unary main_c_11 main_v57 (broadcastInDim S100000x6 ![] bcast_S_S100000x6 : (⟨S_, .i32⟩ : BufTy).Contents (Elt F) → (⟨S100000x6, .i32⟩ : BufTy).Contents (Elt F)),
    binary main_arg2 main_v57 main_v58 (cmpi .slt : (⟨S100000x6, .i32⟩ : BufTy).Contents (Elt F) → (⟨S100000x6, .i32⟩ : BufTy).Contents (Elt F) → (⟨S100000x6, .i1⟩ : BufTy).Contents (Elt F)),
    nullary main_c_12 (constantI S_ 32 200000#32),
    unary main_c_12 main_v59 (broadcastInDim S100000x6 ![] bcast_S_S100000x6 : (⟨S_, .i32⟩ : BufTy).Contents (Elt F) → (⟨S100000x6, .i32⟩ : BufTy).Contents (Elt F)),
    binary main_arg2 main_v59 main_v60 (addi : (⟨S100000x6, .i32⟩ : BufTy).Contents (Elt F) → (⟨S100000x6, .i32⟩ : BufTy).Contents (Elt F) → (⟨S100000x6, .i32⟩ : BufTy).Contents (Elt F)),
    ternary main_v58 main_v60 main_arg2 main_v61 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v61 main_v62 (broadcastInDim S100000x6x1 ![0, 1] bcast_S100000x6_S100000x6x1_0_1 : (⟨S100000x6, .i32⟩ : BufTy).Contents (Elt F) → (⟨S100000x6x1, .i32⟩ : BufTy).Contents (Elt F)),
    binary main_v56 main_v62 main_v63 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_13 (constant S_ .f32 0x00000000#32),
    binary main_v63 main_cst_13 main_v64 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v65 ((transpose S267x256 [1, 0] · transposes_S256x267_S267x256_1_0) : (⟨S256x267, .f32⟩ : BufTy).Contents (Elt F) → (⟨S267x256, .f32⟩ : BufTy).Contents (Elt F)),
    binary main_v64 main_v65 main_v66 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v66 main_v67 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x256, .f32⟩) main_call3_v0) (broadcastInDim S100000x256 ![] bcast_S_S100000x256),
    TRef.binary (TRef.of (T := ⟨S100000x256, .f32⟩) main_v67) (TRef.of (T := ⟨S100000x256, .f32⟩) main_call3_v0) (TRef.of (T := ⟨S100000x256, .f32⟩) main_v68) maximumf,
    nullary main_c_14 (constantI S_ 32 0#32),
    unary main_c_14 main_v69 (broadcastInDim S199999 ![] bcast_S_S199999 : (⟨S_, .i32⟩ : BufTy).Contents (Elt F) → (⟨S199999, .i32⟩ : BufTy).Contents (Elt F)),
    binary main_v4 main_v69 main_v70 (cmpi .slt : (⟨S199999, .i32⟩ : BufTy).Contents (Elt F) → (⟨S199999, .i32⟩ : BufTy).Contents (Elt F) → (⟨S199999, .i1⟩ : BufTy).Contents (Elt F)),
    nullary main_c_15 (constantI S_ 32 100000#32),
    unary main_c_15 main_v71 (broadcastInDim S199999 ![] bcast_S_S199999 : (⟨S_, .i32⟩ : BufTy).Contents (Elt F) → (⟨S199999, .i32⟩ : BufTy).Contents (Elt F)),
    binary main_v4 main_v71 main_v72 (addi : (⟨S199999, .i32⟩ : BufTy).Contents (Elt F) → (⟨S199999, .i32⟩ : BufTy).Contents (Elt F) → (⟨S199999, .i32⟩ : BufTy).Contents (Elt F)),
    ternary main_v70 main_v72 main_v4 main_v73 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v73 main_v74 (broadcastInDim S199999x1 ![0] bcast_S199999_S199999x1_0 : (⟨S199999, .i32⟩ : BufTy).Contents (Elt F) → (⟨S199999x1, .i32⟩ : BufTy).Contents (Elt F)),
    binary main_v68 main_v74 main_v75 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v75 main_v76 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v76 main_arg1 main_v77 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_16 (constantI S_ 32 0#32),
    unary main_c_16 main_v78 (broadcastInDim S100000x6 ![] bcast_S_S100000x6 : (⟨S_, .i32⟩ : BufTy).Contents (Elt F) → (⟨S100000x6, .i32⟩ : BufTy).Contents (Elt F)),
    binary main_arg2 main_v78 main_v79 (cmpi .slt : (⟨S100000x6, .i32⟩ : BufTy).Contents (Elt F) → (⟨S100000x6, .i32⟩ : BufTy).Contents (Elt F) → (⟨S100000x6, .i1⟩ : BufTy).Contents (Elt F)),
    nullary main_c_17 (constantI S_ 32 200000#32),
    unary main_c_17 main_v80 (broadcastInDim S100000x6 ![] bcast_S_S100000x6 : (⟨S_, .i32⟩ : BufTy).Contents (Elt F) → (⟨S100000x6, .i32⟩ : BufTy).Contents (Elt F)),
    binary main_arg2 main_v80 main_v81 (addi : (⟨S100000x6, .i32⟩ : BufTy).Contents (Elt F) → (⟨S100000x6, .i32⟩ : BufTy).Contents (Elt F) → (⟨S100000x6, .i32⟩ : BufTy).Contents (Elt F)),
    ternary main_v79 main_v81 main_arg2 main_v82 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v82 main_v83 (broadcastInDim S100000x6x1 ![0, 1] bcast_S100000x6_S100000x6x1_0_1 : (⟨S100000x6, .i32⟩ : BufTy).Contents (Elt F) → (⟨S100000x6x1, .i32⟩ : BufTy).Contents (Elt F)),
    binary main_v77 main_v83 main_v84 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_18 (constant S_ .f32 0x00000000#32),
    binary main_v84 main_cst_18 main_v85 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v86 ((transpose S267x256 [1, 0] · transposes_S256x267_S267x256_1_0) : (⟨S256x267, .f32⟩ : BufTy).Contents (Elt F) → (⟨S267x256, .f32⟩ : BufTy).Contents (Elt F)),
    binary main_v85 main_v86 main_v87 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v87 main_v88 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v88) (TRef.of (T := ⟨S100000x256, .f32⟩) main_call4_v0) (TRef.of (T := ⟨S100000x256, .f32⟩) main_v89) maximumf,
    nullary main_c_19 (constantI S_ 32 0#32),
    unary main_c_19 main_v90 (broadcastInDim S199999 ![] bcast_S_S199999 : (⟨S_, .i32⟩ : BufTy).Contents (Elt F) → (⟨S199999, .i32⟩ : BufTy).Contents (Elt F)),
    binary main_v4 main_v90 main_v91 (cmpi .slt : (⟨S199999, .i32⟩ : BufTy).Contents (Elt F) → (⟨S199999, .i32⟩ : BufTy).Contents (Elt F) → (⟨S199999, .i1⟩ : BufTy).Contents (Elt F)),
    nullary main_c_20 (constantI S_ 32 100000#32),
    unary main_c_20 main_v92 (broadcastInDim S199999 ![] bcast_S_S199999 : (⟨S_, .i32⟩ : BufTy).Contents (Elt F) → (⟨S199999, .i32⟩ : BufTy).Contents (Elt F)),
    binary main_v4 main_v92 main_v93 (addi : (⟨S199999, .i32⟩ : BufTy).Contents (Elt F) → (⟨S199999, .i32⟩ : BufTy).Contents (Elt F) → (⟨S199999, .i32⟩ : BufTy).Contents (Elt F)),
    ternary main_v91 main_v93 main_v4 main_v94 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v94 main_v95 (broadcastInDim S199999x1 ![0] bcast_S199999_S199999x1_0 : (⟨S199999, .i32⟩ : BufTy).Contents (Elt F) → (⟨S199999x1, .i32⟩ : BufTy).Contents (Elt F)),
    binary main_v89 main_v95 main_v96 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v96 main_v97 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v97 main_arg1 main_v98 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_21 (constantI S_ 32 0#32),
    unary main_c_21 main_v99 (broadcastInDim S100000x6 ![] bcast_S_S100000x6 : (⟨S_, .i32⟩ : BufTy).Contents (Elt F) → (⟨S100000x6, .i32⟩ : BufTy).Contents (Elt F)),
    binary main_arg2 main_v99 main_v100 (cmpi .slt : (⟨S100000x6, .i32⟩ : BufTy).Contents (Elt F) → (⟨S100000x6, .i32⟩ : BufTy).Contents (Elt F) → (⟨S100000x6, .i1⟩ : BufTy).Contents (Elt F)),
    nullary main_c_22 (constantI S_ 32 200000#32),
    unary main_c_22 main_v101 (broadcastInDim S100000x6 ![] bcast_S_S100000x6 : (⟨S_, .i32⟩ : BufTy).Contents (Elt F) → (⟨S100000x6, .i32⟩ : BufTy).Contents (Elt F)),
    binary main_arg2 main_v101 main_v102 (addi : (⟨S100000x6, .i32⟩ : BufTy).Contents (Elt F) → (⟨S100000x6, .i32⟩ : BufTy).Contents (Elt F) → (⟨S100000x6, .i32⟩ : BufTy).Contents (Elt F)),
    ternary main_v100 main_v102 main_arg2 main_v103 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v103 main_v104 (broadcastInDim S100000x6x1 ![0, 1] bcast_S100000x6_S100000x6x1_0_1 : (⟨S100000x6, .i32⟩ : BufTy).Contents (Elt F) → (⟨S100000x6x1, .i32⟩ : BufTy).Contents (Elt F)),
    binary main_v98 main_v104 main_v105 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_23 (constant S_ .f32 0x00000000#32),
    binary main_v105 main_cst_23 main_v106 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v107 ((transpose S267x256 [1, 0] · transposes_S256x267_S267x256_1_0) : (⟨S256x267, .f32⟩ : BufTy).Contents (Elt F) → (⟨S267x256, .f32⟩ : BufTy).Contents (Elt F)),
    binary main_v106 main_v107 main_v108 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v108 main_v109 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v109) (TRef.of (T := ⟨S100000x256, .f32⟩) main_call5_v0) (TRef.of (T := ⟨S100000x256, .f32⟩) main_v110) maximumf,
    nullary main_c_24 (constantI S_ 32 0#32),
    unary main_c_24 main_v111 (broadcastInDim S199999 ![] bcast_S_S199999 : (⟨S_, .i32⟩ : BufTy).Contents (Elt F) → (⟨S199999, .i32⟩ : BufTy).Contents (Elt F)),
    binary main_v4 main_v111 main_v112 (cmpi .slt : (⟨S199999, .i32⟩ : BufTy).Contents (Elt F) → (⟨S199999, .i32⟩ : BufTy).Contents (Elt F) → (⟨S199999, .i1⟩ : BufTy).Contents (Elt F)),
    nullary main_c_25 (constantI S_ 32 100000#32),
    unary main_c_25 main_v113 (broadcastInDim S199999 ![] bcast_S_S199999 : (⟨S_, .i32⟩ : BufTy).Contents (Elt F) → (⟨S199999, .i32⟩ : BufTy).Contents (Elt F)),
    binary main_v4 main_v113 main_v114 (addi : (⟨S199999, .i32⟩ : BufTy).Contents (Elt F) → (⟨S199999, .i32⟩ : BufTy).Contents (Elt F) → (⟨S199999, .i32⟩ : BufTy).Contents (Elt F)),
    ternary main_v112 main_v114 main_v4 main_v115 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v115 main_v116 (broadcastInDim S199999x1 ![0] bcast_S199999_S199999x1_0 : (⟨S199999, .i32⟩ : BufTy).Contents (Elt F) → (⟨S199999x1, .i32⟩ : BufTy).Contents (Elt F)),
    binary main_v110 main_v116 main_v117 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v117 main_v118 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v118 main_arg1 main_v119 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_26 (constantI S_ 32 0#32),
    unary main_c_26 main_v120 (broadcastInDim S100000x6 ![] bcast_S_S100000x6 : (⟨S_, .i32⟩ : BufTy).Contents (Elt F) → (⟨S100000x6, .i32⟩ : BufTy).Contents (Elt F)),
    binary main_arg2 main_v120 main_v121 (cmpi .slt : (⟨S100000x6, .i32⟩ : BufTy).Contents (Elt F) → (⟨S100000x6, .i32⟩ : BufTy).Contents (Elt F) → (⟨S100000x6, .i1⟩ : BufTy).Contents (Elt F)),
    nullary main_c_27 (constantI S_ 32 200000#32),
    unary main_c_27 main_v122 (broadcastInDim S100000x6 ![] bcast_S_S100000x6 : (⟨S_, .i32⟩ : BufTy).Contents (Elt F) → (⟨S100000x6, .i32⟩ : BufTy).Contents (Elt F)),
    binary main_arg2 main_v122 main_v123 (addi : (⟨S100000x6, .i32⟩ : BufTy).Contents (Elt F) → (⟨S100000x6, .i32⟩ : BufTy).Contents (Elt F) → (⟨S100000x6, .i32⟩ : BufTy).Contents (Elt F)),
    ternary main_v121 main_v123 main_arg2 main_v124 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v124 main_v125 (broadcastInDim S100000x6x1 ![0, 1] bcast_S100000x6_S100000x6x1_0_1 : (⟨S100000x6, .i32⟩ : BufTy).Contents (Elt F) → (⟨S100000x6x1, .i32⟩ : BufTy).Contents (Elt F)),
    binary main_v119 main_v125 main_v126 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_28 (constant S_ .f32 0x00000000#32),
    binary main_v126 main_cst_28 main_v127 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v128 ((transpose S267x256 [1, 0] · transposes_S256x267_S267x256_1_0) : (⟨S256x267, .f32⟩ : BufTy).Contents (Elt F) → (⟨S267x256, .f32⟩ : BufTy).Contents (Elt F)),
    binary main_v127 main_v128 main_v129 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v129 main_v130 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x256, .f32⟩) main_call6_v0) (broadcastInDim S100000x256 ![] bcast_S_S100000x256),
    TRef.binary (TRef.of (T := ⟨S100000x256, .f32⟩) main_v130) (TRef.of (T := ⟨S100000x256, .f32⟩) main_call6_v0) (TRef.of (T := ⟨S100000x256, .f32⟩) main_v131) maximumf,
    unary main_v131 main_v132 ((transpose S256x100000 [1, 0] · transposes_S100000x256_S256x100000_1_0) : (⟨S100000x256, .f32⟩ : BufTy).Contents (Elt F) → (⟨S256x100000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub .., binary_bufs_sub .., nullary_bufs_sub .., unary_bufs_sub .., binary_bufs_sub .., unary_bufs_sub ..⟩

/-- The run: every buffer at the fold of the operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Whole

end
-- ==== Proof.RefStages.lean ====
/-
  The reference program cut into stretches, and the functions its stretches compute.

  The line of host operations is the embedding (5 operations), six message-passing layers (32 operations the first
  time, which also reads the bonds' target atoms off the bond array and writes the zero row, and 28 each time after)
  and the final transpose. `embedR` and `layerR` are the two dense layers as the reference spells them — a
  contraction with the transposed weights, for a layer after the messages are summed over the six neighbours and added
  to the embedded atoms, then the positive part —; `bondTargets`, `zeroRow` and `messages` are the host computation
  between two layers. The fold over the whole line is the stretches' folds composed.
-/
import proofs.«105317_j8340826489581_1_alg».proof.Proof.RefProgram
import proofs.«105317_j8340826489581_1_alg».proof.Proof.LibStages

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The target atom of bonds 1, 2, …: column 1 of the bond array from row 1 on. -/
def bondTargets (ab : (⟨S200000x2, .i32⟩ : BufTy).Contents (Elt F)) : (⟨S199999, .i32⟩ : BufTy).Contents (Elt F) :=
  shapeCast S199999 (extractStridedSlice S199999x1 ![1, 1] ab slices_S200000x2_S199999x1_1_1) shapeCasts_S199999x1_S199999

/-- A row of zeros: the message of the padding bond. -/
def zeroRow : (⟨S1x256, .f32⟩ : BufTy).Contents (Elt F) :=
  broadcastInDim S1x256 ![] bcast_S_S1x256 (constant (F := F) S_ .f32 0x00000000#32)

/-- The six neighbour messages of every atom. -/
def messages (H : (⟨S100000x256, .f32⟩ : BufTy).Contents (Elt F)) (bt : (⟨S199999, .i32⟩ : BufTy).Contents (Elt F))
    (z : (⟨S1x256, .f32⟩ : BufTy).Contents (Elt F)) (fb : (⟨S200000x11, .f32⟩ : BufTy).Contents (Elt F))
    (ag : (⟨S100000x6, .i32⟩ : BufTy).Contents (Elt F)) : (⟨S100000x6x267, .f32⟩ : BufTy).Contents (Elt F) :=
  Host.gather gather_S200000x267_S100000x6x1_S100000x6x267_2_0_n_n_0_2_1267
    (concatenate S200000x267 1
      [⟨S200000x256, concatenate S200000x256 0
          [⟨S1x256, z⟩,
           ⟨S199999x256, Host.gather gather_S100000x256_S199999x1_S199999x256_1_0_n_n_0_1_1256 H
              (broadcastInDim S199999x1 ![0] bcast_S199999_S199999x1_0
                (select (cmpi .slt bt (broadcastInDim S199999 ![] bcast_S_S199999 (constantI S_ 32 0#32)))
                  (addi bt (broadcastInDim S199999 ![] bcast_S_S199999 (constantI S_ 32 100000#32))) bt))⟩]
          concatenates_S1x256_S199999x256_S200000x256_d0⟩,
       ⟨S200000x11, fb⟩]
      concatenates_S200000x256_S200000x11_S200000x267_d1)
    (broadcastInDim S100000x6x1 ![0, 1] bcast_S100000x6_S100000x6x1_0_1
      (select (cmpi .slt ag (broadcastInDim S100000x6 ![] bcast_S_S100000x6 (constantI S_ 32 0#32)))
        (addi ag (broadcastInDim S100000x6 ![] bcast_S_S100000x6 (constantI S_ 32 200000#32))) ag))

/-- The embedding layer as the reference computes it. -/
def embedR (a : (⟨S100000x39, .f32⟩ : BufTy).Contents (Elt F)) (w : (⟨S256x39, .f32⟩ : BufTy).Contents (Elt F)) : (⟨S100000x256, .f32⟩ : BufTy).Contents (Elt F) :=
  maximumf (Host.dotGeneral dot_S100000x39_S39x256_S100000x256_1_0_0_1_n_n none a
      (transpose S39x256 [1, 0] w transposes_S256x39_S39x256_1_0))
    (broadcastInDim S100000x256 ![] bcast_S_S100000x256 (constant (F := F) S_ .f32 0x00000000#32))

/-- A message-passing layer as the reference computes it. -/
def layerR (h : (⟨S100000x256, .f32⟩ : BufTy).Contents (Elt F)) (g : (⟨S100000x6x267, .f32⟩ : BufTy).Contents (Elt F)) (w : (⟨S256x267, .f32⟩ : BufTy).Contents (Elt F)) :
    (⟨S100000x256, .f32⟩ : BufTy).Contents (Elt F) :=
  maximumf (addf h (Host.dotGeneral dot_S100000x267_S267x256_S100000x256_1_0_0_1_n_n none
      (Host.reduceAdd g (constant (F := F) S_ .f32 0x00000000#32) reducesTo_S100000x6x267_S100000x267_d1 h_S_)
      (transpose S267x256 [1, 0] w transposes_S256x267_S267x256_1_0)))
    (broadcastInDim S100000x256 ![] bcast_S_S100000x256 (constant (F := F) S_ .f32 0x00000000#32))

/-! ## The stretches -/

abbrev seg0 : List (HloOp τ sig (Elt F)) :=
  [ unary main_arg4 main_v0 ((transpose S39x256 [1, 0] · transposes_S256x39_S39x256_1_0) : (⟨S256x39, .f32⟩ : BufTy).Contents (Elt F) → (⟨S39x256, .f32⟩ : BufTy).Contents (Elt F)),
    binary main_arg0 main_v0 main_v1 ((fun l r => Host.dotGeneral dot_S100000x39_S39x256_S100000x256_1_0_0_1_n_n none l r) : (⟨S100000x39, .f32⟩ : BufTy).Contents (Elt F) → (⟨S39x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v1) (TRef.of (T := ⟨S100000x256, .f32⟩) main_call0_v0) (TRef.of (T := ⟨S100000x256, .f32⟩) main_v2) maximumf ]

abbrev seg1 : List (HloOp τ sig (Elt F)) :=
  [ unary main_arg3 main_v3 ((extractStridedSlice S199999x1 ![1, 1] · slices_S200000x2_S199999x1_1_1) : (⟨S200000x2, .i32⟩ : BufTy).Contents (Elt F) → (⟨S199999x1, .i32⟩ : BufTy).Contents (Elt F)),
    reshape main_v3 main_v4 rfl shapeCasts_S199999x1_S199999,
    nullary main_cst (constant S_ .f32 0x00000000#32),
    unary main_cst main_v5 (broadcastInDim S1x256 ![] bcast_S_S1x256 : (⟨S_, .f32⟩ : BufTy).Contents (Elt F) → (⟨S1x256, .f32⟩ : BufTy).Contents (Elt F)),
    nullary main_c (constantI S_ 32 0#32),
    unary main_c main_v6 (broadcastInDim S199999 ![] bcast_S_S199999 : (⟨S_, .i32⟩ : BufTy).Contents (Elt F) → (⟨S199999, .i32⟩ : BufTy).Contents (Elt F)),
    binary main_v4 main_v6 main_v7 (cmpi .slt : (⟨S199999, .i32⟩ : BufTy).Contents (Elt F) → (⟨S199999, .i32⟩ : BufTy).Contents (Elt F) → (⟨S199999, .i1⟩ : BufTy).Contents (Elt F)),
    nullary main_c_0 (constantI S_ 32 100000#32),
    unary main_c_0 main_v8 (broadcastInDim S199999 ![] bcast_S_S199999 : (⟨S_, .i32⟩ : BufTy).Contents (Elt F) → (⟨S199999, .i32⟩ : BufTy).Contents (Elt F)),
    binary main_v4 main_v8 main_v9 (addi : (⟨S199999, .i32⟩ : BufTy).Contents (Elt F) → (⟨S199999, .i32⟩ : BufTy).Contents (Elt F) → (⟨S199999, .i32⟩ : BufTy).Contents (Elt F)),
    ternary main_v7 main_v9 main_v4 main_v10 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v10 main_v11 (broadcastInDim S199999x1 ![0] bcast_S199999_S199999x1_0 : (⟨S199999, .i32⟩ : BufTy).Contents (Elt F) → (⟨S199999x1, .i32⟩ : BufTy).Contents (Elt F)),
    binary main_v2 main_v11 main_v12 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v12 main_v13 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v13 main_arg1 main_v14 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_1 (constantI S_ 32 0#32),
    unary main_c_1 main_v15 (broadcastInDim S100000x6 ![] bcast_S_S100000x6 : (⟨S_, .i32⟩ : BufTy).Contents (Elt F) → (⟨S100000x6, .i32⟩ : BufTy).Contents (Elt F)),
    binary main_arg2 main_v15 main_v16 (cmpi .slt : (⟨S100000x6, .i32⟩ : BufTy).Contents (Elt F) → (⟨S100000x6, .i32⟩ : BufTy).Contents (Elt F) → (⟨S100000x6, .i1⟩ : BufTy).Contents (Elt F)),
    nullary main_c_2 (constantI S_ 32 200000#32),
    unary main_c_2 main_v17 (broadcastInDim S100000x6 ![] bcast_S_S100000x6 : (⟨S_, .i32⟩ : BufTy).Contents (Elt F) → (⟨S100000x6, .i32⟩ : BufTy).Contents (Elt F)),
    binary main_arg2 main_v17 main_v18 (addi : (⟨S100000x6, .i32⟩ : BufTy).Contents (Elt F) → (⟨S100000x6, .i32⟩ : BufTy).Contents (Elt F) → (⟨S100000x6, .i32⟩ : BufTy).Contents (Elt F)),
    ternary main_v16 main_v18 main_arg2 main_v19 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v19 main_v20 (broadcastInDim S100000x6x1 ![0, 1] bcast_S100000x6_S100000x6x1_0_1 : (⟨S100000x6, .i32⟩ : BufTy).Contents (Elt F) → (⟨S100000x6x1, .i32⟩ : BufTy).Contents (Elt F)),
    binary main_v14 main_v20 main_v21 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_3 (constant S_ .f32 0x00000000#32),
    binary main_v21 main_cst_3 main_v22 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v23 ((transpose S267x256 [1, 0] · transposes_S256x267_S267x256_1_0) : (⟨S256x267, .f32⟩ : BufTy).Contents (Elt F) → (⟨S267x256, .f32⟩ : BufTy).Contents (Elt F)),
    binary main_v22 main_v23 main_v24 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v24 main_v25 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v25) (TRef.of (T := ⟨S100000x256, .f32⟩) main_call1_v0) (TRef.of (T := ⟨S100000x256, .f32⟩) main_v26) maximumf ]

abbrev seg2 : List (HloOp τ sig (Elt F)) :=
  [ nullary main_c_4 (constantI S_ 32 0#32),
    unary main_c_4 main_v27 (broadcastInDim S199999 ![] bcast_S_S199999 : (⟨S_, .i32⟩ : BufTy).Contents (Elt F) → (⟨S199999, .i32⟩ : BufTy).Contents (Elt F)),
    binary main_v4 main_v27 main_v28 (cmpi .slt : (⟨S199999, .i32⟩ : BufTy).Contents (Elt F) → (⟨S199999, .i32⟩ : BufTy).Contents (Elt F) → (⟨S199999, .i1⟩ : BufTy).Contents (Elt F)),
    nullary main_c_5 (constantI S_ 32 100000#32),
    unary main_c_5 main_v29 (broadcastInDim S199999 ![] bcast_S_S199999 : (⟨S_, .i32⟩ : BufTy).Contents (Elt F) → (⟨S199999, .i32⟩ : BufTy).Contents (Elt F)),
    binary main_v4 main_v29 main_v30 (addi : (⟨S199999, .i32⟩ : BufTy).Contents (Elt F) → (⟨S199999, .i32⟩ : BufTy).Contents (Elt F) → (⟨S199999, .i32⟩ : BufTy).Contents (Elt F)),
    ternary main_v28 main_v30 main_v4 main_v31 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v31 main_v32 (broadcastInDim S199999x1 ![0] bcast_S199999_S199999x1_0 : (⟨S199999, .i32⟩ : BufTy).Contents (Elt F) → (⟨S199999x1, .i32⟩ : BufTy).Contents (Elt F)),
    binary main_v26 main_v32 main_v33 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v33 main_v34 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v34 main_arg1 main_v35 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_6 (constantI S_ 32 0#32),
    unary main_c_6 main_v36 (broadcastInDim S100000x6 ![] bcast_S_S100000x6 : (⟨S_, .i32⟩ : BufTy).Contents (Elt F) → (⟨S100000x6, .i32⟩ : BufTy).Contents (Elt F)),
    binary main_arg2 main_v36 main_v37 (cmpi .slt : (⟨S100000x6, .i32⟩ : BufTy).Contents (Elt F) → (⟨S100000x6, .i32⟩ : BufTy).Contents (Elt F) → (⟨S100000x6, .i1⟩ : BufTy).Contents (Elt F)),
    nullary main_c_7 (constantI S_ 32 200000#32),
    unary main_c_7 main_v38 (broadcastInDim S100000x6 ![] bcast_S_S100000x6 : (⟨S_, .i32⟩ : BufTy).Contents (Elt F) → (⟨S100000x6, .i32⟩ : BufTy).Contents (Elt F)),
    binary main_arg2 main_v38 main_v39 (addi : (⟨S100000x6, .i32⟩ : BufTy).Contents (Elt F) → (⟨S100000x6, .i32⟩ : BufTy).Contents (Elt F) → (⟨S100000x6, .i32⟩ : BufTy).Contents (Elt F)),
    ternary main_v37 main_v39 main_arg2 main_v40 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v40 main_v41 (broadcastInDim S100000x6x1 ![0, 1] bcast_S100000x6_S100000x6x1_0_1 : (⟨S100000x6, .i32⟩ : BufTy).Contents (Elt F) → (⟨S100000x6x1, .i32⟩ : BufTy).Contents (Elt F)),
    binary main_v35 main_v41 main_v42 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_8 (constant S_ .f32 0x00000000#32),
    binary main_v42 main_cst_8 main_v43 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v44 ((transpose S267x256 [1, 0] · transposes_S256x267_S267x256_1_0) : (⟨S256x267, .f32⟩ : BufTy).Contents (Elt F) → (⟨S267x256, .f32⟩ : BufTy).Contents (Elt F)),
    binary main_v43 main_v44 main_v45 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v45 main_v46 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v46) (TRef.of (T := ⟨S100000x256, .f32⟩) main_call2_v0) (TRef.of (T := ⟨S100000x256, .f32⟩) main_v47) maximumf ]

abbrev seg3 : List (HloOp τ sig (Elt F)) :=
  [ nullary main_c_9 (constantI S_ 32 0#32),
    unary main_c_9 main_v48 (broadcastInDim S199999 ![] bcast_S_S199999 : (⟨S_, .i32⟩ : BufTy).Contents (Elt F) → (⟨S199999, .i32⟩ : BufTy).Contents (Elt F)),
    binary main_v4 main_v48 main_v49 (cmpi .slt : (⟨S199999, .i32⟩ : BufTy).Contents (Elt F) → (⟨S199999, .i32⟩ : BufTy).Contents (Elt F) → (⟨S199999, .i1⟩ : BufTy).Contents (Elt F)),
    nullary main_c_10 (constantI S_ 32 100000#32),
    unary main_c_10 main_v50 (broadcastInDim S199999 ![] bcast_S_S199999 : (⟨S_, .i32⟩ : BufTy).Contents (Elt F) → (⟨S199999, .i32⟩ : BufTy).Contents (Elt F)),
    binary main_v4 main_v50 main_v51 (addi : (⟨S199999, .i32⟩ : BufTy).Contents (Elt F) → (⟨S199999, .i32⟩ : BufTy).Contents (Elt F) → (⟨S199999, .i32⟩ : BufTy).Contents (Elt F)),
    ternary main_v49 main_v51 main_v4 main_v52 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v52 main_v53 (broadcastInDim S199999x1 ![0] bcast_S199999_S199999x1_0 : (⟨S199999, .i32⟩ : BufTy).Contents (Elt F) → (⟨S199999x1, .i32⟩ : BufTy).Contents (Elt F)),
    binary main_v47 main_v53 main_v54 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v54 main_v55 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v55 main_arg1 main_v56 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_11 (constantI S_ 32 0#32),
    unary main_c_11 main_v57 (broadcastInDim S100000x6 ![] bcast_S_S100000x6 : (⟨S_, .i32⟩ : BufTy).Contents (Elt F) → (⟨S100000x6, .i32⟩ : BufTy).Contents (Elt F)),
    binary main_arg2 main_v57 main_v58 (cmpi .slt : (⟨S100000x6, .i32⟩ : BufTy).Contents (Elt F) → (⟨S100000x6, .i32⟩ : BufTy).Contents (Elt F) → (⟨S100000x6, .i1⟩ : BufTy).Contents (Elt F)),
    nullary main_c_12 (constantI S_ 32 200000#32),
    unary main_c_12 main_v59 (broadcastInDim S100000x6 ![] bcast_S_S100000x6 : (⟨S_, .i32⟩ : BufTy).Contents (Elt F) → (⟨S100000x6, .i32⟩ : BufTy).Contents (Elt F)),
    binary main_arg2 main_v59 main_v60 (addi : (⟨S100000x6, .i32⟩ : BufTy).Contents (Elt F) → (⟨S100000x6, .i32⟩ : BufTy).Contents (Elt F) → (⟨S100000x6, .i32⟩ : BufTy).Contents (Elt F)),
    ternary main_v58 main_v60 main_arg2 main_v61 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v61 main_v62 (broadcastInDim S100000x6x1 ![0, 1] bcast_S100000x6_S100000x6x1_0_1 : (⟨S100000x6, .i32⟩ : BufTy).Contents (Elt F) → (⟨S100000x6x1, .i32⟩ : BufTy).Contents (Elt F)),
    binary main_v56 main_v62 main_v63 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_13 (constant S_ .f32 0x00000000#32),
    binary main_v63 main_cst_13 main_v64 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v65 ((transpose S267x256 [1, 0] · transposes_S256x267_S267x256_1_0) : (⟨S256x267, .f32⟩ : BufTy).Contents (Elt F) → (⟨S267x256, .f32⟩ : BufTy).Contents (Elt F)),
    binary main_v64 main_v65 main_v66 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v66 main_v67 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x256, .f32⟩) main_call3_v0) (broadcastInDim S100000x256 ![] bcast_S_S100000x256),
    TRef.binary (TRef.of (T := ⟨S100000x256, .f32⟩) main_v67) (TRef.of (T := ⟨S100000x256, .f32⟩) main_call3_v0) (TRef.of (T := ⟨S100000x256, .f32⟩) main_v68) maximumf ]

abbrev seg4 : List (HloOp τ sig (Elt F)) :=
  [ nullary main_c_14 (constantI S_ 32 0#32),
    unary main_c_14 main_v69 (broadcastInDim S199999 ![] bcast_S_S199999 : (⟨S_, .i32⟩ : BufTy).Contents (Elt F) → (⟨S199999, .i32⟩ : BufTy).Contents (Elt F)),
    binary main_v4 main_v69 main_v70 (cmpi .slt : (⟨S199999, .i32⟩ : BufTy).Contents (Elt F) → (⟨S199999, .i32⟩ : BufTy).Contents (Elt F) → (⟨S199999, .i1⟩ : BufTy).Contents (Elt F)),
    nullary main_c_15 (constantI S_ 32 100000#32),
    unary main_c_15 main_v71 (broadcastInDim S199999 ![] bcast_S_S199999 : (⟨S_, .i32⟩ : BufTy).Contents (Elt F) → (⟨S199999, .i32⟩ : BufTy).Contents (Elt F)),
    binary main_v4 main_v71 main_v72 (addi : (⟨S199999, .i32⟩ : BufTy).Contents (Elt F) → (⟨S199999, .i32⟩ : BufTy).Contents (Elt F) → (⟨S199999, .i32⟩ : BufTy).Contents (Elt F)),
    ternary main_v70 main_v72 main_v4 main_v73 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v73 main_v74 (broadcastInDim S199999x1 ![0] bcast_S199999_S199999x1_0 : (⟨S199999, .i32⟩ : BufTy).Contents (Elt F) → (⟨S199999x1, .i32⟩ : BufTy).Contents (Elt F)),
    binary main_v68 main_v74 main_v75 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v75 main_v76 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v76 main_arg1 main_v77 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_16 (constantI S_ 32 0#32),
    unary main_c_16 main_v78 (broadcastInDim S100000x6 ![] bcast_S_S100000x6 : (⟨S_, .i32⟩ : BufTy).Contents (Elt F) → (⟨S100000x6, .i32⟩ : BufTy).Contents (Elt F)),
    binary main_arg2 main_v78 main_v79 (cmpi .slt : (⟨S100000x6, .i32⟩ : BufTy).Contents (Elt F) → (⟨S100000x6, .i32⟩ : BufTy).Contents (Elt F) → (⟨S100000x6, .i1⟩ : BufTy).Contents (Elt F)),
    nullary main_c_17 (constantI S_ 32 200000#32),
    unary main_c_17 main_v80 (broadcastInDim S100000x6 ![] bcast_S_S100000x6 : (⟨S_, .i32⟩ : BufTy).Contents (Elt F) → (⟨S100000x6, .i32⟩ : BufTy).Contents (Elt F)),
    binary main_arg2 main_v80 main_v81 (addi : (⟨S100000x6, .i32⟩ : BufTy).Contents (Elt F) → (⟨S100000x6, .i32⟩ : BufTy).Contents (Elt F) → (⟨S100000x6, .i32⟩ : BufTy).Contents (Elt F)),
    ternary main_v79 main_v81 main_arg2 main_v82 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v82 main_v83 (broadcastInDim S100000x6x1 ![0, 1] bcast_S100000x6_S100000x6x1_0_1 : (⟨S100000x6, .i32⟩ : BufTy).Contents (Elt F) → (⟨S100000x6x1, .i32⟩ : BufTy).Contents (Elt F)),
    binary main_v77 main_v83 main_v84 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_18 (constant S_ .f32 0x00000000#32),
    binary main_v84 main_cst_18 main_v85 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v86 ((transpose S267x256 [1, 0] · transposes_S256x267_S267x256_1_0) : (⟨S256x267, .f32⟩ : BufTy).Contents (Elt F) → (⟨S267x256, .f32⟩ : BufTy).Contents (Elt F)),
    binary main_v85 main_v86 main_v87 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v87 main_v88 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v88) (TRef.of (T := ⟨S100000x256, .f32⟩) main_call4_v0) (TRef.of (T := ⟨S100000x256, .f32⟩) main_v89) maximumf ]

abbrev seg5 : List (HloOp τ sig (Elt F)) :=
  [ nullary main_c_19 (constantI S_ 32 0#32),
    unary main_c_19 main_v90 (broadcastInDim S199999 ![] bcast_S_S199999 : (⟨S_, .i32⟩ : BufTy).Contents (Elt F) → (⟨S199999, .i32⟩ : BufTy).Contents (Elt F)),
    binary main_v4 main_v90 main_v91 (cmpi .slt : (⟨S199999, .i32⟩ : BufTy).Contents (Elt F) → (⟨S199999, .i32⟩ : BufTy).Contents (Elt F) → (⟨S199999, .i1⟩ : BufTy).Contents (Elt F)),
    nullary main_c_20 (constantI S_ 32 100000#32),
    unary main_c_20 main_v92 (broadcastInDim S199999 ![] bcast_S_S199999 : (⟨S_, .i32⟩ : BufTy).Contents (Elt F) → (⟨S199999, .i32⟩ : BufTy).Contents (Elt F)),
    binary main_v4 main_v92 main_v93 (addi : (⟨S199999, .i32⟩ : BufTy).Contents (Elt F) → (⟨S199999, .i32⟩ : BufTy).Contents (Elt F) → (⟨S199999, .i32⟩ : BufTy).Contents (Elt F)),
    ternary main_v91 main_v93 main_v4 main_v94 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v94 main_v95 (broadcastInDim S199999x1 ![0] bcast_S199999_S199999x1_0 : (⟨S199999, .i32⟩ : BufTy).Contents (Elt F) → (⟨S199999x1, .i32⟩ : BufTy).Contents (Elt F)),
    binary main_v89 main_v95 main_v96 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v96 main_v97 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v97 main_arg1 main_v98 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_21 (constantI S_ 32 0#32),
    unary main_c_21 main_v99 (broadcastInDim S100000x6 ![] bcast_S_S100000x6 : (⟨S_, .i32⟩ : BufTy).Contents (Elt F) → (⟨S100000x6, .i32⟩ : BufTy).Contents (Elt F)),
    binary main_arg2 main_v99 main_v100 (cmpi .slt : (⟨S100000x6, .i32⟩ : BufTy).Contents (Elt F) → (⟨S100000x6, .i32⟩ : BufTy).Contents (Elt F) → (⟨S100000x6, .i1⟩ : BufTy).Contents (Elt F)),
    nullary main_c_22 (constantI S_ 32 200000#32),
    unary main_c_22 main_v101 (broadcastInDim S100000x6 ![] bcast_S_S100000x6 : (⟨S_, .i32⟩ : BufTy).Contents (Elt F) → (⟨S100000x6, .i32⟩ : BufTy).Contents (Elt F)),
    binary main_arg2 main_v101 main_v102 (addi : (⟨S100000x6, .i32⟩ : BufTy).Contents (Elt F) → (⟨S100000x6, .i32⟩ : BufTy).Contents (Elt F) → (⟨S100000x6, .i32⟩ : BufTy).Contents (Elt F)),
    ternary main_v100 main_v102 main_arg2 main_v103 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v103 main_v104 (broadcastInDim S100000x6x1 ![0, 1] bcast_S100000x6_S100000x6x1_0_1 : (⟨S100000x6, .i32⟩ : BufTy).Contents (Elt F) → (⟨S100000x6x1, .i32⟩ : BufTy).Contents (Elt F)),
    binary main_v98 main_v104 main_v105 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_23 (constant S_ .f32 0x00000000#32),
    binary main_v105 main_cst_23 main_v106 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v107 ((transpose S267x256 [1, 0] · transposes_S256x267_S267x256_1_0) : (⟨S256x267, .f32⟩ : BufTy).Contents (Elt F) → (⟨S267x256, .f32⟩ : BufTy).Contents (Elt F)),
    binary main_v106 main_v107 main_v108 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v108 main_v109 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v109) (TRef.of (T := ⟨S100000x256, .f32⟩) main_call5_v0) (TRef.of (T := ⟨S100000x256, .f32⟩) main_v110) maximumf ]

abbrev seg6 : List (HloOp τ sig (Elt F)) :=
  [ nullary main_c_24 (constantI S_ 32 0#32),
    unary main_c_24 main_v111 (broadcastInDim S199999 ![] bcast_S_S199999 : (⟨S_, .i32⟩ : BufTy).Contents (Elt F) → (⟨S199999, .i32⟩ : BufTy).Contents (Elt F)),
    binary main_v4 main_v111 main_v112 (cmpi .slt : (⟨S199999, .i32⟩ : BufTy).Contents (Elt F) → (⟨S199999, .i32⟩ : BufTy).Contents (Elt F) → (⟨S199999, .i1⟩ : BufTy).Contents (Elt F)),
    nullary main_c_25 (constantI S_ 32 100000#32),
    unary main_c_25 main_v113 (broadcastInDim S199999 ![] bcast_S_S199999 : (⟨S_, .i32⟩ : BufTy).Contents (Elt F) → (⟨S199999, .i32⟩ : BufTy).Contents (Elt F)),
    binary main_v4 main_v113 main_v114 (addi : (⟨S199999, .i32⟩ : BufTy).Contents (Elt F) → (⟨S199999, .i32⟩ : BufTy).Contents (Elt F) → (⟨S199999, .i32⟩ : BufTy).Contents (Elt F)),
    ternary main_v112 main_v114 main_v4 main_v115 (select : (⟨S199999, .i1⟩ : BufTy).Contents (Elt F) → (⟨S199999, .i32⟩ : BufTy).Contents (Elt F) → (⟨S199999, .i32⟩ : BufTy).Contents (Elt F) → (⟨S199999, .i32⟩ : BufTy).Contents (Elt F)),
    unary main_v115 main_v116 (broadcastInDim S199999x1 ![0] bcast_S199999_S199999x1_0 : (⟨S199999, .i32⟩ : BufTy).Contents (Elt F) → (⟨S199999x1, .i32⟩ : BufTy).Contents (Elt F)),
    binary main_v110 main_v116 main_v117 ((fun x i => Host.gather gather_S100000x256_S199999x1_S199999x256_1_0_n_n_0_1_1256 x i) : (⟨S100000x256, .f32⟩ : BufTy).Contents (Elt F) → (⟨S199999x1, .i32⟩ : BufTy).Contents (Elt F) → (⟨S199999x256, .f32⟩ : BufTy).Contents (Elt F)),
    binary main_v5 main_v117 main_v118 ((fun a b => concatenate S200000x256 0 [⟨S1x256, a⟩, ⟨S199999x256, b⟩] concatenates_S1x256_S199999x256_S200000x256_d0) : (⟨S1x256, .f32⟩ : BufTy).Contents (Elt F) → (⟨S199999x256, .f32⟩ : BufTy).Contents (Elt F) → (⟨S200000x256, .f32⟩ : BufTy).Contents (Elt F)),
    binary main_v118 main_arg1 main_v119 ((fun a b => concatenate S200000x267 1 [⟨S200000x256, a⟩, ⟨S200000x11, b⟩] concatenates_S200000x256_S200000x11_S200000x267_d1) : (⟨S200000x256, .f32⟩ : BufTy).Contents (Elt F) → (⟨S200000x11, .f32⟩ : BufTy).Contents (Elt F) → (⟨S200000x267, .f32⟩ : BufTy).Contents (Elt F)),
    nullary main_c_26 (constantI S_ 32 0#32),
    unary main_c_26 main_v120 (broadcastInDim S100000x6 ![] bcast_S_S100000x6 : (⟨S_, .i32⟩ : BufTy).Contents (Elt F) → (⟨S100000x6, .i32⟩ : BufTy).Contents (Elt F)),
    binary main_arg2 main_v120 main_v121 (cmpi .slt : (⟨S100000x6, .i32⟩ : BufTy).Contents (Elt F) → (⟨S100000x6, .i32⟩ : BufTy).Contents (Elt F) → (⟨S100000x6, .i1⟩ : BufTy).Contents (Elt F)),
    nullary main_c_27 (constantI S_ 32 200000#32),
    unary main_c_27 main_v122 (broadcastInDim S100000x6 ![] bcast_S_S100000x6 : (⟨S_, .i32⟩ : BufTy).Contents (Elt F) → (⟨S100000x6, .i32⟩ : BufTy).Contents (Elt F)),
    binary main_arg2 main_v122 main_v123 (addi : (⟨S100000x6, .i32⟩ : BufTy).Contents (Elt F) → (⟨S100000x6, .i32⟩ : BufTy).Contents (Elt F) → (⟨S100000x6, .i32⟩ : BufTy).Contents (Elt F)),
    ternary main_v121 main_v123 main_arg2 main_v124 (select : (⟨S100000x6, .i1⟩ : BufTy).Contents (Elt F) → (⟨S100000x6, .i32⟩ : BufTy).Contents (Elt F) → (⟨S100000x6, .i32⟩ : BufTy).Contents (Elt F) → (⟨S100000x6, .i32⟩ : BufTy).Contents (Elt F)),
    unary main_v124 main_v125 (broadcastInDim S100000x6x1 ![0, 1] bcast_S100000x6_S100000x6x1_0_1 : (⟨S100000x6, .i32⟩ : BufTy).Contents (Elt F) → (⟨S100000x6x1, .i32⟩ : BufTy).Contents (Elt F)),
    binary main_v119 main_v125 main_v126 ((fun x i => Host.gather gather_S200000x267_S100000x6x1_S100000x6x267_2_0_n_n_0_2_1267 x i) : (⟨S200000x267, .f32⟩ : BufTy).Contents (Elt F) → (⟨S100000x6x1, .i32⟩ : BufTy).Contents (Elt F) → (⟨S100000x6x267, .f32⟩ : BufTy).Contents (Elt F)),
    nullary main_cst_28 (constant S_ .f32 0x00000000#32),
    binary main_v126 main_cst_28 main_v127 ((fun x v => Host.reduceAdd x v reducesTo_S100000x6x267_S100000x267_d1 h_S_) : (⟨S100000x6x267, .f32⟩ : BufTy).Contents (Elt F) → (⟨S_, .f32⟩ : BufTy).Contents (Elt F) → (⟨S100000x267, .f32⟩ : BufTy).Contents (Elt F)),
    unary main_arg5 main_v128 ((transpose S267x256 [1, 0] · transposes_S256x267_S267x256_1_0) : (⟨S256x267, .f32⟩ : BufTy).Contents (Elt F) → (⟨S267x256, .f32⟩ : BufTy).Contents (Elt F)),
    binary main_v127 main_v128 main_v129 ((fun l r => Host.dotGeneral dot_S100000x267_S267x256_S100000x256_1_0_0_1_n_n none l r) : (⟨S100000x267, .f32⟩ : BufTy).Contents (Elt F) → (⟨S267x256, .f32⟩ : BufTy).Contents (Elt F) → (⟨S100000x256, .f32⟩ : BufTy).Contents (Elt F)),
    binary main_v2 main_v129 main_v130 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x256, .f32⟩) main_call6_v0) (broadcastInDim S100000x256 ![] bcast_S_S100000x256),
    TRef.binary (TRef.of (T := ⟨S100000x256, .f32⟩) main_v130) (TRef.of (T := ⟨S100000x256, .f32⟩) main_call6_v0) (TRef.of (T := ⟨S100000x256, .f32⟩) main_v131) maximumf ]

abbrev seg7 : List (HloOp τ sig (Elt F)) :=
  [ unary main_v131 main_v132 ((transpose S256x100000 [1, 0] · transposes_S100000x256_S256x100000_1_0) : (⟨S100000x256, .f32⟩ : BufTy).Contents (Elt F) → (⟨S256x100000, .f32⟩ : BufTy).Contents (Elt F)) ]

set_option maxRecDepth 8192 in
/-- The line is its stretches in order. -/
theorem ops_eq : (ops : List (HloOp τ sig (Elt F))) = seg0 ++ (seg1 ++ (seg2 ++ (seg3 ++ (seg4 ++ (seg5 ++ (seg6 ++ seg7)))))) := rfl

/-- The fold over the line is the stretches' folds composed. -/
theorem after_ops (V : Valuation τ sig (Elt F)) :
    after (ops (F := F)) V = after seg7 (after seg6 (after seg5 (after seg4 (after seg3 (after seg2 (after seg1 (after seg0 V))))))) := by
  rw [ops_eq]
  simp only [Cert.LibStages.after_append]

end Cert.ReferenceIdeal.Whole

end
-- ==== Proof.RefEnds.lean ====
/-
  The two ends of the reference: the embedding stretch and the final transpose.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The embedded atoms. -/
theorem seg0_out (W : Valuation τ sig (Elt F)) :
    after (seg0 (F := F)) W (Proc.devRef .tc main_v2) = embedR (W (Proc.devRef .tc main_arg0)) (W (Proc.devRef .tc main_arg4)) := by
  reads_stretch [seg0]
theorem seg0_keeps_main_arg1 (W : Valuation τ sig (Elt F)) : after (seg0 (F := F)) W (Proc.devRef .tc main_arg1) = W (Proc.devRef .tc main_arg1) := by
  keeps_stretch [seg0]
theorem seg0_keeps_main_arg2 (W : Valuation τ sig (Elt F)) : after (seg0 (F := F)) W (Proc.devRef .tc main_arg2) = W (Proc.devRef .tc main_arg2) := by
  keeps_stretch [seg0]
theorem seg0_keeps_main_arg3 (W : Valuation τ sig (Elt F)) : after (seg0 (F := F)) W (Proc.devRef .tc main_arg3) = W (Proc.devRef .tc main_arg3) := by
  keeps_stretch [seg0]
theorem seg0_keeps_main_arg5 (W : Valuation τ sig (Elt F)) : after (seg0 (F := F)) W (Proc.devRef .tc main_arg5) = W (Proc.devRef .tc main_arg5) := by
  keeps_stretch [seg0]

/-- The result: the last layer's output transposed. -/
theorem seg7_out (W : Valuation τ sig (Elt F)) :
    after (seg7 (F := F)) W (Proc.devRef .tc main_v132)
      = transpose S256x100000 [1, 0] (W (Proc.devRef .tc main_v131)) transposes_S100000x256_S256x100000_1_0 := by
  simp only [seg7]
  after_results_simp

end Cert.ReferenceIdeal.Whole

end
-- ==== Proof.RefKept.lean ====
/-
  No host operation of the reference writes an argument array: each of the 178 operations writes its own result
  buffer, so an argument's contents after the whole line are its contents before it.
-/
import proofs.«105317_j8340826489581_1_alg».proof.Proof.RefStages
import proofs.«105317_j8340826489581_1_alg».proof.Proof.LibStages

set_option maxRecDepth 16384
set_option maxHeartbeats 8000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

theorem kept_arg0 (V : Valuation τ sig (Elt F)) : after (ops (F := F)) V (Proc.devRef .tc main_arg0) = V (Proc.devRef .tc main_arg0) := by
  keeps_stretch [ops]

theorem kept_arg1 (V : Valuation τ sig (Elt F)) : after (ops (F := F)) V (Proc.devRef .tc main_arg1) = V (Proc.devRef .tc main_arg1) := by
  keeps_stretch [ops]

theorem kept_arg2 (V : Valuation τ sig (Elt F)) : after (ops (F := F)) V (Proc.devRef .tc main_arg2) = V (Proc.devRef .tc main_arg2) := by
  keeps_stretch [ops]

theorem kept_arg3 (V : Valuation τ sig (Elt F)) : after (ops (F := F)) V (Proc.devRef .tc main_arg3) = V (Proc.devRef .tc main_arg3) := by
  keeps_stretch [ops]

theorem kept_arg4 (V : Valuation τ sig (Elt F)) : after (ops (F := F)) V (Proc.devRef .tc main_arg4) = V (Proc.devRef .tc main_arg4) := by
  keeps_stretch [ops]

theorem kept_arg5 (V : Valuation τ sig (Elt F)) : after (ops (F := F)) V (Proc.devRef .tc main_arg5) = V (Proc.devRef .tc main_arg5) := by
  keeps_stretch [ops]

end Cert.ReferenceIdeal.Whole

end
-- ==== Proof.RefDepth1.lean ====
/-
  Layer 1 of the reference: what its stretch of host operations writes and what it leaves alone.

  The stretch gathers the neighbour messages from the previous layer's output, having read the bonds' target atoms
  off the bond array and written the zero row, and writes the layer's output; the embedded atoms, the arguments are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg1_out (W : Valuation τ sig (Elt F)) :
    after (seg1 (F := F)) W (Proc.devRef .tc main_v26)
      = layerR (W (Proc.devRef .tc main_v2)) (messages (W (Proc.devRef .tc main_v2)) (bondTargets (W (Proc.devRef .tc main_arg3))) zeroRow (W (Proc.devRef .tc main_arg1)) (W (Proc.devRef .tc main_arg2))) (W (Proc.devRef .tc main_arg5)) := by
  reads_stretch [seg1]

theorem seg1_bondTargets (W : Valuation τ sig (Elt F)) :
    after (seg1 (F := F)) W (Proc.devRef .tc main_v4) = bondTargets (W (Proc.devRef .tc main_arg3)) := by
  reads_stretch [seg1]
theorem seg1_zeroRow (W : Valuation τ sig (Elt F)) :
    after (seg1 (F := F)) W (Proc.devRef .tc main_v5) = zeroRow := by
  reads_stretch [seg1]

theorem seg1_keeps_main_arg1 (W : Valuation τ sig (Elt F)) : after (seg1 (F := F)) W (Proc.devRef .tc main_arg1) = W (Proc.devRef .tc main_arg1) := by
  keeps_stretch [seg1]
theorem seg1_keeps_main_arg2 (W : Valuation τ sig (Elt F)) : after (seg1 (F := F)) W (Proc.devRef .tc main_arg2) = W (Proc.devRef .tc main_arg2) := by
  keeps_stretch [seg1]
theorem seg1_keeps_main_arg5 (W : Valuation τ sig (Elt F)) : after (seg1 (F := F)) W (Proc.devRef .tc main_arg5) = W (Proc.devRef .tc main_arg5) := by
  keeps_stretch [seg1]
theorem seg1_keeps_main_v2 (W : Valuation τ sig (Elt F)) : after (seg1 (F := F)) W (Proc.devRef .tc main_v2) = W (Proc.devRef .tc main_v2) := by
  keeps_stretch [seg1]

end Cert.ReferenceIdeal.Whole

end
-- ==== Proof.RefDepth2.lean ====
/-
  Layer 2 of the reference: what its stretch of host operations writes and what it leaves alone.

  The stretch gathers the neighbour messages from the previous layer's output and writes the layer's output; the embedded atoms, the arguments,
  the bond targets and the zero row are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg2_out (W : Valuation τ sig (Elt F)) :
    after (seg2 (F := F)) W (Proc.devRef .tc main_v47)
      = layerR (W (Proc.devRef .tc main_v2)) (messages (W (Proc.devRef .tc main_v26)) (W (Proc.devRef .tc main_v4)) (W (Proc.devRef .tc main_v5)) (W (Proc.devRef .tc main_arg1)) (W (Proc.devRef .tc main_arg2))) (W (Proc.devRef .tc main_arg5)) := by
  reads_stretch [seg2]

theorem seg2_keeps_main_arg1 (W : Valuation τ sig (Elt F)) : after (seg2 (F := F)) W (Proc.devRef .tc main_arg1) = W (Proc.devRef .tc main_arg1) := by
  keeps_stretch [seg2]
theorem seg2_keeps_main_arg2 (W : Valuation τ sig (Elt F)) : after (seg2 (F := F)) W (Proc.devRef .tc main_arg2) = W (Proc.devRef .tc main_arg2) := by
  keeps_stretch [seg2]
theorem seg2_keeps_main_arg5 (W : Valuation τ sig (Elt F)) : after (seg2 (F := F)) W (Proc.devRef .tc main_arg5) = W (Proc.devRef .tc main_arg5) := by
  keeps_stretch [seg2]
theorem seg2_keeps_main_v2 (W : Valuation τ sig (Elt F)) : after (seg2 (F := F)) W (Proc.devRef .tc main_v2) = W (Proc.devRef .tc main_v2) := by
  keeps_stretch [seg2]
theorem seg2_keeps_main_v4 (W : Valuation τ sig (Elt F)) : after (seg2 (F := F)) W (Proc.devRef .tc main_v4) = W (Proc.devRef .tc main_v4) := by
  keeps_stretch [seg2]
theorem seg2_keeps_main_v5 (W : Valuation τ sig (Elt F)) : after (seg2 (F := F)) W (Proc.devRef .tc main_v5) = W (Proc.devRef .tc main_v5) := by
  keeps_stretch [seg2]

end Cert.ReferenceIdeal.Whole

end
-- ==== Proof.RefDepth3.lean ====
/-
  Layer 3 of the reference: what its stretch of host operations writes and what it leaves alone.

  The stretch gathers the neighbour messages from the previous layer's output and writes the layer's output; the embedded atoms, the arguments,
  the bond targets and the zero row are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg3_out (W : Valuation τ sig (Elt F)) :
    after (seg3 (F := F)) W (Proc.devRef .tc main_v68)
      = layerR (W (Proc.devRef .tc main_v2)) (messages (W (Proc.devRef .tc main_v47)) (W (Proc.devRef .tc main_v4)) (W (Proc.devRef .tc main_v5)) (W (Proc.devRef .tc main_arg1)) (W (Proc.devRef .tc main_arg2))) (W (Proc.devRef .tc main_arg5)) := by
  reads_stretch [seg3]

theorem seg3_keeps_main_arg1 (W : Valuation τ sig (Elt F)) : after (seg3 (F := F)) W (Proc.devRef .tc main_arg1) = W (Proc.devRef .tc main_arg1) := by
  keeps_stretch [seg3]
theorem seg3_keeps_main_arg2 (W : Valuation τ sig (Elt F)) : after (seg3 (F := F)) W (Proc.devRef .tc main_arg2) = W (Proc.devRef .tc main_arg2) := by
  keeps_stretch [seg3]
theorem seg3_keeps_main_arg5 (W : Valuation τ sig (Elt F)) : after (seg3 (F := F)) W (Proc.devRef .tc main_arg5) = W (Proc.devRef .tc main_arg5) := by
  keeps_stretch [seg3]
theorem seg3_keeps_main_v2 (W : Valuation τ sig (Elt F)) : after (seg3 (F := F)) W (Proc.devRef .tc main_v2) = W (Proc.devRef .tc main_v2) := by
  keeps_stretch [seg3]
theorem seg3_keeps_main_v4 (W : Valuation τ sig (Elt F)) : after (seg3 (F := F)) W (Proc.devRef .tc main_v4) = W (Proc.devRef .tc main_v4) := by
  keeps_stretch [seg3]
theorem seg3_keeps_main_v5 (W : Valuation τ sig (Elt F)) : after (seg3 (F := F)) W (Proc.devRef .tc main_v5) = W (Proc.devRef .tc main_v5) := by
  keeps_stretch [seg3]

end Cert.ReferenceIdeal.Whole

end
-- ==== Proof.RefDepth4.lean ====
/-
  Layer 4 of the reference: what its stretch of host operations writes and what it leaves alone.

  The stretch gathers the neighbour messages from the previous layer's output and writes the layer's output; the embedded atoms, the arguments,
  the bond targets and the zero row are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg4_out (W : Valuation τ sig (Elt F)) :
    after (seg4 (F := F)) W (Proc.devRef .tc main_v89)
      = layerR (W (Proc.devRef .tc main_v2)) (messages (W (Proc.devRef .tc main_v68)) (W (Proc.devRef .tc main_v4)) (W (Proc.devRef .tc main_v5)) (W (Proc.devRef .tc main_arg1)) (W (Proc.devRef .tc main_arg2))) (W (Proc.devRef .tc main_arg5)) := by
  reads_stretch [seg4]

theorem seg4_keeps_main_arg1 (W : Valuation τ sig (Elt F)) : after (seg4 (F := F)) W (Proc.devRef .tc main_arg1) = W (Proc.devRef .tc main_arg1) := by
  keeps_stretch [seg4]
theorem seg4_keeps_main_arg2 (W : Valuation τ sig (Elt F)) : after (seg4 (F := F)) W (Proc.devRef .tc main_arg2) = W (Proc.devRef .tc main_arg2) := by
  keeps_stretch [seg4]
theorem seg4_keeps_main_arg5 (W : Valuation τ sig (Elt F)) : after (seg4 (F := F)) W (Proc.devRef .tc main_arg5) = W (Proc.devRef .tc main_arg5) := by
  keeps_stretch [seg4]
theorem seg4_keeps_main_v2 (W : Valuation τ sig (Elt F)) : after (seg4 (F := F)) W (Proc.devRef .tc main_v2) = W (Proc.devRef .tc main_v2) := by
  keeps_stretch [seg4]
theorem seg4_keeps_main_v4 (W : Valuation τ sig (Elt F)) : after (seg4 (F := F)) W (Proc.devRef .tc main_v4) = W (Proc.devRef .tc main_v4) := by
  keeps_stretch [seg4]
theorem seg4_keeps_main_v5 (W : Valuation τ sig (Elt F)) : after (seg4 (F := F)) W (Proc.devRef .tc main_v5) = W (Proc.devRef .tc main_v5) := by
  keeps_stretch [seg4]

end Cert.ReferenceIdeal.Whole

end
-- ==== Proof.RefDepth5.lean ====
/-
  Layer 5 of the reference: what its stretch of host operations writes and what it leaves alone.

  The stretch gathers the neighbour messages from the previous layer's output and writes the layer's output; the embedded atoms, the arguments,
  the bond targets and the zero row are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg5_out (W : Valuation τ sig (Elt F)) :
    after (seg5 (F := F)) W (Proc.devRef .tc main_v110)
      = layerR (W (Proc.devRef .tc main_v2)) (messages (W (Proc.devRef .tc main_v89)) (W (Proc.devRef .tc main_v4)) (W (Proc.devRef .tc main_v5)) (W (Proc.devRef .tc main_arg1)) (W (Proc.devRef .tc main_arg2))) (W (Proc.devRef .tc main_arg5)) := by
  reads_stretch [seg5]

theorem seg5_keeps_main_arg1 (W : Valuation τ sig (Elt F)) : after (seg5 (F := F)) W (Proc.devRef .tc main_arg1) = W (Proc.devRef .tc main_arg1) := by
  keeps_stretch [seg5]
theorem seg5_keeps_main_arg2 (W : Valuation τ sig (Elt F)) : after (seg5 (F := F)) W (Proc.devRef .tc main_arg2) = W (Proc.devRef .tc main_arg2) := by
  keeps_stretch [seg5]
theorem seg5_keeps_main_arg5 (W : Valuation τ sig (Elt F)) : after (seg5 (F := F)) W (Proc.devRef .tc main_arg5) = W (Proc.devRef .tc main_arg5) := by
  keeps_stretch [seg5]
theorem seg5_keeps_main_v2 (W : Valuation τ sig (Elt F)) : after (seg5 (F := F)) W (Proc.devRef .tc main_v2) = W (Proc.devRef .tc main_v2) := by
  keeps_stretch [seg5]
theorem seg5_keeps_main_v4 (W : Valuation τ sig (Elt F)) : after (seg5 (F := F)) W (Proc.devRef .tc main_v4) = W (Proc.devRef .tc main_v4) := by
  keeps_stretch [seg5]
theorem seg5_keeps_main_v5 (W : Valuation τ sig (Elt F)) : after (seg5 (F := F)) W (Proc.devRef .tc main_v5) = W (Proc.devRef .tc main_v5) := by
  keeps_stretch [seg5]

end Cert.ReferenceIdeal.Whole

end
-- ==== Proof.RefDepth6.lean ====
/-
  Layer 6 of the reference: what its stretch of host operations writes and what it leaves alone.

  The stretch gathers the neighbour messages from the previous layer's output and writes the layer's output; the embedded atoms, the arguments,
  the bond targets and the zero row are not written.
-/
import proofs.«105317_j8340826489581_1_alg».proof.Proof.RefStages
import proofs.«105317_j8340826489581_1_alg».proof.Proof.LibStages

set_option maxRecDepth 16384
set_option maxHeartbeats 4000000

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The layer's output, from what any valuation holds in the buffers the stretch reads. -/
theorem seg6_out (W : Valuation τ sig (Elt F)) :
    after (seg6 (F := F)) W (Proc.devRef .tc main_v131)
      = layerR (W (Proc.devRef .tc main_v2)) (messages (W (Proc.devRef .tc main_v110)) (W (Proc.devRef .tc main_v4)) (W (Proc.devRef .tc main_v5)) (W (Proc.devRef .tc main_arg1)) (W (Proc.devRef .tc main_arg2))) (W (Proc.devRef .tc main_arg5)) := by
  reads_stretch [seg6]

theorem seg6_keeps_main_arg1 (W : Valuation τ sig (Elt F)) : after (seg6 (F := F)) W (Proc.devRef .tc main_arg1) = W (Proc.devRef .tc main_arg1) := by
  keeps_stretch [seg6]
theorem seg6_keeps_main_arg2 (W : Valuation τ sig (Elt F)) : after (seg6 (F := F)) W (Proc.devRef .tc main_arg2) = W (Proc.devRef .tc main_arg2) := by
  keeps_stretch [seg6]
theorem seg6_keeps_main_arg5 (W : Valuation τ sig (Elt F)) : after (seg6 (F := F)) W (Proc.devRef .tc main_arg5) = W (Proc.devRef .tc main_arg5) := by
  keeps_stretch [seg6]
theorem seg6_keeps_main_v2 (W : Valuation τ sig (Elt F)) : after (seg6 (F := F)) W (Proc.devRef .tc main_v2) = W (Proc.devRef .tc main_v2) := by
  keeps_stretch [seg6]
theorem seg6_keeps_main_v4 (W : Valuation τ sig (Elt F)) : after (seg6 (F := F)) W (Proc.devRef .tc main_v4) = W (Proc.devRef .tc main_v4) := by
  keeps_stretch [seg6]
theorem seg6_keeps_main_v5 (W : Valuation τ sig (Elt F)) : after (seg6 (F := F)) W (Proc.devRef .tc main_v5) = W (Proc.devRef .tc main_v5) := by
  keeps_stretch [seg6]

end Cert.ReferenceIdeal.Whole

end
-- ==== Proof.RefValue.lean ====
/-
  The reference's result as one function of its six argument arrays, and its run.

  Stretch by stretch, the embedded atoms, the bond targets, the zero row and the arguments are carried along, and
  each layer's output is the layer applied to the previous output: the result buffer ends at the six layers iterated
  from the embedded atoms, transposed — `refVal` of the arguments. No operation writes an argument.
-/
import proofs.«105317_j8340826489581_1_alg».proof.Proof.RefEnds
import proofs.«105317_j8340826489581_1_alg».proof.Proof.RefKept
import proofs.«105317_j8340826489581_1_alg».proof.Proof.RefDepth1
import proofs.«105317_j8340826489581_1_alg».proof.Proof.RefDepth2
import proofs.«105317_j8340826489581_1_alg».proof.Proof.RefDepth3
import proofs.«105317_j8340826489581_1_alg».proof.Proof.RefDepth4
import proofs.«105317_j8340826489581_1_alg».proof.Proof.RefDepth5
import proofs.«105317_j8340826489581_1_alg».proof.Proof.RefDepth6

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The result as a function of the arguments: atom features, bond features, outgoing-bond indices, bond array,
    embedding weights, update weights. -/
def refVal (a0 : (⟨S100000x39, .f32⟩ : BufTy).Contents (Elt F)) (a1 : (⟨S200000x11, .f32⟩ : BufTy).Contents (Elt F)) (a2 : (⟨S100000x6, .i32⟩ : BufTy).Contents (Elt F))
    (a3 : (⟨S200000x2, .i32⟩ : BufTy).Contents (Elt F)) (a4 : (⟨S256x39, .f32⟩ : BufTy).Contents (Elt F)) (a5 : (⟨S256x267, .f32⟩ : BufTy).Contents (Elt F)) : (⟨S256x100000, .f32⟩ : BufTy).Contents (Elt F) :=
  let L0 := embedR a0 a4
  let step := fun H => layerR L0 (messages H (bondTargets a3) zeroRow a1 a2) a5
  transpose S256x100000 [1, 0] (step (step (step (step (step (step L0)))))) transposes_S100000x256_S256x100000_1_0

set_option maxHeartbeats 8000000 in
/-- The result buffer at the end of the fold, from any valuation. -/
theorem result_eq (V : Valuation τ sig (Elt F)) :
    after (ops (F := F)) V (Proc.devRef .tc main_v132)
      = refVal (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops, seg7_out, seg6_out,
    seg5_out, seg5_keeps_main_v2, seg5_keeps_main_v4, seg5_keeps_main_v5, seg5_keeps_main_arg1, seg5_keeps_main_arg2, seg5_keeps_main_arg5,
    seg4_out, seg4_keeps_main_v2, seg4_keeps_main_v4, seg4_keeps_main_v5, seg4_keeps_main_arg1, seg4_keeps_main_arg2, seg4_keeps_main_arg5,
    seg3_out, seg3_keeps_main_v2, seg3_keeps_main_v4, seg3_keeps_main_v5, seg3_keeps_main_arg1, seg3_keeps_main_arg2, seg3_keeps_main_arg5,
    seg2_out, seg2_keeps_main_v2, seg2_keeps_main_v4, seg2_keeps_main_v5, seg2_keeps_main_arg1, seg2_keeps_main_arg2, seg2_keeps_main_arg5,
    seg1_out, seg1_keeps_main_v2, seg1_bondTargets, seg1_zeroRow, seg1_keeps_main_arg1, seg1_keeps_main_arg2, seg1_keeps_main_arg5,
    seg0_out, seg0_keeps_main_arg3, seg0_keeps_main_arg1, seg0_keeps_main_arg2, seg0_keeps_main_arg5]
  rfl

/-- Every weakly fair execution terminates, nothing faulting, with the result at `refVal` of the arguments and the
    arguments as launched. -/
theorem value_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = refVal (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c main_v132).trans (result_eq (launchContents m c)),
      (h c main_arg0).trans (kept_arg0 (launchContents m c)), (h c main_arg1).trans (kept_arg1 (launchContents m c)),
      (h c main_arg2).trans (kept_arg2 (launchContents m c)), (h c main_arg3).trans (kept_arg3 (launchContents m c)),
      (h c main_arg4).trans (kept_arg4 (launchContents m c)), (h c main_arg5).trans (kept_arg5 (launchContents m c))⟩)
    (run_fold m ρ)

end Cert.ReferenceIdeal.Whole

end
-- ==== Proof.RefLayers.lean ====
/-
  The reference's two dense layers are the kernel's, entry by entry, on the extended reals.

  The host's contraction is the plain sum over the contracted axis; its sum over the neighbour axis is the initial
  value — zero — plus the plain sum over the six neighbours; the positive part is the maximum with zero. These are the
  embedding entry and the message-passing entry the kernels' bodies compute (`embArr`, `updArr`), with the same
  transposed weights as second operand of the contraction.
-/
import proofs.«105317_j8340826489581_1_alg».proof.Proof.Layers
import proofs.«105317_j8340826489581_1_alg».proof.Proof.RefStages

set_option maxRecDepth 16384

noncomputable section

namespace Cert.ReferenceIdeal.Whole

open Cert.ReferenceIdeal Cert.ReferenceIdeal.Gen Idealize.ShloMosaic Idealize.ShloMosaic.ValueIdx
open Cert.Layers

theorem embR_lhs0 (i : S100000x256.Idx) (q : dot_S100000x39_S39x256_S100000x256_1_0_0_1_n_n.contr.Idx) : (dot_S100000x39_S39x256_S100000x256_1_0_0_1_n_n.lhsIdx i q 0).val = (i 0).val := by
  unfold DotDims.lhsIdx
  rw [dif_neg (show ¬(0 : Fin S100000x39.rank) ∈ dot_S100000x39_S39x256_S100000x256_1_0_0_1_n_n.lhsBatch by decide),
    dif_pos (show (0 : Fin S100000x39.rank) ∈ dot_S100000x39_S39x256_S100000x256_1_0_0_1_n_n.lhsNonContracting by decide)]
  rfl
theorem embR_rhs1 (i : S100000x256.Idx) (q : dot_S100000x39_S39x256_S100000x256_1_0_0_1_n_n.contr.Idx) : (dot_S100000x39_S39x256_S100000x256_1_0_0_1_n_n.rhsIdx i q 1).val = (i 1).val := by
  unfold DotDims.rhsIdx
  rw [dif_neg (show ¬(1 : Fin S39x256.rank) ∈ dot_S100000x39_S39x256_S100000x256_1_0_0_1_n_n.rhsBatch by decide),
    dif_pos (show (1 : Fin S39x256.rank) ∈ dot_S100000x39_S39x256_S100000x256_1_0_0_1_n_n.rhsNonContracting by decide)]
  rfl

/-- The left operand's entry that the product's entry `(r, j)` meets at the contracted coordinate `k`. -/
theorem embR_lhs (r : Fin 100000) (j : Fin 256) (k : Fin 39) :
    dot_S100000x39_S39x256_S100000x256_1_0_0_1_n_n.lhsIdx (ix2 r j) ((contrEquiv1 dot_S100000x39_S39x256_S100000x256_1_0_0_1_n_n 39 rfl rfl).symm k) = ix2 r k := by
  have hk := contrEquiv1_symm_val dot_S100000x39_S39x256_S100000x256_1_0_0_1_n_n 39 rfl rfl k
  exact funext fun a => Fin.ext (by
    match a with
    | ⟨0, _⟩ => exact embR_lhs0 _ _
    | ⟨1, _⟩ => exact (dot_S100000x39_S39x256_S100000x256_1_0_0_1_n_n.lhsIdx_val_of_single rfl _ _).trans hk)

/-- The right operand's entry met there. -/
theorem embR_rhs (r : Fin 100000) (j : Fin 256) (k : Fin 39) :
    dot_S100000x39_S39x256_S100000x256_1_0_0_1_n_n.rhsIdx (ix2 r j) ((contrEquiv1 dot_S100000x39_S39x256_S100000x256_1_0_0_1_n_n 39 rfl rfl).symm k) = ix2 k j := by
  have hk := contrEquiv1_symm_val dot_S100000x39_S39x256_S100000x256_1_0_0_1_n_n 39 rfl rfl k
  exact funext fun a => Fin.ext (by
    match a with
    | ⟨0, _⟩ => exact (dot_S100000x39_S39x256_S100000x256_1_0_0_1_n_n.rhsIdx_val_of_single rfl _ _).trans hk
    | ⟨1, _⟩ => exact embR_rhs1 _ _)

theorem layR_lhs0 (i : S100000x256.Idx) (q : dot_S100000x267_S267x256_S100000x256_1_0_0_1_n_n.contr.Idx) : (dot_S100000x267_S267x256_S100000x256_1_0_0_1_n_n.lhsIdx i q 0).val = (i 0).val := by
  unfold DotDims.lhsIdx
  rw [dif_neg (show ¬(0 : Fin S100000x267.rank) ∈ dot_S100000x267_S267x256_S100000x256_1_0_0_1_n_n.lhsBatch by decide),
    dif_pos (show (0 : Fin S100000x267.rank) ∈ dot_S100000x267_S267x256_S100000x256_1_0_0_1_n_n.lhsNonContracting by decide)]
  rfl
theorem layR_rhs1 (i : S100000x256.Idx) (q : dot_S100000x267_S267x256_S100000x256_1_0_0_1_n_n.contr.Idx) : (dot_S100000x267_S267x256_S100000x256_1_0_0_1_n_n.rhsIdx i q 1).val = (i 1).val := by
  unfold DotDims.rhsIdx
  rw [dif_neg (show ¬(1 : Fin S267x256.rank) ∈ dot_S100000x267_S267x256_S100000x256_1_0_0_1_n_n.rhsBatch by decide),
    dif_pos (show (1 : Fin S267x256.rank) ∈ dot_S100000x267_S267x256_S100000x256_1_0_0_1_n_n.rhsNonContracting by decide)]
  rfl

/-- The left operand's entry that the product's entry `(r, j)` meets at the contracted coordinate `k`. -/
theorem layR_lhs (r : Fin 100000) (j : Fin 256) (k : Fin 267) :
    dot_S100000x267_S267x256_S100000x256_1_0_0_1_n_n.lhsIdx (ix2 r j) ((contrEquiv1 dot_S100000x267_S267x256_S100000x256_1_0_0_1_n_n 267 rfl rfl).symm k) = ix2 r k := by
  have hk := contrEquiv1_symm_val dot_S100000x267_S267x256_S100000x256_1_0_0_1_n_n 267 rfl rfl k
  exact funext fun a => Fin.ext (by
    match a with
    | ⟨0, _⟩ => exact layR_lhs0 _ _
    | ⟨1, _⟩ => exact (dot_S100000x267_S267x256_S100000x256_1_0_0_1_n_n.lhsIdx_val_of_single rfl _ _).trans hk)

/-- The right operand's entry met there. -/
theorem layR_rhs (r : Fin 100000) (j : Fin 256) (k : Fin 267) :
    dot_S100000x267_S267x256_S100000x256_1_0_0_1_n_n.rhsIdx (ix2 r j) ((contrEquiv1 dot_S100000x267_S267x256_S100000x256_1_0_0_1_n_n 267 rfl rfl).symm k) = ix2 k j := by
  have hk := contrEquiv1_symm_val dot_S100000x267_S267x256_S100000x256_1_0_0_1_n_n 267 rfl rfl k
  exact funext fun a => Fin.ext (by
    match a with
    | ⟨0, _⟩ => exact (dot_S100000x267_S267x256_S100000x256_1_0_0_1_n_n.rhsIdx_val_of_single rfl _ _).trans hk
    | ⟨1, _⟩ => exact layR_rhs1 _ _)

/-- The reference's embedding is the embedding layer of the features and the transposed weights. -/
theorem embedR_eq (a : (⟨S100000x39, .f32⟩ : BufTy).Contents (Elt Ideal)) (w : (⟨S256x39, .f32⟩ : BufTy).Contents (Elt Ideal)) :
    embedR (F := Ideal) a w = embArr a (transpose S39x256 [1, 0] w transposes_S256x39_S39x256_1_0) := by
  unfold embedR
  generalize transpose S39x256 [1, 0] w transposes_S256x39_S39x256_1_0 = wT
  funext i
  obtain ⟨r, j, rfl⟩ : ∃ (r : Fin 100000) (j : Fin 256), i = ix2 r j := ⟨i 0, i 1, eq_ix2 i⟩
  show max (Host.dotGeneral (F := Ideal) dot_S100000x39_S39x256_S100000x256_1_0_0_1_n_n none a wT (ix2 r j)) zeroWord
      = embEntry (fun k => a (ix2 r k)) (fun k => wT (ix2 k j))
  unfold embEntry
  refine congrArg₂ max ?_ rfl
  simp only [Host.dotGeneral]
  rw [Ideal.dotGeneral_apply, ← Equiv.sum_comp (contrEquiv1 dot_S100000x39_S39x256_S100000x256_1_0_0_1_n_n 39 rfl rfl).symm]
  refine Finset.sum_congr rfl fun k _ => ?_
  rw [embR_lhs, embR_rhs]

/-- The reference's message-passing layer is the layer of the embedded atoms, the messages and the transposed weights. -/
theorem layerR_eq (h : (⟨S100000x256, .f32⟩ : BufTy).Contents (Elt Ideal)) (g : (⟨S100000x6x267, .f32⟩ : BufTy).Contents (Elt Ideal))
    (w : (⟨S256x267, .f32⟩ : BufTy).Contents (Elt Ideal)) :
    layerR (F := Ideal) h g w = updArr h g (transpose S267x256 [1, 0] w transposes_S256x267_S267x256_1_0) := by
  unfold layerR
  generalize transpose S267x256 [1, 0] w transposes_S256x267_S267x256_1_0 = wT
  funext i
  obtain ⟨r, j, rfl⟩ : ∃ (r : Fin 100000) (j : Fin 256), i = ix2 r j := ⟨i 0, i 1, eq_ix2 i⟩
  show max (h (ix2 r j) + Host.dotGeneral (F := Ideal) dot_S100000x267_S267x256_S100000x256_1_0_0_1_n_n none
        (Host.reduceAdd (F := Ideal) g (constant (F := Ideal) S_ .f32 0x00000000#32) reducesTo_S100000x6x267_S100000x267_d1 h_S_) wT (ix2 r j)) zeroWord
      = updEntry (h (ix2 r j)) (fun n k => g (ix3 r n k)) (fun k => wT (ix2 k j))
  unfold updEntry
  refine congrArg₂ max (congrArg (h (ix2 r j) + ·) ?_) rfl
  simp only [Host.dotGeneral]
  rw [Ideal.dotGeneral_apply, ← Equiv.sum_comp (contrEquiv1 dot_S100000x267_S267x256_S100000x256_1_0_0_1_n_n 267 rfl rfl).symm]
  refine Finset.sum_congr rfl fun k _ => ?_
  rw [layR_lhs, layR_rhs]
  refine congrArg (· * wT (ix2 k j)) ?_
  simp only [Host.reduceAdd, Ideal.hostReduceAdd_def]
  rw [Ideal.hostReduceAdd_single reducesTo_S100000x6x267_S100000x267_d1 (by decide)]
  show Ideal.ofBits .f32 0x00000000#32 + _ = _
  rw [Ideal.ofBits_zero_f32, zero_add]
  refine Finset.sum_congr rfl fun n _ => congrArg g (funext fun b => Fin.ext (by
    match b with
    | ⟨0, _⟩ => rfl
    | ⟨1, _⟩ => rfl
    | ⟨2, _⟩ => rfl))

end Cert.ReferenceIdeal.Whole

end
-- ==== Proof.Bridge.lean ====
/-
  The two results are one function of the arguments.

  Both programs iterate six message-passing layers from the embedded atoms and transpose the last output. The
  reference's embedding and layer are the kernel's entry by entry (a contraction is the plain sum, the host's sum over
  the neighbours starts from zero), and the host computation between two layers — the bonds' targets, the zero row,
  the two gathers — is the same operations on both sides.
-/
import proofs.«105317_j8340826489581_1_alg».proof.Proof.KernelValue
import proofs.«105317_j8340826489581_1_alg».proof.Proof.RefValue
import proofs.«105317_j8340826489581_1_alg».proof.Proof.RefLayers

set_option maxRecDepth 16384

noncomputable section

namespace Cert.Bridge

open Idealize.ShloMosaic

set_option maxHeartbeats 4000000 in
/-- The kernel's function of the arguments is the reference's. -/
theorem vals_eq (a0 : (⟨Cert.KernelIdeal.S100000x39, .f32⟩ : BufTy).Contents (Elt Ideal))
    (a1 : (⟨Cert.KernelIdeal.S200000x11, .f32⟩ : BufTy).Contents (Elt Ideal))
    (a2 : (⟨Cert.KernelIdeal.S100000x6, .i32⟩ : BufTy).Contents (Elt Ideal))
    (a3 : (⟨Cert.KernelIdeal.S200000x2, .i32⟩ : BufTy).Contents (Elt Ideal))
    (a4 : (⟨Cert.KernelIdeal.S256x39, .f32⟩ : BufTy).Contents (Elt Ideal))
    (a5 : (⟨Cert.KernelIdeal.S256x267, .f32⟩ : BufTy).Contents (Elt Ideal)) :
    Cert.ReferenceIdeal.Whole.refVal (F := Ideal) a0 a1 a2 a3 a4 a5 = Cert.KernelIdeal.Whole.kernelVal a0 a1 a2 a3 a4 a5 := by
  unfold Cert.ReferenceIdeal.Whole.refVal
  simp only [Cert.ReferenceIdeal.Whole.embedR_eq, Cert.ReferenceIdeal.Whole.layerR_eq]
  rfl

end Cert.Bridge

end
-- ==== Proof.lean ====
/- The certificate of a message-passing network on a molecular graph: 100000 atoms with 39 features, 200000 bonds
   with 11 features, six outgoing bonds per atom, 256 hidden units, six layers.

   Both programs embed the atoms, `h0 = max (fatoms · W_ninᵀ) 0`, and then six times form every bond's message (the
   previous layer's row of the bond's target atom, a zero row for bond 0, the bond's features appended), gather each
   atom's six neighbour messages, and update `H ← max (h0 + (Σ over the six neighbours of the messages) · W_nodeᵀ) 0`;
   the result is the last `H` transposed. The kernel runs the embedding and every update as a pipelined kernel over
   blocks of atoms (a matrix product into a zero accumulator on operands narrowed to a shorter float format, which is
   the identity on the extended reals); the reference runs them as host contractions. The gathers are host
   operations in both and are never opened.

   The frames of the two kernel programs are the generated ones. The reference's run is read off its line of 178 host
   operations stretch by stretch (Proof/RefProgram … RefValue); the idealized kernel's result is read off the fold
   of its fifteen segments (Proof/KernelRun, Layer0 … Layer6 for the seven kernels' output arrays, Depth0 … Depth6 for
   the segments, KernelValue); Proof/RefLayers and Proof/Bridge show the two results are one function of the arguments.
   No algebraic law beyond `0 + x = x` is needed, so the precondition is never opened. -/
import proofs.«105317_j8340826489581_1_alg».proof.Defs
import proofs.«105317_j8340826489581_1_alg».proof.Proof.Gen.Kernel
import proofs.«105317_j8340826489581_1_alg».proof.Proof.Gen.Kernel.Skeleton
import proofs.«105317_j8340826489581_1_alg».proof.Proof.Gen.Kernel.Launch
import proofs.«105317_j8340826489581_1_alg».proof.Proof.Gen.Kernel.Points
import proofs.«105317_j8340826489581_1_alg».proof.Proof.Gen.Kernel.Frame
import proofs.«105317_j8340826489581_1_alg».proof.Proof.Gen.KernelIdeal
import proofs.«105317_j8340826489581_1_alg».proof.Proof.Gen.KernelIdeal.Skeleton
import proofs.«105317_j8340826489581_1_alg».proof.Proof.Gen.KernelIdeal.Launch
import proofs.«105317_j8340826489581_1_alg».proof.Proof.Gen.KernelIdeal.Points
import proofs.«105317_j8340826489581_1_alg».proof.Proof.Gen.KernelIdeal.Frame
import proofs.«105317_j8340826489581_1_alg».proof.Proof.Gen.ReferenceIdeal
import proofs.«105317_j8340826489581_1_alg».proof.Proof.Gen.Pre_finite_inputs
import proofs.«105317_j8340826489581_1_alg».proof.Proof.KernelValue
import proofs.«105317_j8340826489581_1_alg».proof.Proof.RefValue
import proofs.«105317_j8340826489581_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Whole.value_run (F := Ideal) m ρ)

/-- The two idealized programs, run from memories agreeing on the arguments, end with the same result: the kernel's
    at its function of the arguments, the reference's at its own, and the two functions are one. -/
theorem algebraic : Cert.algebraic_KernelIdeal_ReferenceIdeal := by
  intro m ρ m' ρ' _ hagree
  refine ⟨_, Cert.KernelIdeal.Whole.value_run m ρ, ?_⟩
  refine (θ_run Cert.ReferenceIdeal.defs _ _).mono (fun _ h c => ⟨(h c).1.trans ?_, (h c).2⟩)
    (Cert.ReferenceIdeal.Whole.value_run (F := Ideal) m' ρ')
  rw [(hagree c).1, (hagree c).2.1, (hagree c).2.2.1, (hagree c).2.2.2.1, (hagree c).2.2.2.2.1, (hagree c).2.2.2.2.2]
  exact Cert.Bridge.vals_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
